-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part6 {F : FTy → Type} [FloatOps F] (main_arg7 : FVec F S3x128 .f32) (main_arg13 : FVec F S3x64 .f32) (main_arg19 : FVec F S64 .f32) (main_v98 : IVec S_ 1) (main_v101 : IVec S40 1) (main_c_39 : IVec S_ 1) : IVec S_ 1 :=
  let main_v102 : IVec S_ 1 := (fun x v => Host.reduce IntOp.andi x v reducesTo_S40_S_d0 h_S_) main_v101 main_c_39
  let main_v103 : IVec S_ 1 := andi main_v98 main_v102
  let main_cst_40 : FVec F S_ .f32 := constant S_ .f32 0x00000000#32
  let main_v104 : FVec F S3x128 .f32 := broadcastInDim S3x128 ![] bcast_S_S3x128 main_cst_40
  let main_v105 : IVec S3x128 1 := cmpf .oge main_arg7 main_v104
  let main_c_41 : IVec S_ 1 := constantI S_ 1 1#1
  let main_v106 : IVec S_ 1 := (fun x v => Host.reduce IntOp.andi x v reducesTo_S3x128_S_d0_1 h_S_) main_v105 main_c_41
  let main_v107 : IVec S_ 1 := andi main_v103 main_v106
  let main_cst_42 : FVec F S_ .f32 := constant S_ .f32 0x00000000#32
  let main_v108 : FVec F S3x64 .f32 := broadcastInDim S3x64 ![] bcast_S_S3x64 main_cst_42
  let main_v109 : IVec S3x64 1 := cmpf .oge main_arg13 main_v108
  let main_c_43 : IVec S_ 1 := constantI S_ 1 1#1
  let main_v110 : IVec S_ 1 := (fun x v => Host.reduce IntOp.andi x v reducesTo_S3x64_S_d0_1 h_S_) main_v109 main_c_43
  let main_v111 : IVec S_ 1 := andi main_v107 main_v110
  let main_cst_44 : FVec F S_ .f32 := constant S_ .f32 0x00000000#32
  let main_v112 : FVec F S64 .f32 := broadcastInDim S64 ![] bcast_S_S64 main_cst_44
  let main_v113 : IVec S64 1 := cmpf .oge main_arg19 main_v112
  let main_c_45 : IVec S_ 1 := constantI S_ 1 1#1
  let main_v114 : IVec S_ 1 := (fun x v => Host.reduce IntOp.andi x v reducesTo_S64_S_d0 h_S_) main_v113 main_c_45
  let main_v115 : IVec S_ 1 := andi main_v111 main_v114
  main_v115

def fn_part5 {F : FTy → Type} [FloatOps F] (main_arg7 : FVec F S3x128 .f32) (main_arg13 : FVec F S3x64 .f32) (main_arg19 : FVec F S64 .f32) (main_arg20 : FVec F S64x40 .f32) (main_arg21 : FVec F S40 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x40 .f32 := Host.absf main_arg20
  let main_cst_36 : FVec F S_ .f32 := constant S_ .f32 0x7F800000#32
  let main_v95 : FVec F S64x40 .f32 := broadcastInDim S64x40 ![] bcast_S_S64x40 main_cst_36
  let main_v96 : IVec S64x40 1 := cmpf .olt main_v94 main_v95
  let main_c_37 : IVec S_ 1 := constantI S_ 1 1#1
  let main_v97 : IVec S_ 1 := (fun x v => Host.reduce IntOp.andi x v reducesTo_S64x40_S_d0_1 h_S_) main_v96 main_c_37
  let main_v98 : IVec S_ 1 := andi main_v93 main_v97
  let main_v99 : FVec F S40 .f32 := Host.absf main_arg21
  let main_cst_38 : FVec F S_ .f32 := constant S_ .f32 0x7F800000#32
  let main_v100 : FVec F S40 .f32 := broadcastInDim S40 ![] bcast_S_S40 main_cst_38
  let main_v101 : IVec S40 1 := cmpf .olt main_v99 main_v100
  let main_c_39 : IVec S_ 1 := constantI S_ 1 1#1
  fn_part6 (F := F) main_arg7 main_arg13 main_arg19 main_v98 main_v101 main_c_39

def fn_part4 {F : FTy → Type} [FloatOps F] (main_arg7 : FVec F S3x128 .f32) (main_arg13 : FVec F S3x64 .f32) (main_arg15 : FVec F S64 .f32) (main_arg16 : FVec F S64 .f32) (main_arg17 : FVec F S64 .f32) (main_arg18 : FVec F S64 .f32) (main_arg19 : FVec F S64 .f32) (main_arg20 : FVec F S64x40 .f32) (main_arg21 : FVec F S40 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg7 main_arg13 main_arg19 main_arg20 main_arg21 main_v83 main_v84 main_cst_32

def fn_part3 {F : FTy → Type} [FloatOps F] (main_arg7 : FVec F S3x128 .f32) (main_arg12 : FVec F S3x64 .f32) (main_arg13 : FVec F S3x64 .f32) (main_arg14 : FVec F S64x64 .f32) (main_arg15 : FVec F S64 .f32) (main_arg16 : FVec F S64 .f32) (main_arg17 : FVec F S64 .f32) (main_arg18 : FVec F S64 .f32) (main_arg19 : FVec F S64 .f32) (main_arg20 : FVec F S64x40 .f32) (main_arg21 : FVec F S40 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg12
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg13
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg7 main_arg13 main_arg15 main_arg16 main_arg17 main_arg18 main_arg19 main_arg20 main_arg21 main_v63 main_v67

def fn_part2 {F : FTy → Type} [FloatOps F] (main_arg7 : FVec F S3x128 .f32) (main_arg8 : FVec F S3x128x64 .f32) (main_arg9 : FVec F S3x64 .f32) (main_arg10 : FVec F S3x64 .f32) (main_arg11 : FVec F S3x64 .f32) (main_arg12 : FVec F S3x64 .f32) (main_arg13 : FVec F S3x64 .f32) (main_arg14 : FVec F S64x64 .f32) (main_arg15 : FVec F S64 .f32) (main_arg16 : FVec F S64 .f32) (main_arg17 : FVec F S64 .f32) (main_arg18 : FVec F S64 .f32) (main_arg19 : FVec F S64 .f32) (main_arg20 : FVec F S64x40 .f32) (main_arg21 : FVec F S40 .f32) (main_v33 : IVec S_ 1) : IVec S_ 1 :=
  let main_v34 : FVec F S3x128x64 .f32 := Host.absf main_arg8
  let main_cst_12 : FVec F S_ .f32 := constant S_ .f32 0x7F800000#32
  let main_v35 : FVec F S3x128x64 .f32 := broadcastInDim S3x128x64 ![] bcast_S_S3x128x64 main_cst_12
  let main_v36 : IVec S3x128x64 1 := cmpf .olt main_v34 main_v35
  let main_c_13 : IVec S_ 1 := constantI S_ 1 1#1
  let main_v37 : IVec S_ 1 := (fun x v => Host.reduce IntOp.andi x v reducesTo_S3x128x64_S_d0_1_2 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg11
  let main_cst_18 : FVec F S_ .f32 := constant S_ .f32 0x7F800000#32
  let main_v50 : FVec F S3x64 .f32 := broadcastInDim S3x64 ![] bcast_S_S3x64 main_cst_18
  fn_part3 (F := F) main_arg7 main_arg12 main_arg13 main_arg14 main_arg15 main_arg16 main_arg17 main_arg18 main_arg19 main_arg20 main_arg21 main_v48 main_v49 main_v50

def fn_part1 {F : FTy → Type} [FloatOps F] (main_arg5 : FVec F S3x128 .f32) (main_arg6 : FVec F S3x128 .f32) (main_arg7 : FVec F S3x128 .f32) (main_arg8 : FVec F S3x128x64 .f32) (main_arg9 : FVec F S3x64 .f32) (main_arg10 : FVec F S3x64 .f32) (main_arg11 : FVec F S3x64 .f32) (main_arg12 : FVec F S3x64 .f32) (main_arg13 : FVec F S3x64 .f32) (main_arg14 : FVec F S64x64 .f32) (main_arg15 : FVec F S64 .f32) (main_arg16 : FVec F S64 .f32) (main_arg17 : FVec F S64 .f32) (main_arg18 : FVec F S64 .f32) (main_arg19 : FVec F S64 .f32) (main_arg20 : FVec F S64x40 .f32) (main_arg21 : FVec F S40 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x64 .f32) (main_arg1 : IVec S2x800000 32) (main_arg2 : FVec F S3x64x128 .f32) (main_arg3 : FVec F S3x128 .f32) (main_arg4 : FVec F S3x128 .f32) (main_arg5 : FVec F S3x128 .f32) (main_arg6 : FVec F S3x128 .f32) (main_arg7 : FVec F S3x128 .f32) (main_arg8 : FVec F S3x128x64 .f32) (main_arg9 : FVec F S3x64 .f32) (main_arg10 : FVec F S3x64 .f32) (main_arg11 : FVec F S3x64 .f32) (main_arg12 : FVec F S3x64 .f32) (main_arg13 : FVec F S3x64 .f32) (main_arg14 : FVec F S64x64 .f32) (main_arg15 : FVec F S64 .f32) (main_arg16 : FVec F S64 .f32) (main_arg17 : FVec F S64 .f32) (main_arg18 : FVec F S64 .f32) (main_arg19 : FVec F S64 .f32) (main_arg20 : FVec F S64x40 .f32) (main_arg21 : FVec F S40 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x128 .f32 := Host.absf main_arg2
  let main_cst_0 : FVec F S_ .f32 := constant S_ .f32 0x7F800000#32
  let main_v5 : FVec F S3x64x128 .f32 := broadcastInDim S3x64x128 ![] bcast_S_S3x64x128 main_cst_0
  let main_v6 : IVec S3x64x128 1 := cmpf .olt main_v4 main_v5
  let main_c_1 : IVec S_ 1 := constantI S_ 1 1#1
  let main_v7 : IVec S_ 1 := (fun x v => Host.reduce IntOp.andi x v reducesTo_S3x64x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S2x800000 : Shape := ⟨2, ![2, 800000]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S5000x64 : Shape := ⟨2, ![5000, 64]⟩
abbrev S5000x128 : Shape := ⟨2, ![5000, 128]⟩
abbrev S50000x40 : Shape := ⟨2, ![50000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 141
  | .vmem => 66
  | .smem => 0
  | _ => 0

abbrev hbmTy0_0 (i : Nat) : BufTy := match i % 128 with
  | 0 => ⟨S50000x64, .f32⟩
  | 1 => ⟨S2x800000, .i32⟩
  | 2 => ⟨S3x64x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S3x128x64, .f32⟩
  | 9 => ⟨S3x64, .f32⟩
  | 10 => ⟨S3x64, .f32⟩
  | 11 => ⟨S3x64, .f32⟩
  | 12 => ⟨S3x64, .f32⟩
  | 13 => ⟨S3x64, .f32⟩
  | 14 => ⟨S64x64, .f32⟩
  | 15 => ⟨S64, .f32⟩
  | 16 => ⟨S64, .f32⟩
  | 17 => ⟨S64, .f32⟩
  | 18 => ⟨S64, .f32⟩
  | 19 => ⟨S64, .f32⟩
  | 20 => ⟨S64x40, .f32⟩
  | 21 => ⟨S40, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S1x64x128, .f32⟩
  | 40 => ⟨S64x128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128x64, .f32⟩
  | 52 => ⟨S128x64, .f32⟩
  | 53 => ⟨S1x64, .f32⟩
  | 54 => ⟨S64, .f32⟩
  | 55 => ⟨S1x64, .f32⟩
  | 56 => ⟨S64, .f32⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S50000x64, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S_, .f32⟩
  | 74 => ⟨S50000x64, .f32⟩
  | 75 => ⟨S800000x1, .i32⟩
  | 76 => ⟨S50000x64, .f32⟩
  | 77 => ⟨S1x64x128, .f32⟩
  | 78 => ⟨S64x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128x64, .f32⟩
  | 90 => ⟨S128x64, .f32⟩
  | 91 => ⟨S1x64, .f32⟩
  | 92 => ⟨S64, .f32⟩
  | 93 => ⟨S1x64, .f32⟩
  | 94 => ⟨S64, .f32⟩
  | 95 => ⟨S1x64, .f32⟩
  | 96 => ⟨S64, .f32⟩
  | 97 => ⟨S1x64, .f32⟩
  | 98 => ⟨S64, .f32⟩
  | 99 => ⟨S1x64, .f32⟩
  | 100 => ⟨S64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S1x64x128, .f32⟩
  | 116 => ⟨S64x128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128x64, .f32⟩
  | _ => ⟨S50000x64, .f32⟩

abbrev hbmTy0_1 (i : Nat) : BufTy := match i % 128 with
  | 0 => ⟨S128x64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S64, .f32⟩
  | 11 => ⟨S50000x64, .f32⟩
  | 12 => ⟨S50000x40, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S128x64, .f32⟩
  | .local _ .vmem, ⟨29, _⟩ => ⟨S64, .f32⟩
  | .local _ .vmem, ⟨30, _⟩ => ⟨S64, .f32⟩
  | .local _ .vmem, ⟨31, _⟩ => ⟨S64, .f32⟩
  | .local _ .vmem, ⟨32, _⟩ => ⟨S64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x128, .f32⟩
  | .local _ .vmem, ⟨41, _⟩ => ⟨S128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S128x64, .f32⟩
  | .local _ .vmem, ⟨47, _⟩ => ⟨S64, .f32⟩
  | .local _ .vmem, ⟨48, _⟩ => ⟨S64, .f32⟩
  | .local _ .vmem, ⟨49, _⟩ => ⟨S64, .f32⟩
  | .local _ .vmem, ⟨50, _⟩ => ⟨S64, .f32⟩
  | .local _ .vmem, ⟨51, _⟩ => ⟨S64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S64x64, .f32⟩
  | .local _ .vmem, ⟨57, _⟩ => ⟨S64, .f32⟩
  | .local _ .vmem, ⟨58, _⟩ => ⟨S64, .f32⟩
  | .local _ .vmem, ⟨59, _⟩ => ⟨S64, .f32⟩
  | .local _ .vmem, ⟨60, _⟩ => ⟨S64, .f32⟩
  | .local _ .vmem, ⟨61, _⟩ => ⟨S64, .f32⟩
  | .local _ .vmem, ⟨62, _⟩ => ⟨S64x40, .f32⟩
  | .local _ .vmem, ⟨63, _⟩ => ⟨S40, .f32⟩
  | .local _ .vmem, ⟨64, _⟩ => ⟨S5000x40, .f32⟩
  | .local _ .vmem, ⟨65, _⟩ => ⟨S5000x40, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_1 : Ref sig .tc := ⟨.hbm, 64, rfl⟩
abbrev main_v39 : Ref sig .tc := ⟨.hbm, 65, rfl⟩
abbrev main_v40 : Ref sig .tc := ⟨.hbm, 66, rfl⟩
abbrev main_c_2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_4 : Ref sig .tc := ⟨.hbm, 102, rfl⟩
abbrev main_v74 : Ref sig .tc := ⟨.hbm, 103, rfl⟩
abbrev main_v75 : Ref sig .tc := ⟨.hbm, 104, rfl⟩
abbrev main_c_5 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_6 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc2_stg12_0 : Ref sig .tc := ⟨.vmem, 50, rfl⟩
abbrev cc2_stg13_0 : Ref sig .tc := ⟨.vmem, 51, rfl⟩
abbrev cc2_stg14_0 : Ref sig .tc := ⟨.vmem, 52, rfl⟩
abbrev cc2_stg14_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg2_0 : Ref sig .tc := ⟨.vmem, 57, rfl⟩
abbrev cc3_stg3_0 : Ref sig .tc := ⟨.vmem, 58, rfl⟩
abbrev cc3_stg4_0 : Ref sig .tc := ⟨.vmem, 59, rfl⟩
abbrev cc3_stg5_0 : Ref sig .tc := ⟨.vmem, 60, rfl⟩
abbrev cc3_stg6_0 : Ref sig .tc := ⟨.vmem, 61, rfl⟩
abbrev cc3_stg7_0 : Ref sig .tc := ⟨.vmem, 62, rfl⟩
abbrev cc3_stg8_0 : Ref sig .tc := ⟨.vmem, 63, rfl⟩
abbrev cc3_stg9_0 : Ref sig .tc := ⟨.vmem, 64, rfl⟩
abbrev cc3_stg9_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem14_0 : DmaSem sig := 52
abbrev cc2_sem14_1 : DmaSem sig := 53
abbrev cc3_sem0_0 : DmaSem sig := 54
abbrev cc3_sem0_1 : DmaSem sig := 55
abbrev cc3_sem1_0 : DmaSem sig := 56
abbrev cc3_sem2_0 : DmaSem sig := 57
abbrev cc3_sem3_0 : DmaSem sig := 58
abbrev cc3_sem4_0 : DmaSem sig := 59
abbrev cc3_sem5_0 : DmaSem sig := 60
abbrev cc3_sem6_0 : DmaSem sig := 61
abbrev cc3_sem7_0 : DmaSem sig := 62
abbrev cc3_sem8_0 : DmaSem sig := 63
abbrev cc3_sem9_0 : DmaSem sig := 64
abbrev cc3_sem9_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S5000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x40 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S40 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x40 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x64.size a ≤ S50000x64.size a
  hwx0_14 : ∀ i : grid0.Coords, EltTy.bits .f32 = 32 ∨ (Rect.block (s := S50000x64) S5000x64.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64.size a ≤ S64.size a
  hwx1_11 : ∀ i : grid1.Coords, EltTy.bits .f32 = 32 ∨ (Rect.block (s := S64) S64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64.size a ≤ S64.size a
  hwx1_12 : ∀ i : grid1.Coords, EltTy.bits .f32 = 32 ∨ (Rect.block (s := S64) S64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64.size a ≤ S64.size a
  hwx1_13 : ∀ i : grid1.Coords, EltTy.bits .f32 = 32 ∨ (Rect.block (s := S64) S64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x64.size a ≤ S50000x64.size a
  hwx1_14 : ∀ i : grid1.Coords, EltTy.bits .f32 = 32 ∨ (Rect.block (s := S50000x64) S5000x64.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64.size a ≤ S64.size a
  hwx2_11 : ∀ i : grid2.Coords, EltTy.bits .f32 = 32 ∨ (Rect.block (s := S64) S64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S64.size a ≤ S64.size a
  hwx2_13 : ∀ i : grid2.Coords, EltTy.bits .f32 = 32 ∨ (Rect.block (s := S64) S64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S5000x64.size a ≤ S50000x64.size a
  hwx2_14 : ∀ i : grid2.Coords, EltTy.bits .f32 = 32 ∨ (Rect.block (s := S50000x64) S5000x64.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x40.size a ≤ S64x40.size a
  hwx3_7 : ∀ i : grid3.Coords, EltTy.bits .f32 = 32 ∨ (Rect.block (s := S64x40) S64x40.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S40.size a ≤ S40.size a
  hwx3_8 : ∀ i : grid3.Coords, EltTy.bits .f32 = 32 ∨ (Rect.block (s := S40) S40.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x40.size a ≤ S50000x40.size a
  hwx3_9 : ∀ i : grid3.Coords, EltTy.bits .f32 = 32 ∨ (Rect.block (s := S50000x40) S5000x40.size (cc3_transform_9 i) (hinb3_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v35) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v37) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38) S5000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v62) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v64) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v66) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v68) S64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v70) S64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v72) S64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v73) S5000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v83) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v93) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v95) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v97) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v99) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v101) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v103) S64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v105) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v107) S64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v108) S5000x64.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v108) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg19) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg20) S64x40.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg21) S40.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v109) S5000x40.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x128 : Shape := ⟨3, ![1, 64, 128]⟩
abbrev S64x128 : Shape := ⟨2, ![64, 128]⟩
abbrev S50000x128 : Shape := ⟨2, ![50000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 320
  | .vmem => 0
  | .smem => 0
  | _ => 0

abbrev hbmTy0_0 (i : Nat) : BufTy := match i % 128 with
  | 0 => ⟨S50000x64, .f32⟩
  | 1 => ⟨S2x800000, .i32⟩
  | 2 => ⟨S3x64x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S3x128x64, .f32⟩
  | 9 => ⟨S3x64, .f32⟩
  | 10 => ⟨S3x64, .f32⟩
  | 11 => ⟨S3x64, .f32⟩
  | 12 => ⟨S3x64, .f32⟩
  | 13 => ⟨S3x64, .f32⟩
  | 14 => ⟨S64x64, .f32⟩
  | 15 => ⟨S64, .f32⟩
  | 16 => ⟨S64, .f32⟩
  | 17 => ⟨S64, .f32⟩
  | 18 => ⟨S64, .f32⟩
  | 19 => ⟨S64, .f32⟩
  | 20 => ⟨S64x40, .f32⟩
  | 21 => ⟨S40, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S50000x64, .f32⟩
  | 40 => ⟨S1x64x128, .f32⟩
  | 41 => ⟨S64x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S1x128x64, .f32⟩
  | 76 => ⟨S128x64, .f32⟩
  | 77 => ⟨S50000x64, .f32⟩
  | 78 => ⟨S1x64, .f32⟩
  | 79 => ⟨S64, .f32⟩
  | 80 => ⟨S1x64, .f32⟩
  | 81 => ⟨S50000x64, .f32⟩
  | 82 => ⟨S50000x64, .f32⟩
  | 83 => ⟨S1x64, .f32⟩
  | 84 => ⟨S64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S50000x64, .f32⟩
  | 93 => ⟨S50000x64, .f32⟩
  | 94 => ⟨S_, .f32⟩
  | 95 => ⟨S64, .f32⟩
  | 96 => ⟨S64, .f32⟩
  | 97 => ⟨S64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S_, .f32⟩
  | 120 => ⟨S50000x64, .f32⟩
  | 121 => ⟨S800000x1, .i32⟩
  | 122 => ⟨S50000x64, .f32⟩
  | 123 => ⟨S50000x64, .f32⟩
  | 124 => ⟨S1x64x128, .f32⟩
  | 125 => ⟨S64x128, .f32⟩
  | 126 => ⟨S50000x128, .f32⟩
  | 127 => ⟨S1x128, .f32⟩
  | _ => ⟨S50000x64, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S1x128x64, .f32⟩
  | 32 => ⟨S128x64, .f32⟩
  | 33 => ⟨S50000x64, .f32⟩
  | 34 => ⟨S1x64, .f32⟩
  | 35 => ⟨S64, .f32⟩
  | 36 => ⟨S1x64, .f32⟩
  | 37 => ⟨S50000x64, .f32⟩
  | 38 => ⟨S50000x64, .f32⟩
  | 39 => ⟨S1x64, .f32⟩
  | 40 => ⟨S64, .f32⟩
  | 41 => ⟨S1x64, .f32⟩
  | 42 => ⟨S64, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S64, .f32⟩
  | 52 => ⟨S64, .f32⟩
  | 53 => ⟨S64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S_, .f32⟩
  | 76 => ⟨S50000x64, .f32⟩
  | 77 => ⟨S800000x1, .i32⟩
  | 78 => ⟨S50000x64, .f32⟩
  | 79 => ⟨S50000x64, .f32⟩
  | 80 => ⟨S1x64x128, .f32⟩
  | 81 => ⟨S64x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S1x128x64, .f32⟩
  | 116 => ⟨S128x64, .f32⟩
  | 117 => ⟨S50000x64, .f32⟩
  | 118 => ⟨S1x64, .f32⟩
  | 119 => ⟨S64, .f32⟩
  | 120 => ⟨S1x64, .f32⟩
  | 121 => ⟨S50000x64, .f32⟩
  | 122 => ⟨S50000x64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S50000x64, .f32⟩

abbrev hbmTy0_2 (i : Nat) : BufTy := match i % 128 with
  | 0 => ⟨S64, .f32⟩
  | 1 => ⟨S1x64, .f32⟩
  | 2 => ⟨S64, .f32⟩
  | 3 => ⟨S1x64, .f32⟩
  | 4 => ⟨S50000x64, .f32⟩
  | 5 => ⟨S50000x64, .f32⟩
  | 6 => ⟨S_, .f32⟩
  | 7 => ⟨S64, .f32⟩
  | 8 => ⟨S64, .f32⟩
  | 9 => ⟨S64, .f32⟩
  | 10 => ⟨S1x64, .f32⟩
  | 11 => ⟨S50000x64, .f32⟩
  | 12 => ⟨S50000x64, .f32⟩
  | 13 => ⟨S1x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S64, .f32⟩
  | 31 => ⟨S64, .f32⟩
  | 32 => ⟨S64, .f32⟩
  | 33 => ⟨S1x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S50000x40, .f32⟩
  | 46 => ⟨S1x40, .f32⟩
  | 47 => ⟨S50000x40, .f32⟩
  | 48 => ⟨S50000x40, .f32⟩
  | 49 => ⟨S_, .f32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x40, .f32⟩
  | 56 => ⟨S50000x40, .f32⟩
  | 57 => ⟨S50000x40, .f32⟩
  | 58 => ⟨S_, .f32⟩
  | 59 => ⟨S50000, .f32⟩
  | 60 => ⟨S50000x1, .f32⟩
  | 61 => ⟨S50000x1, .f32⟩
  | 62 => ⟨S50000x40, .f32⟩
  | 63 => ⟨S50000x40, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call0_cst : Ref sig .tc := ⟨.hbm, 72, rfl⟩
abbrev main_call0_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_2 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call1_cst : Ref sig .tc := ⟨.hbm, 107, rfl⟩
abbrev main_call1_v0 : Ref sig .tc := ⟨.hbm, 108, rfl⟩
abbrev main_v78 : Ref sig .tc := ⟨.hbm, 109, rfl⟩
abbrev main_c_3 : Ref sig .tc := ⟨.hbm, 110, rfl⟩
abbrev main_v79 : Ref sig .tc := ⟨.hbm, 111, rfl⟩
abbrev main_v80 : Ref sig .tc := ⟨.hbm, 112, rfl⟩
abbrev main_c_4 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_5 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_6 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_call2_cst : Ref sig .tc := ⟨.hbm, 156, rfl⟩
abbrev main_call2_v0 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_7 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_call3_cst : Ref sig .tc := ⟨.hbm, 191, rfl⟩
abbrev main_call3_v0 : Ref sig .tc := ⟨.hbm, 192, rfl⟩
abbrev main_v153 : Ref sig .tc := ⟨.hbm, 193, rfl⟩
abbrev main_c_8 : Ref sig .tc := ⟨.hbm, 194, rfl⟩
abbrev main_v154 : Ref sig .tc := ⟨.hbm, 195, rfl⟩
abbrev main_v155 : Ref sig .tc := ⟨.hbm, 196, rfl⟩
abbrev main_c_9 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_10 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_cst_11 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_call4_cst : Ref sig .tc := ⟨.hbm, 240, rfl⟩
abbrev main_call4_v0 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_cst_12 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_call5_cst : Ref sig .tc := ⟨.hbm, 275, rfl⟩
abbrev main_call5_v0 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_cst_13 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_call6_cst : Ref sig .tc := ⟨.hbm, 298, rfl⟩
abbrev main_call6_v0 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_call7_cst : Ref sig .tc := ⟨.hbm, 305, rfl⟩
abbrev main_call7_v0 : Ref sig .tc := ⟨.hbm, 306, rfl⟩
abbrev main_call7_cst_0 : Ref sig .tc := ⟨.hbm, 307, rfl⟩
abbrev main_call7_v1 : Ref sig .tc := ⟨.hbm, 308, rfl⟩
abbrev main_call7_v2 : Ref sig .tc := ⟨.hbm, 309, rfl⟩
abbrev main_call7_v3 : Ref sig .tc := ⟨.hbm, 310, rfl⟩
abbrev main_call7_v4 : Ref sig .tc := ⟨.hbm, 311, rfl⟩
abbrev main_call7_v5 : Ref sig .tc := ⟨.hbm, 312, rfl⟩
abbrev main_call7_v6 : Ref sig .tc := ⟨.hbm, 313, rfl⟩
abbrev main_call7_cst_1 : Ref sig .tc := ⟨.hbm, 314, rfl⟩
abbrev main_call7_v7 : Ref sig .tc := ⟨.hbm, 315, rfl⟩
abbrev main_call7_v8 : Ref sig .tc := ⟨.hbm, 316, rfl⟩
abbrev main_call7_v9 : Ref sig .tc := ⟨.hbm, 317, rfl⟩
abbrev main_call7_v10 : Ref sig .tc := ⟨.hbm, 318, rfl⟩
abbrev main_v253 : Ref sig .tc := ⟨.hbm, 319, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x128 : S_.BroadcastsInDim S50000x128 (![] : Fin 0 → Fin S50000x128.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.KernelRun.lean ====
/-
  The idealized kernel's run with its result named.

  @main is seven segments: the host operations before the first layer's call (the edge lists, the first neighbour sum, the
  first layer's parameter slices), the first layer, the host operations before the second, the second layer, the host
  operations before the third, the third layer, and the head. The buffer contents at each segment boundary are a fold from
  the launch memory: a host stretch applies its operations, a region leaves each of its windows' arrays at what its
  write-backs leave. Every weakly fair execution terminates, nothing faulting, with the argument arrays as launched and the
  result array at the LAST boundary's contents of the head's output window: the same launch over the segments as the frame
  claim's, with one more buffer read off the final state.
-/
import proofs.«137670_j89919435309328_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the argument arrays end as launched. -/
theorem run_result : θ_run defs (onTc (τ := τ) (main (F := F))) ⟨m, fun _ => 0, ρ⟩ (fun r => ∀ c : Dev nD,
      r.2.mem ((c.tc : Thread nD τ).loc main_v109) = W7 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v109 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c)⟩)

end Cert.KernelIdeal.RunValue

end
-- ==== Proof.RefGlue.lean ====
/-
  The reference's data movement, named: the neighbour sums of a feature array along the edge list, and layer `l`'s
  slice of each stacked parameter array, each written with the very operations the program applies (a slice and a
  reshape; a gather of rows and a scatter-add into zeros), so that each equals the program's own term by unfolding.
  Nothing here is read index by index except the parameter slices, whose entries are entries of the stacked array.
-/
import proofs.«137670_j89919435309328_2_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-! ## The neighbour sums -/

/-- Row `d` of the result is the sum, over the edges `e` whose destination `ei[1, e]` is `d`, of row `ei[0, e]` of `x`
    (a negative source counted from the end): the rows of `x` gathered at the sources, scatter-added into zeros at the
    destinations. -/
def refAgg (x : FVec Ideal S50000x64 .f32) (ei : IVec S2x800000 32) : FVec Ideal S50000x64 .f32 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 (shapeCast _ (extractStridedSlice S1x800000 ![1, 0] ei slices_S2x800000_S1x800000_1_0) shapeCasts_S1x800000_S800000)) (Host.gather gather_S50000x64_S800000x1_S800000x64_1_0_n_n_0_1_164 x (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))))

theorem refAgg_def (x : FVec Ideal S50000x64 .f32) (ei : IVec S2x800000 32) :
    refAgg x ei = Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 (shapeCast _ (extractStridedSlice S1x800000 ![1, 0] ei slices_S2x800000_S1x800000_1_0) shapeCasts_S1x800000_S800000)) (Host.gather gather_S50000x64_S800000x1_S800000x64_1_0_n_n_0_1_164 x (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000)))) := rfl

/-! ## Layer `l`'s slice of a stacked parameter array -/

/-- Matrix `l` of a stack of three 64 × 128 matrices. -/
def refMat64x128 : Fin 3 → FVec Ideal S3x64x128 .f32 → FVec Ideal S64x128 .f32
  | ⟨0, _⟩, x => shapeCast _ (extractStridedSlice S1x64x128 ![0, 0, 0] x slices_S3x64x128_S1x64x128_0_0_0) shapeCasts_S1x64x128_S64x128
  | ⟨1, _⟩, x => shapeCast _ (extractStridedSlice S1x64x128 ![1, 0, 0] x slices_S3x64x128_S1x64x128_1_0_0) shapeCasts_S1x64x128_S64x128
  | ⟨2, _⟩, x => shapeCast _ (extractStridedSlice S1x64x128 ![2, 0, 0] x slices_S3x64x128_S1x64x128_2_0_0) shapeCasts_S1x64x128_S64x128
theorem refMat64x128_zero (x : FVec Ideal S3x64x128 .f32) : refMat64x128 0 x = shapeCast _ (extractStridedSlice S1x64x128 ![0, 0, 0] x slices_S3x64x128_S1x64x128_0_0_0) shapeCasts_S1x64x128_S64x128 := rfl
theorem refMat64x128_one (x : FVec Ideal S3x64x128 .f32) : refMat64x128 1 x = shapeCast _ (extractStridedSlice S1x64x128 ![1, 0, 0] x slices_S3x64x128_S1x64x128_1_0_0) shapeCasts_S1x64x128_S64x128 := rfl
theorem refMat64x128_two (x : FVec Ideal S3x64x128 .f32) : refMat64x128 2 x = shapeCast _ (extractStridedSlice S1x64x128 ![2, 0, 0] x slices_S3x64x128_S1x64x128_2_0_0) shapeCasts_S1x64x128_S64x128 := rfl

/-- Matrix `l` of a stack of three 128 × 64 matrices. -/
def refMat128x64 : Fin 3 → FVec Ideal S3x128x64 .f32 → FVec Ideal S128x64 .f32
  | ⟨0, _⟩, x => shapeCast _ (extractStridedSlice S1x128x64 ![0, 0, 0] x slices_S3x128x64_S1x128x64_0_0_0) shapeCasts_S1x128x64_S128x64
  | ⟨1, _⟩, x => shapeCast _ (extractStridedSlice S1x128x64 ![1, 0, 0] x slices_S3x128x64_S1x128x64_1_0_0) shapeCasts_S1x128x64_S128x64
  | ⟨2, _⟩, x => shapeCast _ (extractStridedSlice S1x128x64 ![2, 0, 0] x slices_S3x128x64_S1x128x64_2_0_0) shapeCasts_S1x128x64_S128x64
theorem refMat128x64_zero (x : FVec Ideal S3x128x64 .f32) : refMat128x64 0 x = shapeCast _ (extractStridedSlice S1x128x64 ![0, 0, 0] x slices_S3x128x64_S1x128x64_0_0_0) shapeCasts_S1x128x64_S128x64 := rfl
theorem refMat128x64_one (x : FVec Ideal S3x128x64 .f32) : refMat128x64 1 x = shapeCast _ (extractStridedSlice S1x128x64 ![1, 0, 0] x slices_S3x128x64_S1x128x64_1_0_0) shapeCasts_S1x128x64_S128x64 := rfl
theorem refMat128x64_two (x : FVec Ideal S3x128x64 .f32) : refMat128x64 2 x = shapeCast _ (extractStridedSlice S1x128x64 ![2, 0, 0] x slices_S3x128x64_S1x128x64_2_0_0) shapeCasts_S1x128x64_S128x64 := rfl

/-- Row `l` of a 3 × 128 array. -/
def refRow128 : Fin 3 → FVec Ideal S3x128 .f32 → FVec Ideal S128 .f32
  | ⟨0, _⟩, x => shapeCast _ (extractStridedSlice S1x128 ![0, 0] x slices_S3x128_S1x128_0_0) shapeCasts_S1x128_S128
  | ⟨1, _⟩, x => shapeCast _ (extractStridedSlice S1x128 ![1, 0] x slices_S3x128_S1x128_1_0) shapeCasts_S1x128_S128
  | ⟨2, _⟩, x => shapeCast _ (extractStridedSlice S1x128 ![2, 0] x slices_S3x128_S1x128_2_0) shapeCasts_S1x128_S128
theorem refRow128_zero (x : FVec Ideal S3x128 .f32) : refRow128 0 x = shapeCast _ (extractStridedSlice S1x128 ![0, 0] x slices_S3x128_S1x128_0_0) shapeCasts_S1x128_S128 := rfl
theorem refRow128_one (x : FVec Ideal S3x128 .f32) : refRow128 1 x = shapeCast _ (extractStridedSlice S1x128 ![1, 0] x slices_S3x128_S1x128_1_0) shapeCasts_S1x128_S128 := rfl
theorem refRow128_two (x : FVec Ideal S3x128 .f32) : refRow128 2 x = shapeCast _ (extractStridedSlice S1x128 ![2, 0] x slices_S3x128_S1x128_2_0) shapeCasts_S1x128_S128 := rfl

/-- Row `l` of a 3 × 64 array. -/
def refRow64 : Fin 3 → FVec Ideal S3x64 .f32 → FVec Ideal S64 .f32
  | ⟨0, _⟩, x => shapeCast _ (extractStridedSlice S1x64 ![0, 0] x slices_S3x64_S1x64_0_0) shapeCasts_S1x64_S64
  | ⟨1, _⟩, x => shapeCast _ (extractStridedSlice S1x64 ![1, 0] x slices_S3x64_S1x64_1_0) shapeCasts_S1x64_S64
  | ⟨2, _⟩, x => shapeCast _ (extractStridedSlice S1x64 ![2, 0] x slices_S3x64_S1x64_2_0) shapeCasts_S1x64_S64
theorem refRow64_zero (x : FVec Ideal S3x64 .f32) : refRow64 0 x = shapeCast _ (extractStridedSlice S1x64 ![0, 0] x slices_S3x64_S1x64_0_0) shapeCasts_S1x64_S64 := rfl
theorem refRow64_one (x : FVec Ideal S3x64 .f32) : refRow64 1 x = shapeCast _ (extractStridedSlice S1x64 ![1, 0] x slices_S3x64_S1x64_1_0) shapeCasts_S1x64_S64 := rfl
theorem refRow64_two (x : FVec Ideal S3x64 .f32) : refRow64 2 x = shapeCast _ (extractStridedSlice S1x64 ![2, 0] x slices_S3x64_S1x64_2_0) shapeCasts_S1x64_S64 := rfl

/-- The parameters of layer `l` by the reference's names: each is the slice above of its stacked array. -/
abbrev refW1 := refMat64x128
abbrev refB1 := refRow128
abbrev refG1 := refRow128
abbrev refBt1 := refRow128
abbrev refM1 := refRow128
abbrev refV1 := refRow128
abbrev refW2 := refMat128x64
abbrev refB2 := refRow64
abbrev refGc := refRow64
abbrev refBc := refRow64
abbrev refMc := refRow64
abbrev refVc := refRow64

/-! ## The slices' entries -/

/-- Entry `(k, j)` of matrix `l` is entry `(l, k, j)` of the stack. -/
theorem refMat64x128_apply (l : Fin 3) (x : FVec Ideal S3x64x128 .f32) (k : Fin 64) (j : Fin 128) :
    refMat64x128 l x (ix2 k j) = x (ix3 l k j) := by
  have hc : ∀ y : S1x64x128.Idx → Ideal .f32, shapeCast S64x128 y shapeCasts_S1x64x128_S64x128 (ix2 k j) = y (ix3 (0 : Fin 1) k j) := fun y =>
    shapeCast_apply y shapeCasts_S1x64x128_S64x128 (ix2 k j) (ix3 (0 : Fin 1) k j)
      (by rewrite [Shape.rowMajor_val_three, Shape.rowMajor_val_two]; show (0 * 64 + k.val) * 128 + j.val = k.val * 128 + j.val; omega)
  match l with
  | ⟨0, _⟩ => exact (hc _).trans (extractStridedSlice_apply ![0, 0, 0] x slices_S3x64x128_S1x64x128_0_0_0 _ (ix3 ⟨0, by decide⟩ k j) (fun a => match a with
      | ⟨0, _⟩ => by show 0 = 0 + 0; omega
      | ⟨1, _⟩ => by show k.val = 0 + k.val; omega
      | ⟨2, _⟩ => by show j.val = 0 + j.val; omega))
  | ⟨1, _⟩ => exact (hc _).trans (extractStridedSlice_apply ![1, 0, 0] x slices_S3x64x128_S1x64x128_1_0_0 _ (ix3 ⟨1, by decide⟩ k j) (fun a => match a with
      | ⟨0, _⟩ => by show 1 = 1 + 0; omega
      | ⟨1, _⟩ => by show k.val = 0 + k.val; omega
      | ⟨2, _⟩ => by show j.val = 0 + j.val; omega))
  | ⟨2, _⟩ => exact (hc _).trans (extractStridedSlice_apply ![2, 0, 0] x slices_S3x64x128_S1x64x128_2_0_0 _ (ix3 ⟨2, by decide⟩ k j) (fun a => match a with
      | ⟨0, _⟩ => by show 2 = 2 + 0; omega
      | ⟨1, _⟩ => by show k.val = 0 + k.val; omega
      | ⟨2, _⟩ => by show j.val = 0 + j.val; omega))

/-- Entry `(j, q)` of matrix `l` is entry `(l, j, q)` of the stack. -/
theorem refMat128x64_apply (l : Fin 3) (x : FVec Ideal S3x128x64 .f32) (j : Fin 128) (q : Fin 64) :
    refMat128x64 l x (ix2 j q) = x (ix3 l j q) := by
  have hc : ∀ y : S1x128x64.Idx → Ideal .f32, shapeCast S128x64 y shapeCasts_S1x128x64_S128x64 (ix2 j q) = y (ix3 (0 : Fin 1) j q) := fun y =>
    shapeCast_apply y shapeCasts_S1x128x64_S128x64 (ix2 j q) (ix3 (0 : Fin 1) j q)
      (by rewrite [Shape.rowMajor_val_three, Shape.rowMajor_val_two]; show (0 * 128 + j.val) * 64 + q.val = j.val * 64 + q.val; omega)
  match l with
  | ⟨0, _⟩ => exact (hc _).trans (extractStridedSlice_apply ![0, 0, 0] x slices_S3x128x64_S1x128x64_0_0_0 _ (ix3 ⟨0, by decide⟩ j q) (fun a => match a with
      | ⟨0, _⟩ => by show 0 = 0 + 0; omega
      | ⟨1, _⟩ => by show j.val = 0 + j.val; omega
      | ⟨2, _⟩ => by show q.val = 0 + q.val; omega))
  | ⟨1, _⟩ => exact (hc _).trans (extractStridedSlice_apply ![1, 0, 0] x slices_S3x128x64_S1x128x64_1_0_0 _ (ix3 ⟨1, by decide⟩ j q) (fun a => match a with
      | ⟨0, _⟩ => by show 1 = 1 + 0; omega
      | ⟨1, _⟩ => by show j.val = 0 + j.val; omega
      | ⟨2, _⟩ => by show q.val = 0 + q.val; omega))
  | ⟨2, _⟩ => exact (hc _).trans (extractStridedSlice_apply ![2, 0, 0] x slices_S3x128x64_S1x128x64_2_0_0 _ (ix3 ⟨2, by decide⟩ j q) (fun a => match a with
      | ⟨0, _⟩ => by show 2 = 2 + 0; omega
      | ⟨1, _⟩ => by show j.val = 0 + j.val; omega
      | ⟨2, _⟩ => by show q.val = 0 + q.val; omega))

/-- Entry `j` of row `l` is entry `(l, j)` of the array. -/
theorem refRow128_apply (l : Fin 3) (x : FVec Ideal S3x128 .f32) (j : Fin 128) : refRow128 l x (ix1 j) = x (ix2 l j) := by
  have hc : ∀ y : S1x128.Idx → Ideal .f32, shapeCast S128 y shapeCasts_S1x128_S128 (ix1 j) = y (ix2 (0 : Fin 1) j) := fun y =>
    shapeCast_apply y shapeCasts_S1x128_S128 (ix1 j) (ix2 (0 : Fin 1) j)
      (by rewrite [Shape.rowMajor_val_two, Shape.rowMajor_val_one]; show 0 * 128 + j.val = j.val; omega)
  match l with
  | ⟨0, _⟩ => exact (hc _).trans (extractStridedSlice_apply ![0, 0] x slices_S3x128_S1x128_0_0 _ (ix2 ⟨0, by decide⟩ j) (fun a => match a with
      | ⟨0, _⟩ => by show 0 = 0 + 0; omega
      | ⟨1, _⟩ => by show j.val = 0 + j.val; omega))
  | ⟨1, _⟩ => exact (hc _).trans (extractStridedSlice_apply ![1, 0] x slices_S3x128_S1x128_1_0 _ (ix2 ⟨1, by decide⟩ j) (fun a => match a with
      | ⟨0, _⟩ => by show 1 = 1 + 0; omega
      | ⟨1, _⟩ => by show j.val = 0 + j.val; omega))
  | ⟨2, _⟩ => exact (hc _).trans (extractStridedSlice_apply ![2, 0] x slices_S3x128_S1x128_2_0 _ (ix2 ⟨2, by decide⟩ j) (fun a => match a with
      | ⟨0, _⟩ => by show 2 = 2 + 0; omega
      | ⟨1, _⟩ => by show j.val = 0 + j.val; omega))

/-- Entry `q` of row `l` is entry `(l, q)` of the array. -/
theorem refRow64_apply (l : Fin 3) (x : FVec Ideal S3x64 .f32) (q : Fin 64) : refRow64 l x (ix1 q) = x (ix2 l q) := by
  have hc : ∀ y : S1x64.Idx → Ideal .f32, shapeCast S64 y shapeCasts_S1x64_S64 (ix1 q) = y (ix2 (0 : Fin 1) q) := fun y =>
    shapeCast_apply y shapeCasts_S1x64_S64 (ix1 q) (ix2 (0 : Fin 1) q)
      (by rewrite [Shape.rowMajor_val_two, Shape.rowMajor_val_one]; show 0 * 64 + q.val = q.val; omega)
  match l with
  | ⟨0, _⟩ => exact (hc _).trans (extractStridedSlice_apply ![0, 0] x slices_S3x64_S1x64_0_0 _ (ix2 ⟨0, by decide⟩ q) (fun a => match a with
      | ⟨0, _⟩ => by show 0 = 0 + 0; omega
      | ⟨1, _⟩ => by show q.val = 0 + q.val; omega))
  | ⟨1, _⟩ => exact (hc _).trans (extractStridedSlice_apply ![1, 0] x slices_S3x64_S1x64_1_0 _ (ix2 ⟨1, by decide⟩ q) (fun a => match a with
      | ⟨0, _⟩ => by show 1 = 1 + 0; omega
      | ⟨1, _⟩ => by show q.val = 0 + q.val; omega))
  | ⟨2, _⟩ => exact (hc _).trans (extractStridedSlice_apply ![2, 0] x slices_S3x64_S1x64_2_0 _ (ix2 ⟨2, by decide⟩ q) (fun a => match a with
      | ⟨0, _⟩ => by show 2 = 2 + 0; omega
      | ⟨1, _⟩ => by show q.val = 0 + q.val; omega))

end Cert.ReferenceIdeal.RefValue

end
-- ==== Proof.KHost.lean ====
/-
  The host operations between the kernel's calls, read as functions of the buffer contents they start from.

  Each of the three stretches computes, from the feature array of the moment and the two edge lists, the neighbour sums
  (rows gathered at the sources, scatter-added into zeros at the destinations) and cuts layer l's slice out of each of the
  twelve stacked parameter arrays; the first stretch also computes the two edge lists (rows 0 and 1 of the edge array)
  that the later stretches reuse. A stretch writes only its own result buffers, so every other buffer keeps its contents.
-/
import proofs.«137670_j89919435309328_2_alg».proof.Proof.Gen.KernelIdeal.Launch
import proofs.«137670_j89919435309328_2_alg».proof.Proof.RefGlue
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.SL.Sem
open Cert.KernelIdeal Cert.KernelIdeal.Gen

/-- The edges' sources: row 0 of the edge array. -/
def kSrc (ei : IVec S2x800000 32) : IVec S800000 32 := fun i =>
  shapeCast S800000 (extractStridedSlice S1x800000 ![0, 0] ei slices_S2x800000_S1x800000_0_0) shapeCasts_S1x800000_S800000 i

/-- The edges' destinations: row 1 of the edge array. -/
def kDst (ei : IVec S2x800000 32) : IVec S800000 32 := fun i =>
  shapeCast S800000 (extractStridedSlice S1x800000 ![1, 0] ei slices_S2x800000_S1x800000_1_0) shapeCasts_S1x800000_S800000 i

/-- The neighbour sums of `x` along sources `s` and destinations `d`: the rows of `x` at the sources (a negative source
    counted from the end), scatter-added into zeros at the destinations. -/
def kAgg (x : FVec Ideal S50000x64 .f32) (s d : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- Along the two rows of one edge array these are the reference's neighbour sums. -/
theorem kAgg_edges (x : FVec Ideal S50000x64 .f32) (ei : IVec S2x800000 32) :
    kAgg x (kSrc ei) (kDst ei) = Cert.ReferenceIdeal.RefValue.refAgg x ei := rfl

variable (V : Valuation τ sig (Elt Ideal))

/-! ## What each stretch computes -/

theorem s0_src : StableHlo.after hostOps0 V (Proc.devRef .tc main_v1) = kSrc (V (Proc.devRef .tc main_arg1)) := by
  after_results_simp <;> rfl
theorem s0_dst : StableHlo.after hostOps0 V (Proc.devRef .tc main_v3) = kDst (V (Proc.devRef .tc main_arg1)) := by
  after_results_simp <;> rfl
theorem s0_agg : StableHlo.after hostOps0 V (Proc.devRef .tc main_v13) = kAgg (V (Proc.devRef .tc main_arg0)) (kSrc (V (Proc.devRef .tc main_arg1))) (kDst (V (Proc.devRef .tc main_arg1))) := by
  after_results_simp <;> rfl
theorem s1_agg : StableHlo.after hostOps1 V (Proc.devRef .tc main_v48) = kAgg (V (Proc.devRef .tc main_v38)) (V (Proc.devRef .tc main_v1)) (V (Proc.devRef .tc main_v3)) := by
  after_results_simp <;> rfl
theorem s2_agg : StableHlo.after hostOps2 V (Proc.devRef .tc main_v83) = kAgg (V (Proc.devRef .tc main_v73)) (V (Proc.devRef .tc main_v1)) (V (Proc.devRef .tc main_v3)) := by
  after_results_simp <;> rfl
theorem s0_p2 : StableHlo.after hostOps0 V (Proc.devRef .tc main_v15) = Cert.ReferenceIdeal.RefValue.refW1 0 (V (Proc.devRef .tc main_arg2)) := by
  after_results_simp <;> rfl
theorem s0_p3 : StableHlo.after hostOps0 V (Proc.devRef .tc main_v17) = Cert.ReferenceIdeal.RefValue.refB1 0 (V (Proc.devRef .tc main_arg3)) := by
  after_results_simp <;> rfl
theorem s0_p4 : StableHlo.after hostOps0 V (Proc.devRef .tc main_v19) = Cert.ReferenceIdeal.RefValue.refG1 0 (V (Proc.devRef .tc main_arg4)) := by
  after_results_simp <;> rfl
theorem s0_p5 : StableHlo.after hostOps0 V (Proc.devRef .tc main_v21) = Cert.ReferenceIdeal.RefValue.refBt1 0 (V (Proc.devRef .tc main_arg5)) := by
  after_results_simp <;> rfl
theorem s0_p6 : StableHlo.after hostOps0 V (Proc.devRef .tc main_v23) = Cert.ReferenceIdeal.RefValue.refM1 0 (V (Proc.devRef .tc main_arg6)) := by
  after_results_simp <;> rfl
theorem s0_p7 : StableHlo.after hostOps0 V (Proc.devRef .tc main_v25) = Cert.ReferenceIdeal.RefValue.refV1 0 (V (Proc.devRef .tc main_arg7)) := by
  after_results_simp <;> rfl
theorem s0_p8 : StableHlo.after hostOps0 V (Proc.devRef .tc main_v27) = Cert.ReferenceIdeal.RefValue.refW2 0 (V (Proc.devRef .tc main_arg8)) := by
  after_results_simp <;> rfl
theorem s0_p9 : StableHlo.after hostOps0 V (Proc.devRef .tc main_v29) = Cert.ReferenceIdeal.RefValue.refB2 0 (V (Proc.devRef .tc main_arg9)) := by
  after_results_simp <;> rfl
theorem s0_p10 : StableHlo.after hostOps0 V (Proc.devRef .tc main_v31) = Cert.ReferenceIdeal.RefValue.refGc 0 (V (Proc.devRef .tc main_arg10)) := by
  after_results_simp <;> rfl
theorem s0_p11 : StableHlo.after hostOps0 V (Proc.devRef .tc main_v33) = Cert.ReferenceIdeal.RefValue.refBc 0 (V (Proc.devRef .tc main_arg11)) := by
  after_results_simp <;> rfl
theorem s0_p12 : StableHlo.after hostOps0 V (Proc.devRef .tc main_v35) = Cert.ReferenceIdeal.RefValue.refMc 0 (V (Proc.devRef .tc main_arg12)) := by
  after_results_simp <;> rfl
theorem s0_p13 : StableHlo.after hostOps0 V (Proc.devRef .tc main_v37) = Cert.ReferenceIdeal.RefValue.refVc 0 (V (Proc.devRef .tc main_arg13)) := by
  after_results_simp <;> rfl
theorem s1_p2 : StableHlo.after hostOps1 V (Proc.devRef .tc main_v50) = Cert.ReferenceIdeal.RefValue.refW1 1 (V (Proc.devRef .tc main_arg2)) := by
  after_results_simp <;> rfl
theorem s1_p3 : StableHlo.after hostOps1 V (Proc.devRef .tc main_v52) = Cert.ReferenceIdeal.RefValue.refB1 1 (V (Proc.devRef .tc main_arg3)) := by
  after_results_simp <;> rfl
theorem s1_p4 : StableHlo.after hostOps1 V (Proc.devRef .tc main_v54) = Cert.ReferenceIdeal.RefValue.refG1 1 (V (Proc.devRef .tc main_arg4)) := by
  after_results_simp <;> rfl
theorem s1_p5 : StableHlo.after hostOps1 V (Proc.devRef .tc main_v56) = Cert.ReferenceIdeal.RefValue.refBt1 1 (V (Proc.devRef .tc main_arg5)) := by
  after_results_simp <;> rfl
theorem s1_p6 : StableHlo.after hostOps1 V (Proc.devRef .tc main_v58) = Cert.ReferenceIdeal.RefValue.refM1 1 (V (Proc.devRef .tc main_arg6)) := by
  after_results_simp <;> rfl
theorem s1_p7 : StableHlo.after hostOps1 V (Proc.devRef .tc main_v60) = Cert.ReferenceIdeal.RefValue.refV1 1 (V (Proc.devRef .tc main_arg7)) := by
  after_results_simp <;> rfl
theorem s1_p8 : StableHlo.after hostOps1 V (Proc.devRef .tc main_v62) = Cert.ReferenceIdeal.RefValue.refW2 1 (V (Proc.devRef .tc main_arg8)) := by
  after_results_simp <;> rfl
theorem s1_p9 : StableHlo.after hostOps1 V (Proc.devRef .tc main_v64) = Cert.ReferenceIdeal.RefValue.refB2 1 (V (Proc.devRef .tc main_arg9)) := by
  after_results_simp <;> rfl
theorem s1_p10 : StableHlo.after hostOps1 V (Proc.devRef .tc main_v66) = Cert.ReferenceIdeal.RefValue.refGc 1 (V (Proc.devRef .tc main_arg10)) := by
  after_results_simp <;> rfl
theorem s1_p11 : StableHlo.after hostOps1 V (Proc.devRef .tc main_v68) = Cert.ReferenceIdeal.RefValue.refBc 1 (V (Proc.devRef .tc main_arg11)) := by
  after_results_simp <;> rfl
theorem s1_p12 : StableHlo.after hostOps1 V (Proc.devRef .tc main_v70) = Cert.ReferenceIdeal.RefValue.refMc 1 (V (Proc.devRef .tc main_arg12)) := by
  after_results_simp <;> rfl
theorem s1_p13 : StableHlo.after hostOps1 V (Proc.devRef .tc main_v72) = Cert.ReferenceIdeal.RefValue.refVc 1 (V (Proc.devRef .tc main_arg13)) := by
  after_results_simp <;> rfl
theorem s2_p2 : StableHlo.after hostOps2 V (Proc.devRef .tc main_v85) = Cert.ReferenceIdeal.RefValue.refW1 2 (V (Proc.devRef .tc main_arg2)) := by
  after_results_simp <;> rfl
theorem s2_p3 : StableHlo.after hostOps2 V (Proc.devRef .tc main_v87) = Cert.ReferenceIdeal.RefValue.refB1 2 (V (Proc.devRef .tc main_arg3)) := by
  after_results_simp <;> rfl
theorem s2_p4 : StableHlo.after hostOps2 V (Proc.devRef .tc main_v89) = Cert.ReferenceIdeal.RefValue.refG1 2 (V (Proc.devRef .tc main_arg4)) := by
  after_results_simp <;> rfl
theorem s2_p5 : StableHlo.after hostOps2 V (Proc.devRef .tc main_v91) = Cert.ReferenceIdeal.RefValue.refBt1 2 (V (Proc.devRef .tc main_arg5)) := by
  after_results_simp <;> rfl
theorem s2_p6 : StableHlo.after hostOps2 V (Proc.devRef .tc main_v93) = Cert.ReferenceIdeal.RefValue.refM1 2 (V (Proc.devRef .tc main_arg6)) := by
  after_results_simp <;> rfl
theorem s2_p7 : StableHlo.after hostOps2 V (Proc.devRef .tc main_v95) = Cert.ReferenceIdeal.RefValue.refV1 2 (V (Proc.devRef .tc main_arg7)) := by
  after_results_simp <;> rfl
theorem s2_p8 : StableHlo.after hostOps2 V (Proc.devRef .tc main_v97) = Cert.ReferenceIdeal.RefValue.refW2 2 (V (Proc.devRef .tc main_arg8)) := by
  after_results_simp <;> rfl
theorem s2_p9 : StableHlo.after hostOps2 V (Proc.devRef .tc main_v99) = Cert.ReferenceIdeal.RefValue.refB2 2 (V (Proc.devRef .tc main_arg9)) := by
  after_results_simp <;> rfl
theorem s2_p10 : StableHlo.after hostOps2 V (Proc.devRef .tc main_v101) = Cert.ReferenceIdeal.RefValue.refGc 2 (V (Proc.devRef .tc main_arg10)) := by
  after_results_simp <;> rfl
theorem s2_p11 : StableHlo.after hostOps2 V (Proc.devRef .tc main_v103) = Cert.ReferenceIdeal.RefValue.refBc 2 (V (Proc.devRef .tc main_arg11)) := by
  after_results_simp <;> rfl
theorem s2_p12 : StableHlo.after hostOps2 V (Proc.devRef .tc main_v105) = Cert.ReferenceIdeal.RefValue.refMc 2 (V (Proc.devRef .tc main_arg12)) := by
  after_results_simp <;> rfl
theorem s2_p13 : StableHlo.after hostOps2 V (Proc.devRef .tc main_v107) = Cert.ReferenceIdeal.RefValue.refVc 2 (V (Proc.devRef .tc main_arg13)) := by
  after_results_simp <;> rfl

/-! ## What each stretch leaves alone -/

/-- The buffers stretch 0 writes. -/
def wr0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37]
theorem writes0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map.mpr ⟨_, by decide +kernel, rfl⟩
/-- A buffer stretch 0 does not write keeps its contents. -/
theorem kept0 {r : Ref sig .tc} (hr : r ∉ wr0) : StableHlo.after hostOps0 V (Proc.devRef .tc r) = V (Proc.devRef .tc r) :=
  StableHlo.after_of_writes_sub _ V writes0 hr

/-- The buffers stretch 1 writes. -/
def wr1 : List (Ref sig .tc) := [main_c_1, main_v39, main_v40, main_c_2, main_v41, main_v42, main_v43, main_v44, main_v45, main_cst_3, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72]
theorem writes1 : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map.mpr ⟨_, by decide +kernel, rfl⟩
/-- A buffer stretch 1 does not write keeps its contents. -/
theorem kept1 {r : Ref sig .tc} (hr : r ∉ wr1) : StableHlo.after hostOps1 V (Proc.devRef .tc r) = V (Proc.devRef .tc r) :=
  StableHlo.after_of_writes_sub _ V writes1 hr

/-- The buffers stretch 2 writes. -/
def wr2 : List (Ref sig .tc) := [main_c_4, main_v74, main_v75, main_c_5, main_v76, main_v77, main_v78, main_v79, main_v80, main_cst_6, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107]
theorem writes2 : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map.mpr ⟨_, by decide +kernel, rfl⟩
/-- A buffer stretch 2 does not write keeps its contents. -/
theorem kept2 {r : Ref sig .tc} (hr : r ∉ wr2) : StableHlo.after hostOps2 V (Proc.devRef .tc r) = V (Proc.devRef .tc r) :=
  StableHlo.after_of_writes_sub _ V writes2 hr

end Cert.KernelIdeal.KHost

end
-- ==== Proof.Spec.lean ====
/-
  The mathematics both programs compute, written once over the extended reals, row by row.

  A GIN layer is row-local once the neighbour sums `agg` are given: row `r` of the next feature array depends only on
  row `r` of `agg + x` and on the layer's parameters. With `h = agg r + x r` (a vector of 64 numbers),
      h1 j = relu (bn₁ (∑ k, h k * W1 k j + b1 j))          (128 numbers)
      out q = relu (bn₂ (∑ j, h1 j * W2 j q + b2 q))         (64 numbers)
  where an eval-mode batch norm is `bn y = (y - m) * (v + ε)^(-1/2) * g + β`. The head is one such dense + bn + relu
  into 64 numbers, a dense layer into 40 logits, and a log-softmax of the row:
      out q = (l q - M) - log (∑ k, exp (l k - M)),   M = the largest logit of the row.

  The kernel multiplies by the reciprocal square root (`bnK`), the reference divides by the square root (`bnR`); on the
  extended reals the two agree whenever `0 < v + ε` (including `v = ⊤`: both sides are then `0`), which is where the
  hypothesis `0 ≤ v` on the running variances is used, with `0 < ε`.
-/
import Idealize.ShloMosaic.PureOps.Ideal
import Idealize.ShloMosaic.Lib.ValueIdx

noncomputable section

namespace Cert.Spec

open Idealize.ShloMosaic Idealize.ShloMosaic.ValueIdx

/-- The batch-norm epsilon both programs carry: the f32 word nearest `1e-5`, read exactly. -/
def eps : EReal := Ideal.ofBits .f32 0x3727C5AC#32

/-- Bias, batch norm by the RECIPROCAL square root, positive part: the kernel's spelling of one entry. -/
def bnK (y b m v g bt : EReal) : EReal := max ((((y + b) - m) * Ideal.rsqrt (v + eps)) * g + bt) 0

/-- Bias, batch norm by DIVISION by the square root, positive part: the reference's spelling of one entry. -/
def bnR (y b m v g bt : EReal) : EReal := max ((Ideal.div ((y + b) - m) (Ideal.sqrt (v + eps))) * g + bt) 0

/-- A row's largest entry, as the fold of `max` from `-∞`. -/
def rowMax (l : Fin 40 → EReal) : EReal := (Finset.univ : Finset (Fin 40)).fold max ⊥ l

/-- The log-softmax of a row of 40 logits at column `q`. -/
def logSoftmax (l : Fin 40 → EReal) (q : Fin 40) : EReal :=
  (l q - rowMax l) - Ideal.log (∑ k : Fin 40, Ideal.exp (l k - rowMax l))

section Rows
variable (bn : EReal → EReal → EReal → EReal → EReal → EReal → EReal)

/-- One GIN layer on one row `h` (= the neighbour sum plus the row itself), at output column `q`; `bn` is the
    batch-norm spelling (`bnK` or `bnR`). -/
def layerRow (h : Fin 64 → EReal) (W1 : Fin 64 → Fin 128 → EReal) (b1 g1 bt1 m1 v1 : Fin 128 → EReal)
    (W2 : Fin 128 → Fin 64 → EReal) (b2 gc bc mc vc : Fin 64 → EReal) (q : Fin 64) : EReal :=
  bn (∑ j : Fin 128, bn (∑ k : Fin 64, h k * W1 k j) (b1 j) (m1 j) (v1 j) (g1 j) (bt1 j) * W2 j q)
    (b2 q) (mc q) (vc q) (gc q) (bc q)

/-- The head's 40 logits of one row `x`. -/
def logitsRow (x : Fin 64 → EReal) (W1 : Fin 64 → Fin 64 → EReal) (b1 g bt m v : Fin 64 → EReal)
    (W2 : Fin 64 → Fin 40 → EReal) (b2 : Fin 40 → EReal) (q : Fin 40) : EReal :=
  (∑ j : Fin 64, bn (∑ k : Fin 64, x k * W1 k j) (b1 j) (m j) (v j) (g j) (bt j) * W2 j q) + b2 q

/-- The head on one row `x`, at class `q`. -/
def headRow (x : Fin 64 → EReal) (W1 : Fin 64 → Fin 64 → EReal) (b1 g bt m v : Fin 64 → EReal)
    (W2 : Fin 64 → Fin 40 → EReal) (b2 : Fin 40 → EReal) (q : Fin 40) : EReal :=
  logSoftmax (logitsRow bn x W1 b1 g bt m v W2 b2) q

/-- One GIN layer on an array of `n` rows: the arguments in the order the kernel's windows come
    (agg, x, W1, b1, g1, bt1, m1, v1, W2, b2, gc, bc, mc, vc). -/
def layerArr (n : Nat) (agg x : (⟨2, ![n, 64]⟩ : Shape).Idx → EReal) (W1 : (⟨2, ![64, 128]⟩ : Shape).Idx → EReal)
    (b1 g1 bt1 m1 v1 : (⟨1, ![128]⟩ : Shape).Idx → EReal) (W2 : (⟨2, ![128, 64]⟩ : Shape).Idx → EReal)
    (b2 gc bc mc vc : (⟨1, ![64]⟩ : Shape).Idx → EReal) : (⟨2, ![n, 64]⟩ : Shape).Idx → EReal := fun i =>
  layerRow bn (fun k => agg (ix2 (i 0) k) + x (ix2 (i 0) k)) (fun k j => W1 (ix2 k j))
    (fun j => b1 (ix1 j)) (fun j => g1 (ix1 j)) (fun j => bt1 (ix1 j)) (fun j => m1 (ix1 j)) (fun j => v1 (ix1 j))
    (fun j q => W2 (ix2 j q)) (fun q => b2 (ix1 q)) (fun q => gc (ix1 q)) (fun q => bc (ix1 q)) (fun q => mc (ix1 q))
    (fun q => vc (ix1 q)) (i 1)

/-- The head on an array of `n` rows: the arguments in the order the kernel's windows come
    (x, lin1_W, lin1_b, g, β, m, v, lin2_W, lin2_b). -/
def headArr (n : Nat) (x : (⟨2, ![n, 64]⟩ : Shape).Idx → EReal) (W1 : (⟨2, ![64, 64]⟩ : Shape).Idx → EReal)
    (b1 g bt m v : (⟨1, ![64]⟩ : Shape).Idx → EReal) (W2 : (⟨2, ![64, 40]⟩ : Shape).Idx → EReal)
    (b2 : (⟨1, ![40]⟩ : Shape).Idx → EReal) : (⟨2, ![n, 40]⟩ : Shape).Idx → EReal := fun i =>
  headRow bn (fun k => x (ix2 (i 0) k)) (fun k j => W1 (ix2 k j))
    (fun j => b1 (ix1 j)) (fun j => g (ix1 j)) (fun j => bt (ix1 j)) (fun j => m (ix1 j)) (fun j => v (ix1 j))
    (fun j q => W2 (ix2 j q)) (fun q => b2 (ix1 q)) (i 1)

end Rows

/-! ## The one law: multiplying by the reciprocal square root is dividing by the square root, off `v + ε ≤ 0` -/

/-- `x · y^(-1/2) = x / √y` on the extended reals for every `x` and every `0 < y` (`y = ⊤` included: both sides `0`). -/
theorem mul_rsqrt_eq_div_sqrt (x y : EReal) (hy : 0 < y) : x * Ideal.rsqrt y = Ideal.div x (Ideal.sqrt y) := by
  induction y using EReal.rec with
  | bot => exact absurd hy (by simp)
  | top => simp [Ideal.div]
  | coe r =>
    have hr : 0 < r := by exact_mod_cast hy
    have hs : 0 < Real.sqrt r := Real.sqrt_pos.2 hr
    have hne : ((Real.sqrt r : ℝ) : EReal) ≠ 0 := by exact_mod_cast hs.ne'
    rw [Ideal.rsqrt_coe, Ideal.sqrt_coe, if_neg (not_lt.2 hr.le), if_neg hr.ne', if_neg (not_lt.2 hr.le)]
    unfold Ideal.div
    rw [if_neg hne]
    congr 1

/-- Under `0 ≤ v` (and `0 < ε`) the two batch-norm spellings are one function of the entry. -/
theorem bnK_eq_bnR (heps : 0 < eps) (y b m v g bt : EReal) (hv : 0 ≤ v) : bnK y b m v g bt = bnR y b m v g bt := by
  unfold bnK bnR
  rw [mul_rsqrt_eq_div_sqrt _ _ (lt_of_lt_of_le heps (le_add_of_nonneg_left hv))]

end Cert.Spec

end
-- ==== Proof.Model.lean ====
/-
  The whole network as one function of the 22 argument arrays, with the batch-norm spelling a parameter.

  `layer bn l x …` is GIN layer `l`: the neighbour sums of `x` along the edge list, then the row-local dense / batch norm /
  positive part chain with slice `l` of each stacked parameter array. `out bn …` is three layers and the head. The kernel
  computes `out bnK`, the reference `out bnR`; they are one function where every running variance is non-negative.
-/
import proofs.«137670_j89919435309328_2_alg».proof.Proof.Spec
import proofs.«137670_j89919435309328_2_alg».proof.Proof.RefGlue

noncomputable section

namespace Cert.Model

open Idealize.ShloMosaic Idealize.ShloMosaic.ValueIdx Cert.Spec Cert.ReferenceIdeal Cert.ReferenceIdeal.RefValue

section Defs
variable (bn : EReal → EReal → EReal → EReal → EReal → EReal → EReal)

/-- GIN layer `l` on the feature array `x`. -/
def layer (l : Fin 3) (x : FVec Ideal S50000x64 .f32) (a1 : IVec S2x800000 32) (a2 : FVec Ideal S3x64x128 .f32)
    (a3 a4 a5 a6 a7 : FVec Ideal S3x128 .f32) (a8 : FVec Ideal S3x128x64 .f32) (a9 a10 a11 a12 a13 : FVec Ideal S3x64 .f32) :
    FVec Ideal S50000x64 .f32 :=
  layerArr bn 50000 (refAgg x a1) x (refW1 l a2) (refB1 l a3) (refG1 l a4) (refBt1 l a5) (refM1 l a6) (refV1 l a7)
    (refW2 l a8) (refB2 l a9) (refGc l a10) (refBc l a11) (refMc l a12) (refVc l a13)

/-- The network: three layers, then the head. -/
def out (a0 : FVec Ideal S50000x64 .f32) (a1 : IVec S2x800000 32) (a2 : FVec Ideal S3x64x128 .f32)
    (a3 a4 a5 a6 a7 : FVec Ideal S3x128 .f32) (a8 : FVec Ideal S3x128x64 .f32) (a9 a10 a11 a12 a13 : FVec Ideal S3x64 .f32)
    (a14 : FVec Ideal S64x64 .f32) (a15 a16 a17 a18 a19 : FVec Ideal S64 .f32) (a20 : FVec Ideal S64x40 .f32)
    (a21 : FVec Ideal S40 .f32) : FVec Ideal S50000x40 .f32 :=
  headArr bn 50000 (layer bn 2 (layer bn 1 (layer bn 0 a0 a1 a2 a3 a4 a5 a6 a7 a8 a9 a10 a11 a12 a13) a1 a2 a3 a4 a5 a6 a7 a8 a9 a10 a11 a12 a13) a1 a2 a3 a4 a5 a6 a7 a8 a9 a10 a11 a12 a13)
    a14 a15 a16 a17 a18 a19 a20 a21

end Defs

/-- A layer in the two spellings, where its two variance rows are non-negative. -/
theorem layerArr_bnK_eq_bnR (heps : 0 < eps) (n : Nat) (agg x : (⟨2, ![n, 64]⟩ : Shape).Idx → EReal)
    (W1 : (⟨2, ![64, 128]⟩ : Shape).Idx → EReal) (b1 g1 bt1 m1 v1 : (⟨1, ![128]⟩ : Shape).Idx → EReal)
    (W2 : (⟨2, ![128, 64]⟩ : Shape).Idx → EReal) (b2 gc bc mc vc : (⟨1, ![64]⟩ : Shape).Idx → EReal)
    (h1 : ∀ j : Fin 128, 0 ≤ v1 (ix1 j)) (hc : ∀ q : Fin 64, 0 ≤ vc (ix1 q)) :
    layerArr bnK n agg x W1 b1 g1 bt1 m1 v1 W2 b2 gc bc mc vc = layerArr bnR n agg x W1 b1 g1 bt1 m1 v1 W2 b2 gc bc mc vc := by
  funext i
  unfold layerArr layerRow
  rw [bnK_eq_bnR heps _ _ _ _ _ _ (hc (i 1))]
  congr 1
  refine Finset.sum_congr rfl fun j _ => ?_
  rw [bnK_eq_bnR heps _ _ _ _ _ _ (h1 j)]

/-- The head in the two spellings, where its variance row is non-negative. -/
theorem headArr_bnK_eq_bnR (heps : 0 < eps) (n : Nat) (x : (⟨2, ![n, 64]⟩ : Shape).Idx → EReal)
    (W1 : (⟨2, ![64, 64]⟩ : Shape).Idx → EReal) (b1 g bt m v : (⟨1, ![64]⟩ : Shape).Idx → EReal)
    (W2 : (⟨2, ![64, 40]⟩ : Shape).Idx → EReal) (b2 : (⟨1, ![40]⟩ : Shape).Idx → EReal)
    (hv : ∀ j : Fin 64, 0 ≤ v (ix1 j)) :
    headArr bnK n x W1 b1 g bt m v W2 b2 = headArr bnR n x W1 b1 g bt m v W2 b2 := by
  have e : ∀ y : Fin 64 → EReal, logitsRow bnK y (fun k j => W1 (ix2 k j)) (fun j => b1 (ix1 j)) (fun j => g (ix1 j))
        (fun j => bt (ix1 j)) (fun j => m (ix1 j)) (fun j => v (ix1 j)) (fun j q => W2 (ix2 j q)) (fun q => b2 (ix1 q))
      = logitsRow bnR y (fun k j => W1 (ix2 k j)) (fun j => b1 (ix1 j)) (fun j => g (ix1 j))
        (fun j => bt (ix1 j)) (fun j => m (ix1 j)) (fun j => v (ix1 j)) (fun j q => W2 (ix2 j q)) (fun q => b2 (ix1 q)) := by
    intro y; funext q
    unfold logitsRow
    congr 1
    refine Finset.sum_congr rfl fun j _ => ?_
    rw [bnK_eq_bnR heps _ _ _ _ _ _ (hv j)]
  funext i
  unfold headArr headRow
  rw [e]

/-- Slice `l` of a stacked non-negative array of 128-rows is non-negative. -/
theorem row128_nonneg (l : Fin 3) (a : FVec Ideal S3x128 .f32) (h : ∀ i, (0 : EReal) ≤ a i) (j : Fin 128) :
    (0 : EReal) ≤ refRow128 l a (ix1 j) := by rw [refRow128_apply]; exact h _

/-- Slice `l` of a stacked non-negative array of 64-rows is non-negative. -/
theorem row64_nonneg (l : Fin 3) (a : FVec Ideal S3x64 .f32) (h : ∀ i, (0 : EReal) ≤ a i) (q : Fin 64) :
    (0 : EReal) ≤ refRow64 l a (ix1 q) := by rw [refRow64_apply]; exact h _

/-- The kernel's and the reference's spellings of the network are one function where the running variances
    (`a7`, `a13`, `a19`) are non-negative. -/
theorem out_bnK_eq_bnR (heps : 0 < eps) (a0 : FVec Ideal S50000x64 .f32) (a1 : IVec S2x800000 32) (a2 : FVec Ideal S3x64x128 .f32)
    (a3 a4 a5 a6 a7 : FVec Ideal S3x128 .f32) (a8 : FVec Ideal S3x128x64 .f32) (a9 a10 a11 a12 a13 : FVec Ideal S3x64 .f32)
    (a14 : FVec Ideal S64x64 .f32) (a15 a16 a17 a18 a19 : FVec Ideal S64 .f32) (a20 : FVec Ideal S64x40 .f32)
    (a21 : FVec Ideal S40 .f32)
    (h7 : ∀ i, (0 : EReal) ≤ a7 i) (h13 : ∀ i, (0 : EReal) ≤ a13 i) (h19 : ∀ i, (0 : EReal) ≤ a19 i) :
    out bnK a0 a1 a2 a3 a4 a5 a6 a7 a8 a9 a10 a11 a12 a13 a14 a15 a16 a17 a18 a19 a20 a21 = out bnR a0 a1 a2 a3 a4 a5 a6 a7 a8 a9 a10 a11 a12 a13 a14 a15 a16 a17 a18 a19 a20 a21 := by
  have hl : ∀ (l : Fin 3) (x : FVec Ideal S50000x64 .f32), layer bnK l x a1 a2 a3 a4 a5 a6 a7 a8 a9 a10 a11 a12 a13 = layer bnR l x a1 a2 a3 a4 a5 a6 a7 a8 a9 a10 a11 a12 a13 := fun l x =>
    layerArr_bnK_eq_bnR heps 50000 _ _ _ _ _ _ _ _ _ _ _ _ _ _ (row128_nonneg l a7 h7) (row64_nonneg l a13 h13)
  unfold out
  rw [hl 0, hl 1, hl 2]
  exact headArr_bnK_eq_bnR heps 50000 _ _ _ _ _ _ _ _ _ (fun j => h19 _)

end Cert.Model

end
-- ==== Proof.BlockRows.lean ====
/-
  Row-locality of the layer and of the head.

  `Cert.Spec.layerArr` and `Cert.Spec.headArr` compute row `r` of their result from row `r` of their row-indexed
  arguments and from the parameters alone. So if row `p'` of the arrays `B` is row `p` of the arrays `A` (and the
  parameters agree), entry `(p', q)` of the map on `B` is entry `(p, q)` of the map on `A` — whatever the two row
  counts are. This is the one fact that lets a block of rows be computed from the block of rows alone.
-/
import proofs.«137670_j89919435309328_2_alg».proof.Proof.Spec

noncomputable section

namespace Cert.KernelIdeal.Blocks

open Idealize.ShloMosaic Idealize.ShloMosaic.ValueIdx
open Cert.Spec

/-- A GIN layer is row-local: with the same parameters, entry `(p', q)` of the layer on `B0, B1` is entry `(p, q)`
    of the layer on `A0, A1` once row `p'` of `B0` and `B1` is row `p` of `A0` and `A1`. -/
theorem layerArr_block (bn : EReal → EReal → EReal → EReal → EReal → EReal → EReal) {n n' : Nat}
    {A0 A1 : (⟨2, ![n, 64]⟩ : Shape).Idx → EReal} {B0 B1 : (⟨2, ![n', 64]⟩ : Shape).Idx → EReal}
    {W1 W1' : (⟨2, ![64, 128]⟩ : Shape).Idx → EReal}
    {b1 b1' g1 g1' bt1 bt1' m1 m1' v1 v1' : (⟨1, ![128]⟩ : Shape).Idx → EReal}
    {W2 W2' : (⟨2, ![128, 64]⟩ : Shape).Idx → EReal}
    {b2 b2' gc gc' bc bc' mc mc' vc vc' : (⟨1, ![64]⟩ : Shape).Idx → EReal}
    (p : Fin n) (p' : Fin n') (q : Fin 64)
    (h0 : ∀ k : Fin 64, B0 (ix2 p' k) = A0 (ix2 p k)) (h1 : ∀ k : Fin 64, B1 (ix2 p' k) = A1 (ix2 p k))
    (h2 : W1' = W1) (h3 : b1' = b1) (h4 : g1' = g1) (h5 : bt1' = bt1) (h6 : m1' = m1) (h7 : v1' = v1)
    (h8 : W2' = W2) (h9 : b2' = b2) (h10 : gc' = gc) (h11 : bc' = bc) (h12 : mc' = mc) (h13 : vc' = vc) :
    layerArr bn n' B0 B1 W1' b1' g1' bt1' m1' v1' W2' b2' gc' bc' mc' vc' (ix2 p' q)
      = layerArr bn n A0 A1 W1 b1 g1 bt1 m1 v1 W2 b2 gc bc mc vc (ix2 p q) := by
  subst h2 h3 h4 h5 h6 h7 h8 h9 h10 h11 h12 h13
  -- the only row-indexed input of the row map is the sum of the two rows
  have e : (fun k : Fin 64 => B0 (ix2 p' k) + B1 (ix2 p' k)) = fun k : Fin 64 => A0 (ix2 p k) + A1 (ix2 p k) :=
    funext fun k => by rw [h0 k, h1 k]
  show layerRow bn (fun k : Fin 64 => B0 (ix2 p' k) + B1 (ix2 p' k)) _ _ _ _ _ _ _ _ _ _ _ _ q
      = layerRow bn (fun k : Fin 64 => A0 (ix2 p k) + A1 (ix2 p k)) _ _ _ _ _ _ _ _ _ _ _ _ q
  rw [e]

/-- The head is row-local: with the same parameters, entry `(p', q)` of the head on `B` is entry `(p, q)` of the head
    on `A` once row `p'` of `B` is row `p` of `A`. -/
theorem headArr_block (bn : EReal → EReal → EReal → EReal → EReal → EReal → EReal) {n n' : Nat}
    {A : (⟨2, ![n, 64]⟩ : Shape).Idx → EReal} {B : (⟨2, ![n', 64]⟩ : Shape).Idx → EReal}
    {W1 W1' : (⟨2, ![64, 64]⟩ : Shape).Idx → EReal}
    {b1 b1' g g' bt bt' m m' v v' : (⟨1, ![64]⟩ : Shape).Idx → EReal}
    {W2 W2' : (⟨2, ![64, 40]⟩ : Shape).Idx → EReal} {b2 b2' : (⟨1, ![40]⟩ : Shape).Idx → EReal}
    (p : Fin n) (p' : Fin n') (q : Fin 40)
    (h0 : ∀ k : Fin 64, B (ix2 p' k) = A (ix2 p k))
    (h1 : W1' = W1) (h2 : b1' = b1) (h3 : g' = g) (h4 : bt' = bt) (h5 : m' = m) (h6 : v' = v)
    (h7 : W2' = W2) (h8 : b2' = b2) :
    headArr bn n' B W1' b1' g' bt' m' v' W2' b2' (ix2 p' q) = headArr bn n A W1 b1 g bt m v W2 b2 (ix2 p q) := by
  subst h1 h2 h3 h4 h5 h6 h7 h8
  have e : (fun k : Fin 64 => B (ix2 p' k)) = fun k : Fin 64 => A (ix2 p k) := funext h0
  show headRow bn (fun k : Fin 64 => B (ix2 p' k)) _ _ _ _ _ _ _ _ q
      = headRow bn (fun k : Fin 64 => A (ix2 p k)) _ _ _ _ _ _ _ _ q
  rw [e]

end Cert.KernelIdeal.Blocks

end
-- ==== Proof.Blocks0.lean ====
/-
  Region 0 (the GIN layer): from the blocks the ten grid points write back to the whole output array.

  At point `t` each row-indexed window holds rows `5000·t … 5000·t + 4999` of its 50000-row array and each parameter
  window holds its whole array (its block index is `0` on every axis). The GIN layer is row-local, so the block point `t`
  writes back — the GIN layer of the blocks — is rows `5000·t …` of the GIN layer of the whole arrays as the region finds
  them. Row `r` lies in the block of point `r / 5000`, so the ten blocks cover the array, which therefore ends holding
  that function of the arrays.
-/
import proofs.«137670_j89919435309328_2_alg».proof.Proof.BlockRows
import proofs.«137670_j89919435309328_2_alg».proof.Proof.Gen.KernelIdeal.Frame
import Idealize.ShloMosaic.Lib.Pipeline.Value

noncomputable section

namespace Cert.KernelIdeal.Blocks

open Idealize.ShloMosaic Idealize.ShloMosaic.TcCoe Idealize.ShloMosaic.ValueIdx
open Idealize.ShloMosaic.Pipeline (Dat)
open Cert.KernelIdeal Cert.KernelIdeal.Gen Cert.Spec

/-! ## The printed index maps, decided over the ten points -/

/-- Window 0 moves down the rows: at point `t` its block index is `(t, 0)`. -/
theorem idx0_0 : ∀ t : Fin cfg0.N, win0_0.index t (0 : Fin 2) = t.val ∧ win0_0.index t (1 : Fin 2) = 0 :=
  (by decide +kernel : ∀ t : Fin grid0.N, _)

/-- Window 1 moves down the rows: at point `t` its block index is `(t, 0)`. -/
theorem idx0_1 : ∀ t : Fin cfg0.N, win0_1.index t (0 : Fin 2) = t.val ∧ win0_1.index t (1 : Fin 2) = 0 :=
  (by decide +kernel : ∀ t : Fin grid0.N, _)

/-- Window 14 moves down the rows: at point `t` its block index is `(t, 0)`. -/
theorem idx0_14 : ∀ t : Fin cfg0.N, win0_14.index t (0 : Fin 2) = t.val ∧ win0_14.index t (1 : Fin 2) = 0 :=
  (by decide +kernel : ∀ t : Fin grid0.N, _)

/-- Window 2 never moves: its block index is `0` at every point. -/
theorem idx0_2 : ∀ t : Fin cfg0.N, win0_2.index t (0 : Fin 2) = 0 ∧ win0_2.index t (1 : Fin 2) = 0 :=
  (by decide +kernel : ∀ t : Fin grid0.N, _)

/-- Window 3 never moves: its block index is `0` at every point. -/
theorem idx0_3 : ∀ t : Fin cfg0.N, win0_3.index t (0 : Fin 1) = 0 :=
  (by decide +kernel : ∀ t : Fin grid0.N, _)

/-- Window 4 never moves: its block index is `0` at every point. -/
theorem idx0_4 : ∀ t : Fin cfg0.N, win0_4.index t (0 : Fin 1) = 0 :=
  (by decide +kernel : ∀ t : Fin grid0.N, _)

/-- Window 5 never moves: its block index is `0` at every point. -/
theorem idx0_5 : ∀ t : Fin cfg0.N, win0_5.index t (0 : Fin 1) = 0 :=
  (by decide +kernel : ∀ t : Fin grid0.N, _)

/-- Window 6 never moves: its block index is `0` at every point. -/
theorem idx0_6 : ∀ t : Fin cfg0.N, win0_6.index t (0 : Fin 1) = 0 :=
  (by decide +kernel : ∀ t : Fin grid0.N, _)

/-- Window 7 never moves: its block index is `0` at every point. -/
theorem idx0_7 : ∀ t : Fin cfg0.N, win0_7.index t (0 : Fin 1) = 0 :=
  (by decide +kernel : ∀ t : Fin grid0.N, _)

/-- Window 8 never moves: its block index is `0` at every point. -/
theorem idx0_8 : ∀ t : Fin cfg0.N, win0_8.index t (0 : Fin 2) = 0 ∧ win0_8.index t (1 : Fin 2) = 0 :=
  (by decide +kernel : ∀ t : Fin grid0.N, _)

/-- Window 9 never moves: its block index is `0` at every point. -/
theorem idx0_9 : ∀ t : Fin cfg0.N, win0_9.index t (0 : Fin 1) = 0 :=
  (by decide +kernel : ∀ t : Fin grid0.N, _)

/-- Window 10 never moves: its block index is `0` at every point. -/
theorem idx0_10 : ∀ t : Fin cfg0.N, win0_10.index t (0 : Fin 1) = 0 :=
  (by decide +kernel : ∀ t : Fin grid0.N, _)

/-- Window 11 never moves: its block index is `0` at every point. -/
theorem idx0_11 : ∀ t : Fin cfg0.N, win0_11.index t (0 : Fin 1) = 0 :=
  (by decide +kernel : ∀ t : Fin grid0.N, _)

/-- Window 12 never moves: its block index is `0` at every point. -/
theorem idx0_12 : ∀ t : Fin cfg0.N, win0_12.index t (0 : Fin 1) = 0 :=
  (by decide +kernel : ∀ t : Fin grid0.N, _)

/-- Window 13 never moves: its block index is `0` at every point. -/
theorem idx0_13 : ∀ t : Fin cfg0.N, win0_13.index t (0 : Fin 1) = 0 :=
  (by decide +kernel : ∀ t : Fin grid0.N, _)

/-- The grid has ten points. -/
theorem point_lt0 (t : Fin cfg0.N) : t.val < 10 := lt_of_lt_of_eq t.isLt N_0

/-! ## Each window's block, read off its array -/

/-- Row `p` of window 0's block at point `t` is row `5000·t + p` of its array. -/
theorem rows0_0 (V : (c : Dev nD) → (b : Ref sig .tc) → Buf (Elt Ideal) ((c : Thread nD τ).loc b)) (c : Dev nD) (t : Fin cfg0.N)
    (p : Fin 5000) (k : Fin 64) (i : Fin 50000) (hi : i.val = 5000 * t.val + p.val) :
    (Gen.iblk0 (F := Ideal) V c 0 t : Vec Ideal S5000x64 .f32) (ix2 p k)
      = (V c (Pipeline.arrRef spec0 0) : S50000x64.Idx → Elt Ideal .f32) (ix2 i k) := by
  obtain ⟨e0, e1⟩ := idx0_0 t
  unfold Gen.iblk0
  rw [View.read_apply]
  show (V c (Pipeline.arrRef spec0 0) : S50000x64.Idx → Elt Ideal .f32) _ = _
  refine congrArg _ ?_
  funext a; apply Fin.ext
  match a with
  | ⟨0, _⟩ => show win0_0.index t (0 : Fin 2) * 5000 + 1 * p.val = i.val; rw [e0, hi]; omega
  | ⟨1, _⟩ => show win0_0.index t (1 : Fin 2) * 64 + 1 * k.val = k.val; rw [e1]; omega

/-- Row `p` of window 1's block at point `t` is row `5000·t + p` of its array. -/
theorem rows0_1 (V : (c : Dev nD) → (b : Ref sig .tc) → Buf (Elt Ideal) ((c : Thread nD τ).loc b)) (c : Dev nD) (t : Fin cfg0.N)
    (p : Fin 5000) (k : Fin 64) (i : Fin 50000) (hi : i.val = 5000 * t.val + p.val) :
    (Gen.iblk0 (F := Ideal) V c 1 t : Vec Ideal S5000x64 .f32) (ix2 p k)
      = (V c (Pipeline.arrRef spec0 1) : S50000x64.Idx → Elt Ideal .f32) (ix2 i k) := by
  obtain ⟨e0, e1⟩ := idx0_1 t
  unfold Gen.iblk0
  rw [View.read_apply]
  show (V c (Pipeline.arrRef spec0 1) : S50000x64.Idx → Elt Ideal .f32) _ = _
  refine congrArg _ ?_
  funext a; apply Fin.ext
  match a with
  | ⟨0, _⟩ => show win0_1.index t (0 : Fin 2) * 5000 + 1 * p.val = i.val; rw [e0, hi]; omega
  | ⟨1, _⟩ => show win0_1.index t (1 : Fin 2) * 64 + 1 * k.val = k.val; rw [e1]; omega

/-- Parameter window 2's block at every point is its whole array. -/
theorem par0_2 (V : (c : Dev nD) → (b : Ref sig .tc) → Buf (Elt Ideal) ((c : Thread nD τ).loc b)) (c : Dev nD) (t : Fin cfg0.N) :
    (Gen.iblk0 (F := Ideal) V c 2 t : Vec Ideal S64x128 .f32) = (V c (Pipeline.arrRef spec0 2) : S64x128.Idx → Elt Ideal .f32) := by
  obtain ⟨e0, e1⟩ := idx0_2 t
  funext y
  unfold Gen.iblk0
  rw [View.read_apply]
  show (V c (Pipeline.arrRef spec0 2) : S64x128.Idx → Elt Ideal .f32) _ = _
  refine congrArg _ ?_
  funext a; apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- Parameter window 3's block at every point is its whole array. -/
theorem par0_3 (V : (c : Dev nD) → (b : Ref sig .tc) → Buf (Elt Ideal) ((c : Thread nD τ).loc b)) (c : Dev nD) (t : Fin cfg0.N) :
    (Gen.iblk0 (F := Ideal) V c 3 t : Vec Ideal S128 .f32) = (V c (Pipeline.arrRef spec0 3) : S128.Idx → Elt Ideal .f32) := by
  obtain e0 := idx0_3 t
  funext y
  unfold Gen.iblk0
  rw [View.read_apply]
  show (V c (Pipeline.arrRef spec0 3) : S128.Idx → Elt Ideal .f32) _ = _
  refine congrArg _ ?_
  funext a; apply Fin.ext
  match a with
  | ⟨0, _⟩ => show win0_3.index t (0 : Fin 1) * 128 + 1 * (y 0).val = (y 0).val; rw [e0]; omega

/-- Parameter window 4's block at every point is its whole array. -/
theorem par0_4 (V : (c : Dev nD) → (b : Ref sig .tc) → Buf (Elt Ideal) ((c : Thread nD τ).loc b)) (c : Dev nD) (t : Fin cfg0.N) :
    (Gen.iblk0 (F := Ideal) V c 4 t : Vec Ideal S128 .f32) = (V c (Pipeline.arrRef spec0 4) : S128.Idx → Elt Ideal .f32) := by
  obtain e0 := idx0_4 t
  funext y
  unfold Gen.iblk0
  rw [View.read_apply]
  show (V c (Pipeline.arrRef spec0 4) : S128.Idx → Elt Ideal .f32) _ = _
  refine congrArg _ ?_
  funext a; apply Fin.ext
  match a with
  | ⟨0, _⟩ => show win0_4.index t (0 : Fin 1) * 128 + 1 * (y 0).val = (y 0).val; rw [e0]; omega

/-- Parameter window 5's block at every point is its whole array. -/
theorem par0_5 (V : (c : Dev nD) → (b : Ref sig .tc) → Buf (Elt Ideal) ((c : Thread nD τ).loc b)) (c : Dev nD) (t : Fin cfg0.N) :
    (Gen.iblk0 (F := Ideal) V c 5 t : Vec Ideal S128 .f32) = (V c (Pipeline.arrRef spec0 5) : S128.Idx → Elt Ideal .f32) := by
  obtain e0 := idx0_5 t
  funext y
  unfold Gen.iblk0
  rw [View.read_apply]
  show (V c (Pipeline.arrRef spec0 5) : S128.Idx → Elt Ideal .f32) _ = _
  refine congrArg _ ?_
  funext a; apply Fin.ext
  match a with
  | ⟨0, _⟩ => show win0_5.index t (0 : Fin 1) * 128 + 1 * (y 0).val = (y 0).val; rw [e0]; omega

/-- Parameter window 6's block at every point is its whole array. -/
theorem par0_6 (V : (c : Dev nD) → (b : Ref sig .tc) → Buf (Elt Ideal) ((c : Thread nD τ).loc b)) (c : Dev nD) (t : Fin cfg0.N) :
    (Gen.iblk0 (F := Ideal) V c 6 t : Vec Ideal S128 .f32) = (V c (Pipeline.arrRef spec0 6) : S128.Idx → Elt Ideal .f32) := by
  obtain e0 := idx0_6 t
  funext y
  unfold Gen.iblk0
  rw [View.read_apply]
  show (V c (Pipeline.arrRef spec0 6) : S128.Idx → Elt Ideal .f32) _ = _
  refine congrArg _ ?_
  funext a; apply Fin.ext
  match a with
  | ⟨0, _⟩ => show win0_6.index t (0 : Fin 1) * 128 + 1 * (y 0).val = (y 0).val; rw [e0]; omega

/-- Parameter window 7's block at every point is its whole array. -/
theorem par0_7 (V : (c : Dev nD) → (b : Ref sig .tc) → Buf (Elt Ideal) ((c : Thread nD τ).loc b)) (c : Dev nD) (t : Fin cfg0.N) :
    (Gen.iblk0 (F := Ideal) V c 7 t : Vec Ideal S128 .f32) = (V c (Pipeline.arrRef spec0 7) : S128.Idx → Elt Ideal .f32) := by
  obtain e0 := idx0_7 t
  funext y
  unfold Gen.iblk0
  rw [View.read_apply]
  show (V c (Pipeline.arrRef spec0 7) : S128.Idx → Elt Ideal .f32) _ = _
  refine congrArg _ ?_
  funext a; apply Fin.ext
  match a with
  | ⟨0, _⟩ => show win0_7.index t (0 : Fin 1) * 128 + 1 * (y 0).val = (y 0).val; rw [e0]; omega

/-- Parameter window 8's block at every point is its whole array. -/
theorem par0_8 (V : (c : Dev nD) → (b : Ref sig .tc) → Buf (Elt Ideal) ((c : Thread nD τ).loc b)) (c : Dev nD) (t : Fin cfg0.N) :
    (Gen.iblk0 (F := Ideal) V c 8 t : Vec Ideal S128x64 .f32) = (V c (Pipeline.arrRef spec0 8) : S128x64.Idx → Elt Ideal .f32) := by
  obtain ⟨e0, e1⟩ := idx0_8 t
  funext y
  unfold Gen.iblk0
  rw [View.read_apply]
  show (V c (Pipeline.arrRef spec0 8) : S128x64.Idx → Elt Ideal .f32) _ = _
  refine congrArg _ ?_
  funext a; apply Fin.ext
  match a with
  | ⟨0, _⟩ => show win0_8.index t (0 : Fin 2) * 128 + 1 * (y 0).val = (y 0).val; rw [e0]; omega
  | ⟨1, _⟩ => show win0_8.index t (1 : Fin 2) * 64 + 1 * (y 1).val = (y 1).val; rw [e1]; omega

/-- Parameter window 9's block at every point is its whole array. -/
theorem par0_9 (V : (c : Dev nD) → (b : Ref sig .tc) → Buf (Elt Ideal) ((c : Thread nD τ).loc b)) (c : Dev nD) (t : Fin cfg0.N) :
    (Gen.iblk0 (F := Ideal) V c 9 t : Vec Ideal S64 .f32) = (V c (Pipeline.arrRef spec0 9) : S64.Idx → Elt Ideal .f32) := by
  obtain e0 := idx0_9 t
  funext y
  unfold Gen.iblk0
  rw [View.read_apply]
  show (V c (Pipeline.arrRef spec0 9) : S64.Idx → Elt Ideal .f32) _ = _
  refine congrArg _ ?_
  funext a; apply Fin.ext
  match a with
  | ⟨0, _⟩ => show win0_9.index t (0 : Fin 1) * 64 + 1 * (y 0).val = (y 0).val; rw [e0]; omega

/-- Parameter window 10's block at every point is its whole array. -/
theorem par0_10 (V : (c : Dev nD) → (b : Ref sig .tc) → Buf (Elt Ideal) ((c : Thread nD τ).loc b)) (c : Dev nD) (t : Fin cfg0.N) :
    (Gen.iblk0 (F := Ideal) V c 10 t : Vec Ideal S64 .f32) = (V c (Pipeline.arrRef spec0 10) : S64.Idx → Elt Ideal .f32) := by
  obtain e0 := idx0_10 t
  funext y
  unfold Gen.iblk0
  rw [View.read_apply]
  show (V c (Pipeline.arrRef spec0 10) : S64.Idx → Elt Ideal .f32) _ = _
  refine congrArg _ ?_
  funext a; apply Fin.ext
  match a with
  | ⟨0, _⟩ => show win0_10.index t (0 : Fin 1) * 64 + 1 * (y 0).val = (y 0).val; rw [e0]; omega

/-- Parameter window 11's block at every point is its whole array. -/
theorem par0_11 (V : (c : Dev nD) → (b : Ref sig .tc) → Buf (Elt Ideal) ((c : Thread nD τ).loc b)) (c : Dev nD) (t : Fin cfg0.N) :
    (Gen.iblk0 (F := Ideal) V c 11 t : Vec Ideal S64 .f32) = (V c (Pipeline.arrRef spec0 11) : S64.Idx → Elt Ideal .f32) := by
  obtain e0 := idx0_11 t
  funext y
  unfold Gen.iblk0
  rw [View.read_apply]
  show (V c (Pipeline.arrRef spec0 11) : S64.Idx → Elt Ideal .f32) _ = _
  refine congrArg _ ?_
  funext a; apply Fin.ext
  match a with
  | ⟨0, _⟩ => show win0_11.index t (0 : Fin 1) * 64 + 1 * (y 0).val = (y 0).val; rw [e0]; omega

/-- Parameter window 12's block at every point is its whole array. -/
theorem par0_12 (V : (c : Dev nD) → (b : Ref sig .tc) → Buf (Elt Ideal) ((c : Thread nD τ).loc b)) (c : Dev nD) (t : Fin cfg0.N) :
    (Gen.iblk0 (F := Ideal) V c 12 t : Vec Ideal S64 .f32) = (V c (Pipeline.arrRef spec0 12) : S64.Idx → Elt Ideal .f32) := by
  obtain e0 := idx0_12 t
  funext y
  unfold Gen.iblk0
  rw [View.read_apply]
  show (V c (Pipeline.arrRef spec0 12) : S64.Idx → Elt Ideal .f32) _ = _
  refine congrArg _ ?_
  funext a; apply Fin.ext
  match a with
  | ⟨0, _⟩ => show win0_12.index t (0 : Fin 1) * 64 + 1 * (y 0).val = (y 0).val; rw [e0]; omega

/-- Parameter window 13's block at every point is its whole array. -/
theorem par0_13 (V : (c : Dev nD) → (b : Ref sig .tc) → Buf (Elt Ideal) ((c : Thread nD τ).loc b)) (c : Dev nD) (t : Fin cfg0.N) :
    (Gen.iblk0 (F := Ideal) V c 13 t : Vec Ideal S64 .f32) = (V c (Pipeline.arrRef spec0 13) : S64.Idx → Elt Ideal .f32) := by
  obtain e0 := idx0_13 t
  funext y
  unfold Gen.iblk0
  rw [View.read_apply]
  show (V c (Pipeline.arrRef spec0 13) : S64.Idx → Elt Ideal .f32) _ = _
  refine congrArg _ ?_
  funext a; apply Fin.ext
  match a with
  | ⟨0, _⟩ => show win0_13.index t (0 : Fin 1) * 64 + 1 * (y 0).val = (y 0).val; rw [e0]; omega

/-! ## What a point writes back -/

/-- The GIN layer of the whole arrays as region 0 finds them. -/
abbrev G0 (V : (c : Dev nD) → (b : Ref sig .tc) → Buf (Elt Ideal) ((c : Thread nD τ).loc b)) (c : Dev nD) : S50000x64.Idx → Elt Ideal .f32 :=
  layerArr bnK 50000 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13))

/-- Entry `(p, q)` of the output window's block at point `t` sits at entry `(5000·t + p, q)` of the output array. -/
theorem emb0 (t : Fin cfg0.N) (p : Fin 5000) (q : Fin 64) (i : Fin 50000) (hi : i.val = 5000 * t.val + p.val) :
    ((cfg0.win 14).blk t).view.emb (ix2 p q : S5000x64.Idx) = (ix2 i q : S50000x64.Idx) := by
  obtain ⟨e0, e1⟩ := idx0_14 t
  funext a; apply Fin.ext
  match a with
  | ⟨0, _⟩ => show win0_14.index t (0 : Fin 2) * 5000 + 1 * p.val = i.val; rw [e0, hi]; omega
  | ⟨1, _⟩ => show win0_14.index t (1 : Fin 2) * 64 + 1 * q.val = q.val; rw [e1]; omega

/-- The GIN layer of the blocks at point `t`, at an entry of the block, is the GIN layer of the whole arrays at the entry of
    the array the block's entry sits at: row-locality, with each block read off its array. -/
theorem block_entry0 (V : (c : Dev nD) → (b : Ref sig .tc) → Buf (Elt Ideal) ((c : Thread nD τ).loc b)) (c : Dev nD) (t : Fin cfg0.N) (j : S5000x64.Idx) :
    layerArr bnK 5000 (Gen.iblk0 (F := Ideal) V c 0 t) (Gen.iblk0 (F := Ideal) V c 1 t) (Gen.iblk0 (F := Ideal) V c 2 t) (Gen.iblk0 (F := Ideal) V c 3 t) (Gen.iblk0 (F := Ideal) V c 4 t) (Gen.iblk0 (F := Ideal) V c 5 t) (Gen.iblk0 (F := Ideal) V c 6 t) (Gen.iblk0 (F := Ideal) V c 7 t) (Gen.iblk0 (F := Ideal) V c 8 t) (Gen.iblk0 (F := Ideal) V c 9 t) (Gen.iblk0 (F := Ideal) V c 10 t) (Gen.iblk0 (F := Ideal) V c 11 t) (Gen.iblk0 (F := Ideal) V c 12 t) (Gen.iblk0 (F := Ideal) V c 13 t) j
      = G0 V c (((cfg0.win 14).blk t).view.emb j) := by
  obtain ⟨p, q, rfl⟩ : ∃ (p : Fin 5000) (q : Fin 64), j = ix2 p q := ⟨j 0, j 1, eq_ix2 j⟩
  have ht := point_lt0 t
  have hp := p.isLt
  rw [emb0 t p q ⟨5000 * t.val + p.val, by omega⟩ rfl]
  exact layerArr_block bnK _ p q (fun k => rows0_0 V c t p k _ rfl) (fun k => rows0_1 V c t p k _ rfl)
    (par0_2 V c t) (par0_3 V c t) (par0_4 V c t) (par0_5 V c t) (par0_6 V c t) (par0_7 V c t) (par0_8 V c t) (par0_9 V c t) (par0_10 V c t) (par0_11 V c t) (par0_12 V c t) (par0_13 V c t)

/-- WHAT POINT `t` WRITES BACK is block `t` of the GIN layer of the whole arrays, given that the body computes the GIN layer of its
    blocks (`hbody`). -/
theorem flushed0 (hbody : ∀ x0 x1 x2 x3 x4 x5 x6 x7 x8 x9 x10 x11 x12 x13, Gen.out0_14 (F := Ideal) x0 x1 x2 x3 x4 x5 x6 x7 x8 x9 x10 x11 x12 x13 = layerArr bnK 5000 x0 x1 x2 x3 x4 x5 x6 x7 x8 x9 x10 x11 x12 x13)
    (V : (c : Dev nD) → (b : Ref sig .tc) → Buf (Elt Ideal) ((c : Thread nD τ).loc b)) (c : Dev nD) (t : Fin cfg0.N) :
    (Gen.dat0 (F := Ideal) V c).flushed 14 t = ((cfg0.win 14).blk t).view.read (Elt Ideal) (G0 V c) := by
  show (cfg0.win 14).cut (grid0.coords t) ((Gen.dat0 (F := Ideal) V c).after 14 t) = _
  rw [Gen.after0_14, hbody]
  funext j
  exact block_entry0 V c t j

/-! ## The blocks cover the array -/

/-- An index of the output array is in point `t`'s block iff each coordinate is in the block's range on its axis. -/
theorem mem_blk0 (t : Fin cfg0.N) (i : S50000x64.Idx) :
    i ∈ ((cfg0.win 14).blk t).view.set ↔ ∀ a : Fin 2, win0_14.index t a * S5000x64.size a ≤ (i a).val ∧ (i a).val < win0_14.index t a * S5000x64.size a + S5000x64.size a := by
  show i ∈ ((View.whole main_v38).slice (win0_14.rect t)).set ↔ _
  rw [View.set_slice_whole, Rect.mem_set_unit]
  exact Iff.rfl

/-- Row `r` of the output array is in the block of point `r / 5000`, which writes its block back. -/
theorem cover0 (i : S50000x64.Idx) :
    ∃ t : Fin cfg0.N, (cfg0.win 14).flush t = true ∧ i ∈ ((cfg0.win 14).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨e0, e1⟩ := idx0_14 t
  refine ⟨t, flush0_14 t, ?_⟩
  rw [mem_blk0]
  intro a
  match a with
  | ⟨0, _⟩ => show win0_14.index t (0 : Fin 2) * 5000 ≤ (i 0).val ∧ (i 0).val < win0_14.index t (0 : Fin 2) * 5000 + 5000; rw [e0, ht]; omega
  | ⟨1, _⟩ => show win0_14.index t (1 : Fin 2) * 64 ≤ (i 1).val ∧ (i 1).val < win0_14.index t (1 : Fin 2) * 64 + 64; rw [e1]; omega

/-! ## The output array after the region -/

/-- THE OUTPUT ARRAY after region 0's ten points is the GIN layer of the arrays as the region finds them, given that the body
    computes the GIN layer of its blocks. -/
theorem final0 (hbody : ∀ x0 x1 x2 x3 x4 x5 x6 x7 x8 x9 x10 x11 x12 x13, Gen.out0_14 (F := Ideal) x0 x1 x2 x3 x4 x5 x6 x7 x8 x9 x10 x11 x12 x13 = layerArr bnK 5000 x0 x1 x2 x3 x4 x5 x6 x7 x8 x9 x10 x11 x12 x13)
    (V : (c : Dev nD) → (b : Ref sig .tc) → Buf (Elt Ideal) ((c : Thread nD τ).loc b)) (c : Dev nD) :
    (Gen.dat0 (F := Ideal) V c).arrAt 14 cfg0.N
      = layerArr bnK 50000 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) :=
  (Gen.dat0 (F := Ideal) V c).arrAt_eq_of_cover 14 (G0 V c) (fun t _ => flushed0 hbody V c t) cover0

end Cert.KernelIdeal.Blocks

end
-- ==== Proof.Blocks1.lean ====
/-
  Region 1 (the GIN layer): from the blocks the ten grid points write back to the whole output array.

  At point `t` each row-indexed window holds rows `5000·t … 5000·t + 4999` of its 50000-row array and each parameter
  window holds its whole array (its block index is `0` on every axis). The GIN layer is row-local, so the block point `t`
  writes back — the GIN layer of the blocks — is rows `5000·t …` of the GIN layer of the whole arrays as the region finds
  them. Row `r` lies in the block of point `r / 5000`, so the ten blocks cover the array, which therefore ends holding
  that function of the arrays.
-/
import proofs.«137670_j89919435309328_2_alg».proof.Proof.BlockRows
import proofs.«137670_j89919435309328_2_alg».proof.Proof.Gen.KernelIdeal.Frame
import Idealize.ShloMosaic.Lib.Pipeline.Value

noncomputable section

namespace Cert.KernelIdeal.Blocks

open Idealize.ShloMosaic Idealize.ShloMosaic.TcCoe Idealize.ShloMosaic.ValueIdx
open Idealize.ShloMosaic.Pipeline (Dat)
open Cert.KernelIdeal Cert.KernelIdeal.Gen Cert.Spec

/-! ## The printed index maps, decided over the ten points -/

/-- Window 0 moves down the rows: at point `t` its block index is `(t, 0)`. -/
theorem idx1_0 : ∀ t : Fin cfg1.N, win1_0.index t (0 : Fin 2) = t.val ∧ win1_0.index t (1 : Fin 2) = 0 :=
  (by decide +kernel : ∀ t : Fin grid1.N, _)

/-- Window 1 moves down the rows: at point `t` its block index is `(t, 0)`. -/
theorem idx1_1 : ∀ t : Fin cfg1.N, win1_1.index t (0 : Fin 2) = t.val ∧ win1_1.index t (1 : Fin 2) = 0 :=
  (by decide +kernel : ∀ t : Fin grid1.N, _)

/-- Window 14 moves down the rows: at point `t` its block index is `(t, 0)`. -/
theorem idx1_14 : ∀ t : Fin cfg1.N, win1_14.index t (0 : Fin 2) = t.val ∧ win1_14.index t (1 : Fin 2) = 0 :=
  (by decide +kernel : ∀ t : Fin grid1.N, _)

/-- Window 2 never moves: its block index is `0` at every point. -/
theorem idx1_2 : ∀ t : Fin cfg1.N, win1_2.index t (0 : Fin 2) = 0 ∧ win1_2.index t (1 : Fin 2) = 0 :=
  (by decide +kernel : ∀ t : Fin grid1.N, _)

/-- Window 3 never moves: its block index is `0` at every point. -/
theorem idx1_3 : ∀ t : Fin cfg1.N, win1_3.index t (0 : Fin 1) = 0 :=
  (by decide +kernel : ∀ t : Fin grid1.N, _)

/-- Window 4 never moves: its block index is `0` at every point. -/
theorem idx1_4 : ∀ t : Fin cfg1.N, win1_4.index t (0 : Fin 1) = 0 :=
  (by decide +kernel : ∀ t : Fin grid1.N, _)

/-- Window 5 never moves: its block index is `0` at every point. -/
theorem idx1_5 : ∀ t : Fin cfg1.N, win1_5.index t (0 : Fin 1) = 0 :=
  (by decide +kernel : ∀ t : Fin grid1.N, _)

/-- Window 6 never moves: its block index is `0` at every point. -/
theorem idx1_6 : ∀ t : Fin cfg1.N, win1_6.index t (0 : Fin 1) = 0 :=
  (by decide +kernel : ∀ t : Fin grid1.N, _)

/-- Window 7 never moves: its block index is `0` at every point. -/
theorem idx1_7 : ∀ t : Fin cfg1.N, win1_7.index t (0 : Fin 1) = 0 :=
  (by decide +kernel : ∀ t : Fin grid1.N, _)

/-- Window 8 never moves: its block index is `0` at every point. -/
theorem idx1_8 : ∀ t : Fin cfg1.N, win1_8.index t (0 : Fin 2) = 0 ∧ win1_8.index t (1 : Fin 2) = 0 :=
  (by decide +kernel : ∀ t : Fin grid1.N, _)

/-- Window 9 never moves: its block index is `0` at every point. -/
theorem idx1_9 : ∀ t : Fin cfg1.N, win1_9.index t (0 : Fin 1) = 0 :=
  (by decide +kernel : ∀ t : Fin grid1.N, _)

/-- Window 10 never moves: its block index is `0` at every point. -/
theorem idx1_10 : ∀ t : Fin cfg1.N, win1_10.index t (0 : Fin 1) = 0 :=
  (by decide +kernel : ∀ t : Fin grid1.N, _)

/-- Window 11 never moves: its block index is `0` at every point. -/
theorem idx1_11 : ∀ t : Fin cfg1.N, win1_11.index t (0 : Fin 1) = 0 :=
  (by decide +kernel : ∀ t : Fin grid1.N, _)

/-- Window 12 never moves: its block index is `0` at every point. -/
theorem idx1_12 : ∀ t : Fin cfg1.N, win1_12.index t (0 : Fin 1) = 0 :=
  (by decide +kernel : ∀ t : Fin grid1.N, _)

/-- Window 13 never moves: its block index is `0` at every point. -/
theorem idx1_13 : ∀ t : Fin cfg1.N, win1_13.index t (0 : Fin 1) = 0 :=
  (by decide +kernel : ∀ t : Fin grid1.N, _)

/-- The grid has ten points. -/
theorem point_lt1 (t : Fin cfg1.N) : t.val < 10 := lt_of_lt_of_eq t.isLt N_1

/-! ## Each window's block, read off its array -/

/-- Row `p` of window 0's block at point `t` is row `5000·t + p` of its array. -/
theorem rows1_0 (V : (c : Dev nD) → (b : Ref sig .tc) → Buf (Elt Ideal) ((c : Thread nD τ).loc b)) (c : Dev nD) (t : Fin cfg1.N)
    (p : Fin 5000) (k : Fin 64) (i : Fin 50000) (hi : i.val = 5000 * t.val + p.val) :
    (Gen.iblk1 (F := Ideal) V c 0 t : Vec Ideal S5000x64 .f32) (ix2 p k)
      = (V c (Pipeline.arrRef spec1 0) : S50000x64.Idx → Elt Ideal .f32) (ix2 i k) := by
  obtain ⟨e0, e1⟩ := idx1_0 t
  unfold Gen.iblk1
  rw [View.read_apply]
  show (V c (Pipeline.arrRef spec1 0) : S50000x64.Idx → Elt Ideal .f32) _ = _
  refine congrArg _ ?_
  funext a; apply Fin.ext
  match a with
  | ⟨0, _⟩ => show win1_0.index t (0 : Fin 2) * 5000 + 1 * p.val = i.val; rw [e0, hi]; omega
  | ⟨1, _⟩ => show win1_0.index t (1 : Fin 2) * 64 + 1 * k.val = k.val; rw [e1]; omega

/-- Row `p` of window 1's block at point `t` is row `5000·t + p` of its array. -/
theorem rows1_1 (V : (c : Dev nD) → (b : Ref sig .tc) → Buf (Elt Ideal) ((c : Thread nD τ).loc b)) (c : Dev nD) (t : Fin cfg1.N)
    (p : Fin 5000) (k : Fin 64) (i : Fin 50000) (hi : i.val = 5000 * t.val + p.val) :
    (Gen.iblk1 (F := Ideal) V c 1 t : Vec Ideal S5000x64 .f32) (ix2 p k)
      = (V c (Pipeline.arrRef spec1 1) : S50000x64.Idx → Elt Ideal .f32) (ix2 i k) := by
  obtain ⟨e0, e1⟩ := idx1_1 t
  unfold Gen.iblk1
  rw [View.read_apply]
  show (V c (Pipeline.arrRef spec1 1) : S50000x64.Idx → Elt Ideal .f32) _ = _
  refine congrArg _ ?_
  funext a; apply Fin.ext
  match a with
  | ⟨0, _⟩ => show win1_1.index t (0 : Fin 2) * 5000 + 1 * p.val = i.val; rw [e0, hi]; omega
  | ⟨1, _⟩ => show win1_1.index t (1 : Fin 2) * 64 + 1 * k.val = k.val; rw [e1]; omega

/-- Parameter window 2's block at every point is its whole array. -/
theorem par1_2 (V : (c : Dev nD) → (b : Ref sig .tc) → Buf (Elt Ideal) ((c : Thread nD τ).loc b)) (c : Dev nD) (t : Fin cfg1.N) :
    (Gen.iblk1 (F := Ideal) V c 2 t : Vec Ideal S64x128 .f32) = (V c (Pipeline.arrRef spec1 2) : S64x128.Idx → Elt Ideal .f32) := by
  obtain ⟨e0, e1⟩ := idx1_2 t
  funext y
  unfold Gen.iblk1
  rw [View.read_apply]
  show (V c (Pipeline.arrRef spec1 2) : S64x128.Idx → Elt Ideal .f32) _ = _
  refine congrArg _ ?_
  funext a; apply Fin.ext
  match a with
  | ⟨0, _⟩ => show win1_2.index t (0 : Fin 2) * 64 + 1 * (y 0).val = (y 0).val; rw [e0]; omega
  | ⟨1, _⟩ => show win1_2.index t (1 : Fin 2) * 128 + 1 * (y 1).val = (y 1).val; rw [e1]; omega

/-- Parameter window 3's block at every point is its whole array. -/
theorem par1_3 (V : (c : Dev nD) → (b : Ref sig .tc) → Buf (Elt Ideal) ((c : Thread nD τ).loc b)) (c : Dev nD) (t : Fin cfg1.N) :
    (Gen.iblk1 (F := Ideal) V c 3 t : Vec Ideal S128 .f32) = (V c (Pipeline.arrRef spec1 3) : S128.Idx → Elt Ideal .f32) := by
  obtain e0 := idx1_3 t
  funext y
  unfold Gen.iblk1
  rw [View.read_apply]
  show (V c (Pipeline.arrRef spec1 3) : S128.Idx → Elt Ideal .f32) _ = _
  refine congrArg _ ?_
  funext a; apply Fin.ext
  match a with
  | ⟨0, _⟩ => show win1_3.index t (0 : Fin 1) * 128 + 1 * (y 0).val = (y 0).val; rw [e0]; omega

/-- Parameter window 4's block at every point is its whole array. -/
theorem par1_4 (V : (c : Dev nD) → (b : Ref sig .tc) → Buf (Elt Ideal) ((c : Thread nD τ).loc b)) (c : Dev nD) (t : Fin cfg1.N) :
    (Gen.iblk1 (F := Ideal) V c 4 t : Vec Ideal S128 .f32) = (V c (Pipeline.arrRef spec1 4) : S128.Idx → Elt Ideal .f32) := by
  obtain e0 := idx1_4 t
  funext y
  unfold Gen.iblk1
  rw [View.read_apply]
  show (V c (Pipeline.arrRef spec1 4) : S128.Idx → Elt Ideal .f32) _ = _
  refine congrArg _ ?_
  funext a; apply Fin.ext
  match a with
  | ⟨0, _⟩ => show win1_4.index t (0 : Fin 1) * 128 + 1 * (y 0).val = (y 0).val; rw [e0]; omega

/-- Parameter window 5's block at every point is its whole array. -/
theorem par1_5 (V : (c : Dev nD) → (b : Ref sig .tc) → Buf (Elt Ideal) ((c : Thread nD τ).loc b)) (c : Dev nD) (t : Fin cfg1.N) :
    (Gen.iblk1 (F := Ideal) V c 5 t : Vec Ideal S128 .f32) = (V c (Pipeline.arrRef spec1 5) : S128.Idx → Elt Ideal .f32) := by
  obtain e0 := idx1_5 t
  funext y
  unfold Gen.iblk1
  rw [View.read_apply]
  show (V c (Pipeline.arrRef spec1 5) : S128.Idx → Elt Ideal .f32) _ = _
  refine congrArg _ ?_
  funext a; apply Fin.ext
  match a with
  | ⟨0, _⟩ => show win1_5.index t (0 : Fin 1) * 128 + 1 * (y 0).val = (y 0).val; rw [e0]; omega

/-- Parameter window 6's block at every point is its whole array. -/
theorem par1_6 (V : (c : Dev nD) → (b : Ref sig .tc) → Buf (Elt Ideal) ((c : Thread nD τ).loc b)) (c : Dev nD) (t : Fin cfg1.N) :
    (Gen.iblk1 (F := Ideal) V c 6 t : Vec Ideal S128 .f32) = (V c (Pipeline.arrRef spec1 6) : S128.Idx → Elt Ideal .f32) := by
  obtain e0 := idx1_6 t
  funext y
  unfold Gen.iblk1
  rw [View.read_apply]
  show (V c (Pipeline.arrRef spec1 6) : S128.Idx → Elt Ideal .f32) _ = _
  refine congrArg _ ?_
  funext a; apply Fin.ext
  match a with
  | ⟨0, _⟩ => show win1_6.index t (0 : Fin 1) * 128 + 1 * (y 0).val = (y 0).val; rw [e0]; omega

/-- Parameter window 7's block at every point is its whole array. -/
theorem par1_7 (V : (c : Dev nD) → (b : Ref sig .tc) → Buf (Elt Ideal) ((c : Thread nD τ).loc b)) (c : Dev nD) (t : Fin cfg1.N) :
    (Gen.iblk1 (F := Ideal) V c 7 t : Vec Ideal S128 .f32) = (V c (Pipeline.arrRef spec1 7) : S128.Idx → Elt Ideal .f32) := by
  obtain e0 := idx1_7 t
  funext y
  unfold Gen.iblk1
  rw [View.read_apply]
  show (V c (Pipeline.arrRef spec1 7) : S128.Idx → Elt Ideal .f32) _ = _
  refine congrArg _ ?_
  funext a; apply Fin.ext
  match a with
  | ⟨0, _⟩ => show win1_7.index t (0 : Fin 1) * 128 + 1 * (y 0).val = (y 0).val; rw [e0]; omega

/-- Parameter window 8's block at every point is its whole array. -/
theorem par1_8 (V : (c : Dev nD) → (b : Ref sig .tc) → Buf (Elt Ideal) ((c : Thread nD τ).loc b)) (c : Dev nD) (t : Fin cfg1.N) :
    (Gen.iblk1 (F := Ideal) V c 8 t : Vec Ideal S128x64 .f32) = (V c (Pipeline.arrRef spec1 8) : S128x64.Idx → Elt Ideal .f32) := by
  obtain ⟨e0, e1⟩ := idx1_8 t
  funext y
  unfold Gen.iblk1
  rw [View.read_apply]
  show (V c (Pipeline.arrRef spec1 8) : S128x64.Idx → Elt Ideal .f32) _ = _
  refine congrArg _ ?_
  funext a; apply Fin.ext
  match a with
  | ⟨0, _⟩ => show win1_8.index t (0 : Fin 2) * 128 + 1 * (y 0).val = (y 0).val; rw [e0]; omega
  | ⟨1, _⟩ => show win1_8.index t (1 : Fin 2) * 64 + 1 * (y 1).val = (y 1).val; rw [e1]; omega

/-- Parameter window 9's block at every point is its whole array. -/
theorem par1_9 (V : (c : Dev nD) → (b : Ref sig .tc) → Buf (Elt Ideal) ((c : Thread nD τ).loc b)) (c : Dev nD) (t : Fin cfg1.N) :
    (Gen.iblk1 (F := Ideal) V c 9 t : Vec Ideal S64 .f32) = (V c (Pipeline.arrRef spec1 9) : S64.Idx → Elt Ideal .f32) := by
  obtain e0 := idx1_9 t
  funext y
  unfold Gen.iblk1
  rw [View.read_apply]
  show (V c (Pipeline.arrRef spec1 9) : S64.Idx → Elt Ideal .f32) _ = _
  refine congrArg _ ?_
  funext a; apply Fin.ext
  match a with
  | ⟨0, _⟩ => show win1_9.index t (0 : Fin 1) * 64 + 1 * (y 0).val = (y 0).val; rw [e0]; omega

/-- Parameter window 10's block at every point is its whole array. -/
theorem par1_10 (V : (c : Dev nD) → (b : Ref sig .tc) → Buf (Elt Ideal) ((c : Thread nD τ).loc b)) (c : Dev nD) (t : Fin cfg1.N) :
    (Gen.iblk1 (F := Ideal) V c 10 t : Vec Ideal S64 .f32) = (V c (Pipeline.arrRef spec1 10) : S64.Idx → Elt Ideal .f32) := by
  obtain e0 := idx1_10 t
  funext y
  unfold Gen.iblk1
  rw [View.read_apply]
  show (V c (Pipeline.arrRef spec1 10) : S64.Idx → Elt Ideal .f32) _ = _
  refine congrArg _ ?_
  funext a; apply Fin.ext
  match a with
  | ⟨0, _⟩ => show win1_10.index t (0 : Fin 1) * 64 + 1 * (y 0).val = (y 0).val; rw [e0]; omega

/-- Parameter window 11's block at every point is its whole array. -/
theorem par1_11 (V : (c : Dev nD) → (b : Ref sig .tc) → Buf (Elt Ideal) ((c : Thread nD τ).loc b)) (c : Dev nD) (t : Fin cfg1.N) :
    (Gen.iblk1 (F := Ideal) V c 11 t : Vec Ideal S64 .f32) = (V c (Pipeline.arrRef spec1 11) : S64.Idx → Elt Ideal .f32) := by
  obtain e0 := idx1_11 t
  funext y
  unfold Gen.iblk1
  rw [View.read_apply]
  show (V c (Pipeline.arrRef spec1 11) : S64.Idx → Elt Ideal .f32) _ = _
  refine congrArg _ ?_
  funext a; apply Fin.ext
  match a with
  | ⟨0, _⟩ => show win1_11.index t (0 : Fin 1) * 64 + 1 * (y 0).val = (y 0).val; rw [e0]; omega

/-- Parameter window 12's block at every point is its whole array. -/
theorem par1_12 (V : (c : Dev nD) → (b : Ref sig .tc) → Buf (Elt Ideal) ((c : Thread nD τ).loc b)) (c : Dev nD) (t : Fin cfg1.N) :
    (Gen.iblk1 (F := Ideal) V c 12 t : Vec Ideal S64 .f32) = (V c (Pipeline.arrRef spec1 12) : S64.Idx → Elt Ideal .f32) := by
  obtain e0 := idx1_12 t
  funext y
  unfold Gen.iblk1
  rw [View.read_apply]
  show (V c (Pipeline.arrRef spec1 12) : S64.Idx → Elt Ideal .f32) _ = _
  refine congrArg _ ?_
  funext a; apply Fin.ext
  match a with
  | ⟨0, _⟩ => show win1_12.index t (0 : Fin 1) * 64 + 1 * (y 0).val = (y 0).val; rw [e0]; omega

/-- Parameter window 13's block at every point is its whole array. -/
theorem par1_13 (V : (c : Dev nD) → (b : Ref sig .tc) → Buf (Elt Ideal) ((c : Thread nD τ).loc b)) (c : Dev nD) (t : Fin cfg1.N) :
    (Gen.iblk1 (F := Ideal) V c 13 t : Vec Ideal S64 .f32) = (V c (Pipeline.arrRef spec1 13) : S64.Idx → Elt Ideal .f32) := by
  obtain e0 := idx1_13 t
  funext y
  unfold Gen.iblk1
  rw [View.read_apply]
  show (V c (Pipeline.arrRef spec1 13) : S64.Idx → Elt Ideal .f32) _ = _
  refine congrArg _ ?_
  funext a; apply Fin.ext
  match a with
  | ⟨0, _⟩ => show win1_13.index t (0 : Fin 1) * 64 + 1 * (y 0).val = (y 0).val; rw [e0]; omega

/-! ## What a point writes back -/

/-- The GIN layer of the whole arrays as region 1 finds them. -/
abbrev G1 (V : (c : Dev nD) → (b : Ref sig .tc) → Buf (Elt Ideal) ((c : Thread nD τ).loc b)) (c : Dev nD) : S50000x64.Idx → Elt Ideal .f32 :=
  layerArr bnK 50000 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13))

/-- Entry `(p, q)` of the output window's block at point `t` sits at entry `(5000·t + p, q)` of the output array. -/
theorem emb1 (t : Fin cfg1.N) (p : Fin 5000) (q : Fin 64) (i : Fin 50000) (hi : i.val = 5000 * t.val + p.val) :
    ((cfg1.win 14).blk t).view.emb (ix2 p q : S5000x64.Idx) = (ix2 i q : S50000x64.Idx) := by
  obtain ⟨e0, e1⟩ := idx1_14 t
  funext a; apply Fin.ext
  match a with
  | ⟨0, _⟩ => show win1_14.index t (0 : Fin 2) * 5000 + 1 * p.val = i.val; rw [e0, hi]; omega
  | ⟨1, _⟩ => show win1_14.index t (1 : Fin 2) * 64 + 1 * q.val = q.val; rw [e1]; omega

/-- The GIN layer of the blocks at point `t`, at an entry of the block, is the GIN layer of the whole arrays at the entry of
    the array the block's entry sits at: row-locality, with each block read off its array. -/
theorem block_entry1 (V : (c : Dev nD) → (b : Ref sig .tc) → Buf (Elt Ideal) ((c : Thread nD τ).loc b)) (c : Dev nD) (t : Fin cfg1.N) (j : S5000x64.Idx) :
    layerArr bnK 5000 (Gen.iblk1 (F := Ideal) V c 0 t) (Gen.iblk1 (F := Ideal) V c 1 t) (Gen.iblk1 (F := Ideal) V c 2 t) (Gen.iblk1 (F := Ideal) V c 3 t) (Gen.iblk1 (F := Ideal) V c 4 t) (Gen.iblk1 (F := Ideal) V c 5 t) (Gen.iblk1 (F := Ideal) V c 6 t) (Gen.iblk1 (F := Ideal) V c 7 t) (Gen.iblk1 (F := Ideal) V c 8 t) (Gen.iblk1 (F := Ideal) V c 9 t) (Gen.iblk1 (F := Ideal) V c 10 t) (Gen.iblk1 (F := Ideal) V c 11 t) (Gen.iblk1 (F := Ideal) V c 12 t) (Gen.iblk1 (F := Ideal) V c 13 t) j
      = G1 V c (((cfg1.win 14).blk t).view.emb j) := by
  obtain ⟨p, q, rfl⟩ : ∃ (p : Fin 5000) (q : Fin 64), j = ix2 p q := ⟨j 0, j 1, eq_ix2 j⟩
  have ht := point_lt1 t
  have hp := p.isLt
  rw [emb1 t p q ⟨5000 * t.val + p.val, by omega⟩ rfl]
  exact layerArr_block bnK _ p q (fun k => rows1_0 V c t p k _ rfl) (fun k => rows1_1 V c t p k _ rfl)
    (par1_2 V c t) (par1_3 V c t) (par1_4 V c t) (par1_5 V c t) (par1_6 V c t) (par1_7 V c t) (par1_8 V c t) (par1_9 V c t) (par1_10 V c t) (par1_11 V c t) (par1_12 V c t) (par1_13 V c t)

/-- WHAT POINT `t` WRITES BACK is block `t` of the GIN layer of the whole arrays, given that the body computes the GIN layer of its
    blocks (`hbody`). -/
theorem flushed1 (hbody : ∀ x0 x1 x2 x3 x4 x5 x6 x7 x8 x9 x10 x11 x12 x13, Gen.out1_14 (F := Ideal) x0 x1 x2 x3 x4 x5 x6 x7 x8 x9 x10 x11 x12 x13 = layerArr bnK 5000 x0 x1 x2 x3 x4 x5 x6 x7 x8 x9 x10 x11 x12 x13)
    (V : (c : Dev nD) → (b : Ref sig .tc) → Buf (Elt Ideal) ((c : Thread nD τ).loc b)) (c : Dev nD) (t : Fin cfg1.N) :
    (Gen.dat1 (F := Ideal) V c).flushed 14 t = ((cfg1.win 14).blk t).view.read (Elt Ideal) (G1 V c) := by
  show (cfg1.win 14).cut (grid1.coords t) ((Gen.dat1 (F := Ideal) V c).after 14 t) = _
  rw [Gen.after1_14, hbody]
  funext j
  exact block_entry1 V c t j

/-! ## The blocks cover the array -/

/-- An index of the output array is in point `t`'s block iff each coordinate is in the block's range on its axis. -/
theorem mem_blk1 (t : Fin cfg1.N) (i : S50000x64.Idx) :
    i ∈ ((cfg1.win 14).blk t).view.set ↔ ∀ a : Fin 2, win1_14.index t a * S5000x64.size a ≤ (i a).val ∧ (i a).val < win1_14.index t a * S5000x64.size a + S5000x64.size a := by
  show i ∈ ((View.whole main_v73).slice (win1_14.rect t)).set ↔ _
  rw [View.set_slice_whole, Rect.mem_set_unit]
  exact Iff.rfl

/-- Row `r` of the output array is in the block of point `r / 5000`, which writes its block back. -/
theorem cover1 (i : S50000x64.Idx) :
    ∃ t : Fin cfg1.N, (cfg1.win 14).flush t = true ∧ i ∈ ((cfg1.win 14).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨e0, e1⟩ := idx1_14 t
  refine ⟨t, flush1_14 t, ?_⟩
  rw [mem_blk1]
  intro a
  match a with
  | ⟨0, _⟩ => show win1_14.index t (0 : Fin 2) * 5000 ≤ (i 0).val ∧ (i 0).val < win1_14.index t (0 : Fin 2) * 5000 + 5000; rw [e0, ht]; omega
  | ⟨1, _⟩ => show win1_14.index t (1 : Fin 2) * 64 ≤ (i 1).val ∧ (i 1).val < win1_14.index t (1 : Fin 2) * 64 + 64; rw [e1]; omega

/-! ## The output array after the region -/

/-- THE OUTPUT ARRAY after region 1's ten points is the GIN layer of the arrays as the region finds them, given that the body
    computes the GIN layer of its blocks. -/
theorem final1 (hbody : ∀ x0 x1 x2 x3 x4 x5 x6 x7 x8 x9 x10 x11 x12 x13, Gen.out1_14 (F := Ideal) x0 x1 x2 x3 x4 x5 x6 x7 x8 x9 x10 x11 x12 x13 = layerArr bnK 5000 x0 x1 x2 x3 x4 x5 x6 x7 x8 x9 x10 x11 x12 x13)
    (V : (c : Dev nD) → (b : Ref sig .tc) → Buf (Elt Ideal) ((c : Thread nD τ).loc b)) (c : Dev nD) :
    (Gen.dat1 (F := Ideal) V c).arrAt 14 cfg1.N
      = layerArr bnK 50000 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13)) :=
  (Gen.dat1 (F := Ideal) V c).arrAt_eq_of_cover 14 (G1 V c) (fun t _ => flushed1 hbody V c t) cover1

end Cert.KernelIdeal.Blocks

end
-- ==== Proof.Blocks2.lean ====
/-
  Region 2 (the GIN layer): from the blocks the ten grid points write back to the whole output array.

  At point `t` each row-indexed window holds rows `5000·t … 5000·t + 4999` of its 50000-row array and each parameter
  window holds its whole array (its block index is `0` on every axis). The GIN layer is row-local, so the block point `t`
  writes back — the GIN layer of the blocks — is rows `5000·t …` of the GIN layer of the whole arrays as the region finds
  them. Row `r` lies in the block of point `r / 5000`, so the ten blocks cover the array, which therefore ends holding
  that function of the arrays.
-/
import proofs.«137670_j89919435309328_2_alg».proof.Proof.BlockRows
import proofs.«137670_j89919435309328_2_alg».proof.Proof.Gen.KernelIdeal.Frame
import Idealize.ShloMosaic.Lib.Pipeline.Value

noncomputable section

namespace Cert.KernelIdeal.Blocks

open Idealize.ShloMosaic Idealize.ShloMosaic.TcCoe Idealize.ShloMosaic.ValueIdx
open Idealize.ShloMosaic.Pipeline (Dat)
open Cert.KernelIdeal Cert.KernelIdeal.Gen Cert.Spec

/-! ## The printed index maps, decided over the ten points -/

/-- Window 0 moves down the rows: at point `t` its block index is `(t, 0)`. -/
theorem idx2_0 : ∀ t : Fin cfg2.N, win2_0.index t (0 : Fin 2) = t.val ∧ win2_0.index t (1 : Fin 2) = 0 :=
  (by decide +kernel : ∀ t : Fin grid2.N, _)

/-- Window 1 moves down the rows: at point `t` its block index is `(t, 0)`. -/
theorem idx2_1 : ∀ t : Fin cfg2.N, win2_1.index t (0 : Fin 2) = t.val ∧ win2_1.index t (1 : Fin 2) = 0 :=
  (by decide +kernel : ∀ t : Fin grid2.N, _)

/-- Window 14 moves down the rows: at point `t` its block index is `(t, 0)`. -/
theorem idx2_14 : ∀ t : Fin cfg2.N, win2_14.index t (0 : Fin 2) = t.val ∧ win2_14.index t (1 : Fin 2) = 0 :=
  (by decide +kernel : ∀ t : Fin grid2.N, _)

/-- Window 2 never moves: its block index is `0` at every point. -/
theorem idx2_2 : ∀ t : Fin cfg2.N, win2_2.index t (0 : Fin 2) = 0 ∧ win2_2.index t (1 : Fin 2) = 0 :=
  (by decide +kernel : ∀ t : Fin grid2.N, _)

/-- Window 3 never moves: its block index is `0` at every point. -/
theorem idx2_3 : ∀ t : Fin cfg2.N, win2_3.index t (0 : Fin 1) = 0 :=
  (by decide +kernel : ∀ t : Fin grid2.N, _)

/-- Window 4 never moves: its block index is `0` at every point. -/
theorem idx2_4 : ∀ t : Fin cfg2.N, win2_4.index t (0 : Fin 1) = 0 :=
  (by decide +kernel : ∀ t : Fin grid2.N, _)

/-- Window 5 never moves: its block index is `0` at every point. -/
theorem idx2_5 : ∀ t : Fin cfg2.N, win2_5.index t (0 : Fin 1) = 0 :=
  (by decide +kernel : ∀ t : Fin grid2.N, _)

/-- Window 6 never moves: its block index is `0` at every point. -/
theorem idx2_6 : ∀ t : Fin cfg2.N, win2_6.index t (0 : Fin 1) = 0 :=
  (by decide +kernel : ∀ t : Fin grid2.N, _)

/-- Window 7 never moves: its block index is `0` at every point. -/
theorem idx2_7 : ∀ t : Fin cfg2.N, win2_7.index t (0 : Fin 1) = 0 :=
  (by decide +kernel : ∀ t : Fin grid2.N, _)

/-- Window 8 never moves: its block index is `0` at every point. -/
theorem idx2_8 : ∀ t : Fin cfg2.N, win2_8.index t (0 : Fin 2) = 0 ∧ win2_8.index t (1 : Fin 2) = 0 :=
  (by decide +kernel : ∀ t : Fin grid2.N, _)

/-- Window 9 never moves: its block index is `0` at every point. -/
theorem idx2_9 : ∀ t : Fin cfg2.N, win2_9.index t (0 : Fin 1) = 0 :=
  (by decide +kernel : ∀ t : Fin grid2.N, _)

/-- Window 10 never moves: its block index is `0` at every point. -/
theorem idx2_10 : ∀ t : Fin cfg2.N, win2_10.index t (0 : Fin 1) = 0 :=
  (by decide +kernel : ∀ t : Fin grid2.N, _)

/-- Window 11 never moves: its block index is `0` at every point. -/
theorem idx2_11 : ∀ t : Fin cfg2.N, win2_11.index t (0 : Fin 1) = 0 :=
  (by decide +kernel : ∀ t : Fin grid2.N, _)

/-- Window 12 never moves: its block index is `0` at every point. -/
theorem idx2_12 : ∀ t : Fin cfg2.N, win2_12.index t (0 : Fin 1) = 0 :=
  (by decide +kernel : ∀ t : Fin grid2.N, _)

/-- Window 13 never moves: its block index is `0` at every point. -/
theorem idx2_13 : ∀ t : Fin cfg2.N, win2_13.index t (0 : Fin 1) = 0 :=
  (by decide +kernel : ∀ t : Fin grid2.N, _)

/-- The grid has ten points. -/
theorem point_lt2 (t : Fin cfg2.N) : t.val < 10 := lt_of_lt_of_eq t.isLt N_2

/-! ## Each window's block, read off its array -/

/-- Row `p` of window 0's block at point `t` is row `5000·t + p` of its array. -/
theorem rows2_0 (V : (c : Dev nD) → (b : Ref sig .tc) → Buf (Elt Ideal) ((c : Thread nD τ).loc b)) (c : Dev nD) (t : Fin cfg2.N)
    (p : Fin 5000) (k : Fin 64) (i : Fin 50000) (hi : i.val = 5000 * t.val + p.val) :
    (Gen.iblk2 (F := Ideal) V c 0 t : Vec Ideal S5000x64 .f32) (ix2 p k)
      = (V c (Pipeline.arrRef spec2 0) : S50000x64.Idx → Elt Ideal .f32) (ix2 i k) := by
  obtain ⟨e0, e1⟩ := idx2_0 t
  unfold Gen.iblk2
  rw [View.read_apply]
  show (V c (Pipeline.arrRef spec2 0) : S50000x64.Idx → Elt Ideal .f32) _ = _
  refine congrArg _ ?_
  funext a; apply Fin.ext
  match a with
  | ⟨0, _⟩ => show win2_0.index t (0 : Fin 2) * 5000 + 1 * p.val = i.val; rw [e0, hi]; omega
  | ⟨1, _⟩ => show win2_0.index t (1 : Fin 2) * 64 + 1 * k.val = k.val; rw [e1]; omega

/-- Row `p` of window 1's block at point `t` is row `5000·t + p` of its array. -/
theorem rows2_1 (V : (c : Dev nD) → (b : Ref sig .tc) → Buf (Elt Ideal) ((c : Thread nD τ).loc b)) (c : Dev nD) (t : Fin cfg2.N)
    (p : Fin 5000) (k : Fin 64) (i : Fin 50000) (hi : i.val = 5000 * t.val + p.val) :
    (Gen.iblk2 (F := Ideal) V c 1 t : Vec Ideal S5000x64 .f32) (ix2 p k)
      = (V c (Pipeline.arrRef spec2 1) : S50000x64.Idx → Elt Ideal .f32) (ix2 i k) := by
  obtain ⟨e0, e1⟩ := idx2_1 t
  unfold Gen.iblk2
  rw [View.read_apply]
  show (V c (Pipeline.arrRef spec2 1) : S50000x64.Idx → Elt Ideal .f32) _ = _
  refine congrArg _ ?_
  funext a; apply Fin.ext
  match a with
  | ⟨0, _⟩ => show win2_1.index t (0 : Fin 2) * 5000 + 1 * p.val = i.val; rw [e0, hi]; omega
  | ⟨1, _⟩ => show win2_1.index t (1 : Fin 2) * 64 + 1 * k.val = k.val; rw [e1]; omega

/-- Parameter window 2's block at every point is its whole array. -/
theorem par2_2 (V : (c : Dev nD) → (b : Ref sig .tc) → Buf (Elt Ideal) ((c : Thread nD τ).loc b)) (c : Dev nD) (t : Fin cfg2.N) :
    (Gen.iblk2 (F := Ideal) V c 2 t : Vec Ideal S64x128 .f32) = (V c (Pipeline.arrRef spec2 2) : S64x128.Idx → Elt Ideal .f32) := by
  obtain ⟨e0, e1⟩ := idx2_2 t
  funext y
  unfold Gen.iblk2
  rw [View.read_apply]
  show (V c (Pipeline.arrRef spec2 2) : S64x128.Idx → Elt Ideal .f32) _ = _
  refine congrArg _ ?_
  funext a; apply Fin.ext
  match a with
  | ⟨0, _⟩ => show win2_2.index t (0 : Fin 2) * 64 + 1 * (y 0).val = (y 0).val; rw [e0]; omega
  | ⟨1, _⟩ => show win2_2.index t (1 : Fin 2) * 128 + 1 * (y 1).val = (y 1).val; rw [e1]; omega

/-- Parameter window 3's block at every point is its whole array. -/
theorem par2_3 (V : (c : Dev nD) → (b : Ref sig .tc) → Buf (Elt Ideal) ((c : Thread nD τ).loc b)) (c : Dev nD) (t : Fin cfg2.N) :
    (Gen.iblk2 (F := Ideal) V c 3 t : Vec Ideal S128 .f32) = (V c (Pipeline.arrRef spec2 3) : S128.Idx → Elt Ideal .f32) := by
  obtain e0 := idx2_3 t
  funext y
  unfold Gen.iblk2
  rw [View.read_apply]
  show (V c (Pipeline.arrRef spec2 3) : S128.Idx → Elt Ideal .f32) _ = _
  refine congrArg _ ?_
  funext a; apply Fin.ext
  match a with
  | ⟨0, _⟩ => show win2_3.index t (0 : Fin 1) * 128 + 1 * (y 0).val = (y 0).val; rw [e0]; omega

/-- Parameter window 4's block at every point is its whole array. -/
theorem par2_4 (V : (c : Dev nD) → (b : Ref sig .tc) → Buf (Elt Ideal) ((c : Thread nD τ).loc b)) (c : Dev nD) (t : Fin cfg2.N) :
    (Gen.iblk2 (F := Ideal) V c 4 t : Vec Ideal S128 .f32) = (V c (Pipeline.arrRef spec2 4) : S128.Idx → Elt Ideal .f32) := by
  obtain e0 := idx2_4 t
  funext y
  unfold Gen.iblk2
  rw [View.read_apply]
  show (V c (Pipeline.arrRef spec2 4) : S128.Idx → Elt Ideal .f32) _ = _
  refine congrArg _ ?_
  funext a; apply Fin.ext
  match a with
  | ⟨0, _⟩ => show win2_4.index t (0 : Fin 1) * 128 + 1 * (y 0).val = (y 0).val; rw [e0]; omega

/-- Parameter window 5's block at every point is its whole array. -/
theorem par2_5 (V : (c : Dev nD) → (b : Ref sig .tc) → Buf (Elt Ideal) ((c : Thread nD τ).loc b)) (c : Dev nD) (t : Fin cfg2.N) :
    (Gen.iblk2 (F := Ideal) V c 5 t : Vec Ideal S128 .f32) = (V c (Pipeline.arrRef spec2 5) : S128.Idx → Elt Ideal .f32) := by
  obtain e0 := idx2_5 t
  funext y
  unfold Gen.iblk2
  rw [View.read_apply]
  show (V c (Pipeline.arrRef spec2 5) : S128.Idx → Elt Ideal .f32) _ = _
  refine congrArg _ ?_
  funext a; apply Fin.ext
  match a with
  | ⟨0, _⟩ => show win2_5.index t (0 : Fin 1) * 128 + 1 * (y 0).val = (y 0).val; rw [e0]; omega

/-- Parameter window 6's block at every point is its whole array. -/
theorem par2_6 (V : (c : Dev nD) → (b : Ref sig .tc) → Buf (Elt Ideal) ((c : Thread nD τ).loc b)) (c : Dev nD) (t : Fin cfg2.N) :
    (Gen.iblk2 (F := Ideal) V c 6 t : Vec Ideal S128 .f32) = (V c (Pipeline.arrRef spec2 6) : S128.Idx → Elt Ideal .f32) := by
  obtain e0 := idx2_6 t
  funext y
  unfold Gen.iblk2
  rw [View.read_apply]
  show (V c (Pipeline.arrRef spec2 6) : S128.Idx → Elt Ideal .f32) _ = _
  refine congrArg _ ?_
  funext a; apply Fin.ext
  match a with
  | ⟨0, _⟩ => show win2_6.index t (0 : Fin 1) * 128 + 1 * (y 0).val = (y 0).val; rw [e0]; omega

/-- Parameter window 7's block at every point is its whole array. -/
theorem par2_7 (V : (c : Dev nD) → (b : Ref sig .tc) → Buf (Elt Ideal) ((c : Thread nD τ).loc b)) (c : Dev nD) (t : Fin cfg2.N) :
    (Gen.iblk2 (F := Ideal) V c 7 t : Vec Ideal S128 .f32) = (V c (Pipeline.arrRef spec2 7) : S128.Idx → Elt Ideal .f32) := by
  obtain e0 := idx2_7 t
  funext y
  unfold Gen.iblk2
  rw [View.read_apply]
  show (V c (Pipeline.arrRef spec2 7) : S128.Idx → Elt Ideal .f32) _ = _
  refine congrArg _ ?_
  funext a; apply Fin.ext
  match a with
  | ⟨0, _⟩ => show win2_7.index t (0 : Fin 1) * 128 + 1 * (y 0).val = (y 0).val; rw [e0]; omega

/-- Parameter window 8's block at every point is its whole array. -/
theorem par2_8 (V : (c : Dev nD) → (b : Ref sig .tc) → Buf (Elt Ideal) ((c : Thread nD τ).loc b)) (c : Dev nD) (t : Fin cfg2.N) :
    (Gen.iblk2 (F := Ideal) V c 8 t : Vec Ideal S128x64 .f32) = (V c (Pipeline.arrRef spec2 8) : S128x64.Idx → Elt Ideal .f32) := by
  obtain ⟨e0, e1⟩ := idx2_8 t
  funext y
  unfold Gen.iblk2
  rw [View.read_apply]
  show (V c (Pipeline.arrRef spec2 8) : S128x64.Idx → Elt Ideal .f32) _ = _
  refine congrArg _ ?_
  funext a; apply Fin.ext
  match a with
  | ⟨0, _⟩ => show win2_8.index t (0 : Fin 2) * 128 + 1 * (y 0).val = (y 0).val; rw [e0]; omega
  | ⟨1, _⟩ => show win2_8.index t (1 : Fin 2) * 64 + 1 * (y 1).val = (y 1).val; rw [e1]; omega

/-- Parameter window 9's block at every point is its whole array. -/
theorem par2_9 (V : (c : Dev nD) → (b : Ref sig .tc) → Buf (Elt Ideal) ((c : Thread nD τ).loc b)) (c : Dev nD) (t : Fin cfg2.N) :
    (Gen.iblk2 (F := Ideal) V c 9 t : Vec Ideal S64 .f32) = (V c (Pipeline.arrRef spec2 9) : S64.Idx → Elt Ideal .f32) := by
  obtain e0 := idx2_9 t
  funext y
  unfold Gen.iblk2
  rw [View.read_apply]
  show (V c (Pipeline.arrRef spec2 9) : S64.Idx → Elt Ideal .f32) _ = _
  refine congrArg _ ?_
  funext a; apply Fin.ext
  match a with
  | ⟨0, _⟩ => show win2_9.index t (0 : Fin 1) * 64 + 1 * (y 0).val = (y 0).val; rw [e0]; omega

/-- Parameter window 10's block at every point is its whole array. -/
theorem par2_10 (V : (c : Dev nD) → (b : Ref sig .tc) → Buf (Elt Ideal) ((c : Thread nD τ).loc b)) (c : Dev nD) (t : Fin cfg2.N) :
    (Gen.iblk2 (F := Ideal) V c 10 t : Vec Ideal S64 .f32) = (V c (Pipeline.arrRef spec2 10) : S64.Idx → Elt Ideal .f32) := by
  obtain e0 := idx2_10 t
  funext y
  unfold Gen.iblk2
  rw [View.read_apply]
  show (V c (Pipeline.arrRef spec2 10) : S64.Idx → Elt Ideal .f32) _ = _
  refine congrArg _ ?_
  funext a; apply Fin.ext
  match a with
  | ⟨0, _⟩ => show win2_10.index t (0 : Fin 1) * 64 + 1 * (y 0).val = (y 0).val; rw [e0]; omega

/-- Parameter window 11's block at every point is its whole array. -/
theorem par2_11 (V : (c : Dev nD) → (b : Ref sig .tc) → Buf (Elt Ideal) ((c : Thread nD τ).loc b)) (c : Dev nD) (t : Fin cfg2.N) :
    (Gen.iblk2 (F := Ideal) V c 11 t : Vec Ideal S64 .f32) = (V c (Pipeline.arrRef spec2 11) : S64.Idx → Elt Ideal .f32) := by
  obtain e0 := idx2_11 t
  funext y
  unfold Gen.iblk2
  rw [View.read_apply]
  show (V c (Pipeline.arrRef spec2 11) : S64.Idx → Elt Ideal .f32) _ = _
  refine congrArg _ ?_
  funext a; apply Fin.ext
  match a with
  | ⟨0, _⟩ => show win2_11.index t (0 : Fin 1) * 64 + 1 * (y 0).val = (y 0).val; rw [e0]; omega

/-- Parameter window 12's block at every point is its whole array. -/
theorem par2_12 (V : (c : Dev nD) → (b : Ref sig .tc) → Buf (Elt Ideal) ((c : Thread nD τ).loc b)) (c : Dev nD) (t : Fin cfg2.N) :
    (Gen.iblk2 (F := Ideal) V c 12 t : Vec Ideal S64 .f32) = (V c (Pipeline.arrRef spec2 12) : S64.Idx → Elt Ideal .f32) := by
  obtain e0 := idx2_12 t
  funext y
  unfold Gen.iblk2
  rw [View.read_apply]
  show (V c (Pipeline.arrRef spec2 12) : S64.Idx → Elt Ideal .f32) _ = _
  refine congrArg _ ?_
  funext a; apply Fin.ext
  match a with
  | ⟨0, _⟩ => show win2_12.index t (0 : Fin 1) * 64 + 1 * (y 0).val = (y 0).val; rw [e0]; omega

/-- Parameter window 13's block at every point is its whole array. -/
theorem par2_13 (V : (c : Dev nD) → (b : Ref sig .tc) → Buf (Elt Ideal) ((c : Thread nD τ).loc b)) (c : Dev nD) (t : Fin cfg2.N) :
    (Gen.iblk2 (F := Ideal) V c 13 t : Vec Ideal S64 .f32) = (V c (Pipeline.arrRef spec2 13) : S64.Idx → Elt Ideal .f32) := by
  obtain e0 := idx2_13 t
  funext y
  unfold Gen.iblk2
  rw [View.read_apply]
  show (V c (Pipeline.arrRef spec2 13) : S64.Idx → Elt Ideal .f32) _ = _
  refine congrArg _ ?_
  funext a; apply Fin.ext
  match a with
  | ⟨0, _⟩ => show win2_13.index t (0 : Fin 1) * 64 + 1 * (y 0).val = (y 0).val; rw [e0]; omega

/-! ## What a point writes back -/

/-- The GIN layer of the whole arrays as region 2 finds them. -/
abbrev G2 (V : (c : Dev nD) → (b : Ref sig .tc) → Buf (Elt Ideal) ((c : Thread nD τ).loc b)) (c : Dev nD) : S50000x64.Idx → Elt Ideal .f32 :=
  layerArr bnK 50000 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13))

/-- Entry `(p, q)` of the output window's block at point `t` sits at entry `(5000·t + p, q)` of the output array. -/
theorem emb2 (t : Fin cfg2.N) (p : Fin 5000) (q : Fin 64) (i : Fin 50000) (hi : i.val = 5000 * t.val + p.val) :
    ((cfg2.win 14).blk t).view.emb (ix2 p q : S5000x64.Idx) = (ix2 i q : S50000x64.Idx) := by
  obtain ⟨e0, e1⟩ := idx2_14 t
  funext a; apply Fin.ext
  match a with
  | ⟨0, _⟩ => show win2_14.index t (0 : Fin 2) * 5000 + 1 * p.val = i.val; rw [e0, hi]; omega
  | ⟨1, _⟩ => show win2_14.index t (1 : Fin 2) * 64 + 1 * q.val = q.val; rw [e1]; omega

/-- The GIN layer of the blocks at point `t`, at an entry of the block, is the GIN layer of the whole arrays at the entry of
    the array the block's entry sits at: row-locality, with each block read off its array. -/
theorem block_entry2 (V : (c : Dev nD) → (b : Ref sig .tc) → Buf (Elt Ideal) ((c : Thread nD τ).loc b)) (c : Dev nD) (t : Fin cfg2.N) (j : S5000x64.Idx) :
    layerArr bnK 5000 (Gen.iblk2 (F := Ideal) V c 0 t) (Gen.iblk2 (F := Ideal) V c 1 t) (Gen.iblk2 (F := Ideal) V c 2 t) (Gen.iblk2 (F := Ideal) V c 3 t) (Gen.iblk2 (F := Ideal) V c 4 t) (Gen.iblk2 (F := Ideal) V c 5 t) (Gen.iblk2 (F := Ideal) V c 6 t) (Gen.iblk2 (F := Ideal) V c 7 t) (Gen.iblk2 (F := Ideal) V c 8 t) (Gen.iblk2 (F := Ideal) V c 9 t) (Gen.iblk2 (F := Ideal) V c 10 t) (Gen.iblk2 (F := Ideal) V c 11 t) (Gen.iblk2 (F := Ideal) V c 12 t) (Gen.iblk2 (F := Ideal) V c 13 t) j
      = G2 V c (((cfg2.win 14).blk t).view.emb j) := by
  obtain ⟨p, q, rfl⟩ : ∃ (p : Fin 5000) (q : Fin 64), j = ix2 p q := ⟨j 0, j 1, eq_ix2 j⟩
  have ht := point_lt2 t
  have hp := p.isLt
  rw [emb2 t p q ⟨5000 * t.val + p.val, by omega⟩ rfl]
  exact layerArr_block bnK _ p q (fun k => rows2_0 V c t p k _ rfl) (fun k => rows2_1 V c t p k _ rfl)
    (par2_2 V c t) (par2_3 V c t) (par2_4 V c t) (par2_5 V c t) (par2_6 V c t) (par2_7 V c t) (par2_8 V c t) (par2_9 V c t) (par2_10 V c t) (par2_11 V c t) (par2_12 V c t) (par2_13 V c t)

/-- WHAT POINT `t` WRITES BACK is block `t` of the GIN layer of the whole arrays, given that the body computes the GIN layer of its
    blocks (`hbody`). -/
theorem flushed2 (hbody : ∀ x0 x1 x2 x3 x4 x5 x6 x7 x8 x9 x10 x11 x12 x13, Gen.out2_14 (F := Ideal) x0 x1 x2 x3 x4 x5 x6 x7 x8 x9 x10 x11 x12 x13 = layerArr bnK 5000 x0 x1 x2 x3 x4 x5 x6 x7 x8 x9 x10 x11 x12 x13)
    (V : (c : Dev nD) → (b : Ref sig .tc) → Buf (Elt Ideal) ((c : Thread nD τ).loc b)) (c : Dev nD) (t : Fin cfg2.N) :
    (Gen.dat2 (F := Ideal) V c).flushed 14 t = ((cfg2.win 14).blk t).view.read (Elt Ideal) (G2 V c) := by
  show (cfg2.win 14).cut (grid2.coords t) ((Gen.dat2 (F := Ideal) V c).after 14 t) = _
  rw [Gen.after2_14, hbody]
  funext j
  exact block_entry2 V c t j

/-! ## The blocks cover the array -/

/-- An index of the output array is in point `t`'s block iff each coordinate is in the block's range on its axis. -/
theorem mem_blk2 (t : Fin cfg2.N) (i : S50000x64.Idx) :
    i ∈ ((cfg2.win 14).blk t).view.set ↔ ∀ a : Fin 2, win2_14.index t a * S5000x64.size a ≤ (i a).val ∧ (i a).val < win2_14.index t a * S5000x64.size a + S5000x64.size a := by
  show i ∈ ((View.whole main_v108).slice (win2_14.rect t)).set ↔ _
  rw [View.set_slice_whole, Rect.mem_set_unit]
  exact Iff.rfl

/-- Row `r` of the output array is in the block of point `r / 5000`, which writes its block back. -/
theorem cover2 (i : S50000x64.Idx) :
    ∃ t : Fin cfg2.N, (cfg2.win 14).flush t = true ∧ i ∈ ((cfg2.win 14).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨e0, e1⟩ := idx2_14 t
  refine ⟨t, flush2_14 t, ?_⟩
  rw [mem_blk2]
  intro a
  match a with
  | ⟨0, _⟩ => show win2_14.index t (0 : Fin 2) * 5000 ≤ (i 0).val ∧ (i 0).val < win2_14.index t (0 : Fin 2) * 5000 + 5000; rw [e0, ht]; omega
  | ⟨1, _⟩ => show win2_14.index t (1 : Fin 2) * 64 ≤ (i 1).val ∧ (i 1).val < win2_14.index t (1 : Fin 2) * 64 + 64; rw [e1]; omega

/-! ## The output array after the region -/

/-- THE OUTPUT ARRAY after region 2's ten points is the GIN layer of the arrays as the region finds them, given that the body
    computes the GIN layer of its blocks. -/
theorem final2 (hbody : ∀ x0 x1 x2 x3 x4 x5 x6 x7 x8 x9 x10 x11 x12 x13, Gen.out2_14 (F := Ideal) x0 x1 x2 x3 x4 x5 x6 x7 x8 x9 x10 x11 x12 x13 = layerArr bnK 5000 x0 x1 x2 x3 x4 x5 x6 x7 x8 x9 x10 x11 x12 x13)
    (V : (c : Dev nD) → (b : Ref sig .tc) → Buf (Elt Ideal) ((c : Thread nD τ).loc b)) (c : Dev nD) :
    (Gen.dat2 (F := Ideal) V c).arrAt 14 cfg2.N
      = layerArr bnK 50000 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) :=
  (Gen.dat2 (F := Ideal) V c).arrAt_eq_of_cover 14 (G2 V c) (fun t _ => flushed2 hbody V c t) cover2

end Cert.KernelIdeal.Blocks

end
-- ==== Proof.Blocks3.lean ====
/-
  Region 3 (the head): from the blocks the ten grid points write back to the whole output array.

  At point `t` each row-indexed window holds rows `5000·t … 5000·t + 4999` of its 50000-row array and each parameter
  window holds its whole array (its block index is `0` on every axis). The head is row-local, so the block point `t`
  writes back — the head of the blocks — is rows `5000·t …` of the head of the whole arrays as the region finds
  them. Row `r` lies in the block of point `r / 5000`, so the ten blocks cover the array, which therefore ends holding
  that function of the arrays.
-/
import proofs.«137670_j89919435309328_2_alg».proof.Proof.BlockRows
import proofs.«137670_j89919435309328_2_alg».proof.Proof.Gen.KernelIdeal.Frame
import Idealize.ShloMosaic.Lib.Pipeline.Value

noncomputable section

namespace Cert.KernelIdeal.Blocks

open Idealize.ShloMosaic Idealize.ShloMosaic.TcCoe Idealize.ShloMosaic.ValueIdx
open Idealize.ShloMosaic.Pipeline (Dat)
open Cert.KernelIdeal Cert.KernelIdeal.Gen Cert.Spec

/-! ## The printed index maps, decided over the ten points -/

/-- Window 0 moves down the rows: at point `t` its block index is `(t, 0)`. -/
theorem idx3_0 : ∀ t : Fin cfg3.N, win3_0.index t (0 : Fin 2) = t.val ∧ win3_0.index t (1 : Fin 2) = 0 :=
  (by decide +kernel : ∀ t : Fin grid3.N, _)

/-- Window 9 moves down the rows: at point `t` its block index is `(t, 0)`. -/
theorem idx3_9 : ∀ t : Fin cfg3.N, win3_9.index t (0 : Fin 2) = t.val ∧ win3_9.index t (1 : Fin 2) = 0 :=
  (by decide +kernel : ∀ t : Fin grid3.N, _)

/-- Window 1 never moves: its block index is `0` at every point. -/
theorem idx3_1 : ∀ t : Fin cfg3.N, win3_1.index t (0 : Fin 2) = 0 ∧ win3_1.index t (1 : Fin 2) = 0 :=
  (by decide +kernel : ∀ t : Fin grid3.N, _)

/-- Window 2 never moves: its block index is `0` at every point. -/
theorem idx3_2 : ∀ t : Fin cfg3.N, win3_2.index t (0 : Fin 1) = 0 :=
  (by decide +kernel : ∀ t : Fin grid3.N, _)

/-- Window 3 never moves: its block index is `0` at every point. -/
theorem idx3_3 : ∀ t : Fin cfg3.N, win3_3.index t (0 : Fin 1) = 0 :=
  (by decide +kernel : ∀ t : Fin grid3.N, _)

/-- Window 4 never moves: its block index is `0` at every point. -/
theorem idx3_4 : ∀ t : Fin cfg3.N, win3_4.index t (0 : Fin 1) = 0 :=
  (by decide +kernel : ∀ t : Fin grid3.N, _)

/-- Window 5 never moves: its block index is `0` at every point. -/
theorem idx3_5 : ∀ t : Fin cfg3.N, win3_5.index t (0 : Fin 1) = 0 :=
  (by decide +kernel : ∀ t : Fin grid3.N, _)

/-- Window 6 never moves: its block index is `0` at every point. -/
theorem idx3_6 : ∀ t : Fin cfg3.N, win3_6.index t (0 : Fin 1) = 0 :=
  (by decide +kernel : ∀ t : Fin grid3.N, _)

/-- Window 7 never moves: its block index is `0` at every point. -/
theorem idx3_7 : ∀ t : Fin cfg3.N, win3_7.index t (0 : Fin 2) = 0 ∧ win3_7.index t (1 : Fin 2) = 0 :=
  (by decide +kernel : ∀ t : Fin grid3.N, _)

/-- Window 8 never moves: its block index is `0` at every point. -/
theorem idx3_8 : ∀ t : Fin cfg3.N, win3_8.index t (0 : Fin 1) = 0 :=
  (by decide +kernel : ∀ t : Fin grid3.N, _)

/-- The grid has ten points. -/
theorem point_lt3 (t : Fin cfg3.N) : t.val < 10 := lt_of_lt_of_eq t.isLt N_3

/-! ## Each window's block, read off its array -/

/-- Row `p` of window 0's block at point `t` is row `5000·t + p` of its array. -/
theorem rows3_0 (V : (c : Dev nD) → (b : Ref sig .tc) → Buf (Elt Ideal) ((c : Thread nD τ).loc b)) (c : Dev nD) (t : Fin cfg3.N)
    (p : Fin 5000) (k : Fin 64) (i : Fin 50000) (hi : i.val = 5000 * t.val + p.val) :
    (Gen.iblk3 (F := Ideal) V c 0 t : Vec Ideal S5000x64 .f32) (ix2 p k)
      = (V c (Pipeline.arrRef spec3 0) : S50000x64.Idx → Elt Ideal .f32) (ix2 i k) := by
  obtain ⟨e0, e1⟩ := idx3_0 t
  unfold Gen.iblk3
  rw [View.read_apply]
  show (V c (Pipeline.arrRef spec3 0) : S50000x64.Idx → Elt Ideal .f32) _ = _
  refine congrArg _ ?_
  funext a; apply Fin.ext
  match a with
  | ⟨0, _⟩ => show win3_0.index t (0 : Fin 2) * 5000 + 1 * p.val = i.val; rw [e0, hi]; omega
  | ⟨1, _⟩ => show win3_0.index t (1 : Fin 2) * 64 + 1 * k.val = k.val; rw [e1]; omega

/-- Parameter window 1's block at every point is its whole array. -/
theorem par3_1 (V : (c : Dev nD) → (b : Ref sig .tc) → Buf (Elt Ideal) ((c : Thread nD τ).loc b)) (c : Dev nD) (t : Fin cfg3.N) :
    (Gen.iblk3 (F := Ideal) V c 1 t : Vec Ideal S64x64 .f32) = (V c (Pipeline.arrRef spec3 1) : S64x64.Idx → Elt Ideal .f32) := by
  obtain ⟨e0, e1⟩ := idx3_1 t
  funext y
  unfold Gen.iblk3
  rw [View.read_apply]
  show (V c (Pipeline.arrRef spec3 1) : S64x64.Idx → Elt Ideal .f32) _ = _
  refine congrArg _ ?_
  funext a; apply Fin.ext
  match a with
  | ⟨0, _⟩ => show win3_1.index t (0 : Fin 2) * 64 + 1 * (y 0).val = (y 0).val; rw [e0]; omega
  | ⟨1, _⟩ => show win3_1.index t (1 : Fin 2) * 64 + 1 * (y 1).val = (y 1).val; rw [e1]; omega

/-- Parameter window 2's block at every point is its whole array. -/
theorem par3_2 (V : (c : Dev nD) → (b : Ref sig .tc) → Buf (Elt Ideal) ((c : Thread nD τ).loc b)) (c : Dev nD) (t : Fin cfg3.N) :
    (Gen.iblk3 (F := Ideal) V c 2 t : Vec Ideal S64 .f32) = (V c (Pipeline.arrRef spec3 2) : S64.Idx → Elt Ideal .f32) := by
  obtain e0 := idx3_2 t
  funext y
  unfold Gen.iblk3
  rw [View.read_apply]
  show (V c (Pipeline.arrRef spec3 2) : S64.Idx → Elt Ideal .f32) _ = _
  refine congrArg _ ?_
  funext a; apply Fin.ext
  match a with
  | ⟨0, _⟩ => show win3_2.index t (0 : Fin 1) * 64 + 1 * (y 0).val = (y 0).val; rw [e0]; omega

/-- Parameter window 3's block at every point is its whole array. -/
theorem par3_3 (V : (c : Dev nD) → (b : Ref sig .tc) → Buf (Elt Ideal) ((c : Thread nD τ).loc b)) (c : Dev nD) (t : Fin cfg3.N) :
    (Gen.iblk3 (F := Ideal) V c 3 t : Vec Ideal S64 .f32) = (V c (Pipeline.arrRef spec3 3) : S64.Idx → Elt Ideal .f32) := by
  obtain e0 := idx3_3 t
  funext y
  unfold Gen.iblk3
  rw [View.read_apply]
  show (V c (Pipeline.arrRef spec3 3) : S64.Idx → Elt Ideal .f32) _ = _
  refine congrArg _ ?_
  funext a; apply Fin.ext
  match a with
  | ⟨0, _⟩ => show win3_3.index t (0 : Fin 1) * 64 + 1 * (y 0).val = (y 0).val; rw [e0]; omega

/-- Parameter window 4's block at every point is its whole array. -/
theorem par3_4 (V : (c : Dev nD) → (b : Ref sig .tc) → Buf (Elt Ideal) ((c : Thread nD τ).loc b)) (c : Dev nD) (t : Fin cfg3.N) :
    (Gen.iblk3 (F := Ideal) V c 4 t : Vec Ideal S64 .f32) = (V c (Pipeline.arrRef spec3 4) : S64.Idx → Elt Ideal .f32) := by
  obtain e0 := idx3_4 t
  funext y
  unfold Gen.iblk3
  rw [View.read_apply]
  show (V c (Pipeline.arrRef spec3 4) : S64.Idx → Elt Ideal .f32) _ = _
  refine congrArg _ ?_
  funext a; apply Fin.ext
  match a with
  | ⟨0, _⟩ => show win3_4.index t (0 : Fin 1) * 64 + 1 * (y 0).val = (y 0).val; rw [e0]; omega

/-- Parameter window 5's block at every point is its whole array. -/
theorem par3_5 (V : (c : Dev nD) → (b : Ref sig .tc) → Buf (Elt Ideal) ((c : Thread nD τ).loc b)) (c : Dev nD) (t : Fin cfg3.N) :
    (Gen.iblk3 (F := Ideal) V c 5 t : Vec Ideal S64 .f32) = (V c (Pipeline.arrRef spec3 5) : S64.Idx → Elt Ideal .f32) := by
  obtain e0 := idx3_5 t
  funext y
  unfold Gen.iblk3
  rw [View.read_apply]
  show (V c (Pipeline.arrRef spec3 5) : S64.Idx → Elt Ideal .f32) _ = _
  refine congrArg _ ?_
  funext a; apply Fin.ext
  match a with
  | ⟨0, _⟩ => show win3_5.index t (0 : Fin 1) * 64 + 1 * (y 0).val = (y 0).val; rw [e0]; omega

/-- Parameter window 6's block at every point is its whole array. -/
theorem par3_6 (V : (c : Dev nD) → (b : Ref sig .tc) → Buf (Elt Ideal) ((c : Thread nD τ).loc b)) (c : Dev nD) (t : Fin cfg3.N) :
    (Gen.iblk3 (F := Ideal) V c 6 t : Vec Ideal S64 .f32) = (V c (Pipeline.arrRef spec3 6) : S64.Idx → Elt Ideal .f32) := by
  obtain e0 := idx3_6 t
  funext y
  unfold Gen.iblk3
  rw [View.read_apply]
  show (V c (Pipeline.arrRef spec3 6) : S64.Idx → Elt Ideal .f32) _ = _
  refine congrArg _ ?_
  funext a; apply Fin.ext
  match a with
  | ⟨0, _⟩ => show win3_6.index t (0 : Fin 1) * 64 + 1 * (y 0).val = (y 0).val; rw [e0]; omega

/-- Parameter window 7's block at every point is its whole array. -/
theorem par3_7 (V : (c : Dev nD) → (b : Ref sig .tc) → Buf (Elt Ideal) ((c : Thread nD τ).loc b)) (c : Dev nD) (t : Fin cfg3.N) :
    (Gen.iblk3 (F := Ideal) V c 7 t : Vec Ideal S64x40 .f32) = (V c (Pipeline.arrRef spec3 7) : S64x40.Idx → Elt Ideal .f32) := by
  obtain ⟨e0, e1⟩ := idx3_7 t
  funext y
  unfold Gen.iblk3
  rw [View.read_apply]
  show (V c (Pipeline.arrRef spec3 7) : S64x40.Idx → Elt Ideal .f32) _ = _
  refine congrArg _ ?_
  funext a; apply Fin.ext
  match a with
  | ⟨0, _⟩ => show win3_7.index t (0 : Fin 2) * 64 + 1 * (y 0).val = (y 0).val; rw [e0]; omega
  | ⟨1, _⟩ => show win3_7.index t (1 : Fin 2) * 40 + 1 * (y 1).val = (y 1).val; rw [e1]; omega

/-- Parameter window 8's block at every point is its whole array. -/
theorem par3_8 (V : (c : Dev nD) → (b : Ref sig .tc) → Buf (Elt Ideal) ((c : Thread nD τ).loc b)) (c : Dev nD) (t : Fin cfg3.N) :
    (Gen.iblk3 (F := Ideal) V c 8 t : Vec Ideal S40 .f32) = (V c (Pipeline.arrRef spec3 8) : S40.Idx → Elt Ideal .f32) := by
  obtain e0 := idx3_8 t
  funext y
  unfold Gen.iblk3
  rw [View.read_apply]
  show (V c (Pipeline.arrRef spec3 8) : S40.Idx → Elt Ideal .f32) _ = _
  refine congrArg _ ?_
  funext a; apply Fin.ext
  match a with
  | ⟨0, _⟩ => show win3_8.index t (0 : Fin 1) * 40 + 1 * (y 0).val = (y 0).val; rw [e0]; omega

/-! ## What a point writes back -/

/-- The head of the whole arrays as region 3 finds them. -/
abbrev G3 (V : (c : Dev nD) → (b : Ref sig .tc) → Buf (Elt Ideal) ((c : Thread nD τ).loc b)) (c : Dev nD) : S50000x40.Idx → Elt Ideal .f32 :=
  headArr bnK 50000 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))

/-- Entry `(p, q)` of the output window's block at point `t` sits at entry `(5000·t + p, q)` of the output array. -/
theorem emb3 (t : Fin cfg3.N) (p : Fin 5000) (q : Fin 40) (i : Fin 50000) (hi : i.val = 5000 * t.val + p.val) :
    ((cfg3.win 9).blk t).view.emb (ix2 p q : S5000x40.Idx) = (ix2 i q : S50000x40.Idx) := by
  obtain ⟨e0, e1⟩ := idx3_9 t
  funext a; apply Fin.ext
  match a with
  | ⟨0, _⟩ => show win3_9.index t (0 : Fin 2) * 5000 + 1 * p.val = i.val; rw [e0, hi]; omega
  | ⟨1, _⟩ => show win3_9.index t (1 : Fin 2) * 40 + 1 * q.val = q.val; rw [e1]; omega

/-- The head of the blocks at point `t`, at an entry of the block, is the head of the whole arrays at the entry of
    the array the block's entry sits at: row-locality, with each block read off its array. -/
theorem block_entry3 (V : (c : Dev nD) → (b : Ref sig .tc) → Buf (Elt Ideal) ((c : Thread nD τ).loc b)) (c : Dev nD) (t : Fin cfg3.N) (j : S5000x40.Idx) :
    headArr bnK 5000 (Gen.iblk3 (F := Ideal) V c 0 t) (Gen.iblk3 (F := Ideal) V c 1 t) (Gen.iblk3 (F := Ideal) V c 2 t) (Gen.iblk3 (F := Ideal) V c 3 t) (Gen.iblk3 (F := Ideal) V c 4 t) (Gen.iblk3 (F := Ideal) V c 5 t) (Gen.iblk3 (F := Ideal) V c 6 t) (Gen.iblk3 (F := Ideal) V c 7 t) (Gen.iblk3 (F := Ideal) V c 8 t) j
      = G3 V c (((cfg3.win 9).blk t).view.emb j) := by
  obtain ⟨p, q, rfl⟩ : ∃ (p : Fin 5000) (q : Fin 40), j = ix2 p q := ⟨j 0, j 1, eq_ix2 j⟩
  have ht := point_lt3 t
  have hp := p.isLt
  rw [emb3 t p q ⟨5000 * t.val + p.val, by omega⟩ rfl]
  exact headArr_block bnK _ p q (fun k => rows3_0 V c t p k _ rfl)
    (par3_1 V c t) (par3_2 V c t) (par3_3 V c t) (par3_4 V c t) (par3_5 V c t) (par3_6 V c t) (par3_7 V c t) (par3_8 V c t)

/-- WHAT POINT `t` WRITES BACK is block `t` of the head of the whole arrays, given that the body computes the head of its
    blocks (`hbody`). -/
theorem flushed3 (hbody : ∀ x0 x1 x2 x3 x4 x5 x6 x7 x8, Gen.out3_9 (F := Ideal) x0 x1 x2 x3 x4 x5 x6 x7 x8 = headArr bnK 5000 x0 x1 x2 x3 x4 x5 x6 x7 x8)
    (V : (c : Dev nD) → (b : Ref sig .tc) → Buf (Elt Ideal) ((c : Thread nD τ).loc b)) (c : Dev nD) (t : Fin cfg3.N) :
    (Gen.dat3 (F := Ideal) V c).flushed 9 t = ((cfg3.win 9).blk t).view.read (Elt Ideal) (G3 V c) := by
  show (cfg3.win 9).cut (grid3.coords t) ((Gen.dat3 (F := Ideal) V c).after 9 t) = _
  rw [Gen.after3_9, hbody]
  funext j
  exact block_entry3 V c t j

/-! ## The blocks cover the array -/

/-- An index of the output array is in point `t`'s block iff each coordinate is in the block's range on its axis. -/
theorem mem_blk3 (t : Fin cfg3.N) (i : S50000x40.Idx) :
    i ∈ ((cfg3.win 9).blk t).view.set ↔ ∀ a : Fin 2, win3_9.index t a * S5000x40.size a ≤ (i a).val ∧ (i a).val < win3_9.index t a * S5000x40.size a + S5000x40.size a := by
  show i ∈ ((View.whole main_v109).slice (win3_9.rect t)).set ↔ _
  rw [View.set_slice_whole, Rect.mem_set_unit]
  exact Iff.rfl

/-- Row `r` of the output array is in the block of point `r / 5000`, which writes its block back. -/
theorem cover3 (i : S50000x40.Idx) :
    ∃ t : Fin cfg3.N, (cfg3.win 9).flush t = true ∧ i ∈ ((cfg3.win 9).blk t).view.set := by
  have hi0 : (i 0).val < 50000 := (i 0).isLt
  have hi1 : (i 1).val < 40 := (i 1).isLt
  obtain ⟨t, ht⟩ : ∃ t : Fin cfg3.N, t.val = (i 0).val / 5000 :=
    ⟨⟨(i 0).val / 5000, by rw [show cfg3.N = 10 from N_3]; omega⟩, rfl⟩
  obtain ⟨e0, e1⟩ := idx3_9 t
  refine ⟨t, flush3_9 t, ?_⟩
  rw [mem_blk3]
  intro a
  match a with
  | ⟨0, _⟩ => show win3_9.index t (0 : Fin 2) * 5000 ≤ (i 0).val ∧ (i 0).val < win3_9.index t (0 : Fin 2) * 5000 + 5000; rw [e0, ht]; omega
  | ⟨1, _⟩ => show win3_9.index t (1 : Fin 2) * 40 ≤ (i 1).val ∧ (i 1).val < win3_9.index t (1 : Fin 2) * 40 + 40; rw [e1]; omega

/-! ## The output array after the region -/

/-- THE OUTPUT ARRAY after region 3's ten points is the head of the arrays as the region finds them, given that the body
    computes the head of its blocks. -/
theorem final3 (hbody : ∀ x0 x1 x2 x3 x4 x5 x6 x7 x8, Gen.out3_9 (F := Ideal) x0 x1 x2 x3 x4 x5 x6 x7 x8 = headArr bnK 5000 x0 x1 x2 x3 x4 x5 x6 x7 x8)
    (V : (c : Dev nD) → (b : Ref sig .tc) → Buf (Elt Ideal) ((c : Thread nD τ).loc b)) (c : Dev nD) :
    (Gen.dat3 (F := Ideal) V c).arrAt 9 cfg3.N
      = headArr bnK 50000 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (Gen.dat3 (F := Ideal) V c).arrAt_eq_of_cover 9 (G3 V c) (fun t _ => flushed3 hbody V c t) cover3

end Cert.KernelIdeal.Blocks

end
-- ==== Proof.Blocks.lean ====
/-
  The four regions' output arrays after their ten grid points, gathered in one module: `final0`, `final1`, `final2`
  (the three GIN layers: the output array is the layer of the arrays as the region finds them) and `final3` (the head),
  each under the hypothesis that the region's body computes the same row-local map of its blocks.
-/
import proofs.«137670_j89919435309328_2_alg».proof.Proof.Blocks0
import proofs.«137670_j89919435309328_2_alg».proof.Proof.Blocks1
import proofs.«137670_j89919435309328_2_alg».proof.Proof.Blocks2
import proofs.«137670_j89919435309328_2_alg».proof.Proof.Blocks3
-- ==== Proof.LayerBody.lean ====
/-
  The body of a layer kernel as one function of its whole blocks.

  The three layer kernels are the same program. On a block of 5000 rows the body forms `h = agg + x`
  (64 numbers per row), multiplies by `W1` (64 × 128), and sends each of the 128 results `y` of a row through
      y ↦ max ((((y + b1) - m1) * (v1 + ε)^(-1/2)) * g1 + bt1) 0,
  the parameters being vectors of 128 numbers laid as one row and repeated over the 5000 rows; it multiplies the result
  by `W2` (128 × 64) and sends each of the 64 results through the same map with the second set of parameters. At the
  extended reals a change of float format is the identity and a product accumulated into zeros is the plain sum over
  the contracted coordinate, so entry `(p, q)` of what the body stores is `Cert.Spec.layerRow Cert.Spec.bnK` of row `p`
  at column `q`: the stored block is `Cert.Spec.layerArr Cert.Spec.bnK 5000` of the fourteen blocks read.

  First each piece that is not entrywise is read at an entry `(p, q)`: a vector repeated over the rows, the reciprocal
  square root of such a vector plus ε, the two products. Then one bias / batch-norm / positive-part stage at an entry,
  and the three bodies. The three bodies differ only in where the change of float format before the second product sits,
  and at the extended reals that change is the identity.
-/
import proofs.«137670_j89919435309328_2_alg».proof.Proof.Spec
import proofs.«137670_j89919435309328_2_alg».proof.Proof.Gen.KernelIdeal.Frame
import Idealize.ShloMosaic.Lib.ValueLayout
import Idealize.ShloMosaic.PureOps.Ideal.Laws

noncomputable section

namespace Cert.KernelIdeal.LayerBody

open Idealize.ShloMosaic Idealize.ShloMosaic.ValueIdx
open Cert.KernelIdeal Cert.KernelIdeal.Facts₀ Cert.KernelIdeal.Facts

/-! ## Vectors repeated over the rows -/

/-- A vector of `c` entries laid as one row and repeated over `n` rows reads, at `(p, q)`, its entry `q`. -/
theorem row_apply {α : Type} {n c : ℕ} (v : (⟨1, ![c]⟩ : Shape).Idx → α)
    (h0 : (⟨1, ![c]⟩ : Shape).ShapeCasts ⟨1, ![c]⟩) (h1 : (⟨1, ![c]⟩ : Shape).ShapeCasts ⟨2, ![1, c]⟩)
    (h2 : (⟨2, ![1, c]⟩ : Shape).Broadcasts ⟨2, ![n, c]⟩) (p : Fin n) (q : Fin c) :
    broadcastTo ⟨2, ![n, c]⟩ (shapeCast ⟨2, ![1, c]⟩ (shapeCast ⟨1, ![c]⟩ v h0) h1) h2 (ix2 p q) = v (ix1 q) := by
  rw [broadcastTo_1b_ab_apply, shapeCast_a_1a_apply, shapeCast_self]

/-- The reciprocal square root of a vector plus ε, taken on the one row and then repeated over `n` rows, reads at
    `(p, q)` the reciprocal square root of entry `q` plus ε. -/
theorem rsqrtRow_apply {n c : ℕ} (v : FVec Ideal ⟨1, ![c]⟩ .f32)
    (h0 : (⟨1, ![c]⟩ : Shape).ShapeCasts ⟨1, ![c]⟩) (h1 : (⟨1, ![c]⟩ : Shape).ShapeCasts ⟨2, ![1, c]⟩)
    (h2 : (⟨2, ![1, c]⟩ : Shape).Broadcasts ⟨2, ![n, c]⟩) (p : Fin n) (q : Fin c) :
    broadcastTo ⟨2, ![n, c]⟩
        (rsqrt (addf (shapeCast ⟨2, ![1, c]⟩ (shapeCast ⟨1, ![c]⟩ v h0) h1)
          (broadcast ⟨2, ![1, c]⟩ (Scalar.ofBits (F := Ideal) .f32 0x3727C5AC#32)))) h2 (ix2 p q)
      = Ideal.rsqrt (v (ix1 q) + Cert.Spec.eps) := by
  rw [broadcastTo_1b_ab_apply]
  show Ideal.rsqrt (shapeCast ⟨2, ![1, c]⟩ (shapeCast ⟨1, ![c]⟩ v h0) h1 (ix2 (0 : Fin 1) q) + Cert.Spec.eps) = _
  rw [shapeCast_a_1a_apply, shapeCast_self]

/-! ## The two products -/

/-- On the rows axis the first product's left index is the result's row, whatever the contracted coordinate. -/
theorem mm1_lhs0 (i : S5000x128.Idx) (k : dot_S5000x64_S64x128_S5000x128_1_0_0_1_n_n.contr.Idx) : (dot_S5000x64_S64x128_S5000x128_1_0_0_1_n_n.lhsIdx i k 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl

/-- On the columns axis the first product's right index is the result's column, whatever the contracted coordinate. -/
theorem mm1_rhs1 (i : S5000x128.Idx) (k : dot_S5000x64_S64x128_S5000x128_1_0_0_1_n_n.contr.Idx) : (dot_S5000x64_S64x128_S5000x128_1_0_0_1_n_n.rhsIdx i k 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- The product of a `5000 × 64` block and a `64 × 128` block accumulated into zeros is, at `(p, q)`, the sum over
    `k` of the left block's `(p, k)` times the right block's `(k, q)`. -/
theorem mm1_apply {φ₁ φ₂ : FTy} (lhs : FVec Ideal S5000x64 φ₁) (rhs : FVec Ideal S64x128 φ₂) (p : Fin 5000) (q : Fin 128) :
    matmul dot_S5000x64_S64x128_S5000x128_1_0_0_1_n_n none lhs rhs (constant (F := Ideal) S5000x128 .f32 0x00000000#32) (ix2 p q)
      = ∑ k : Fin 64, lhs (ix2 p k) * rhs (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k :=
    funext fun a => Fin.ext (by
      match a with
      | ⟨0, _⟩ => exact mm1_lhs0 _ _
      | ⟨1, _⟩ => exact (dot_S5000x64_S64x128_S5000x128_1_0_0_1_n_n.lhsIdx_val_of_single rfl _ _).trans hk)
  have er : dot_S5000x64_S64x128_S5000x128_1_0_0_1_n_n.rhsIdx (ix2 p q) ((contrEquiv1 dot_S5000x64_S64x128_S5000x128_1_0_0_1_n_n 64 rfl rfl).symm k) = ix2 k q :=
    funext fun a => Fin.ext (by
      match a with
      | ⟨0, _⟩ => exact (dot_S5000x64_S64x128_S5000x128_1_0_0_1_n_n.rhsIdx_val_of_single rfl _ _).trans hk
      | ⟨1, _⟩ => exact mm1_rhs1 _ _)
  rw [el, er]

/-- On the rows axis the second product's left index is the result's row, whatever the contracted coordinate. -/
theorem mm2_lhs0 (i : S5000x64.Idx) (k : dot_S5000x128_S128x64_S5000x64_1_0_0_1_n_n.contr.Idx) : (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- On the columns axis the second product's right index is the result's column, whatever the contracted coordinate. -/
theorem mm2_rhs1 (i : S5000x64.Idx) (k : dot_S5000x128_S128x64_S5000x64_1_0_0_1_n_n.contr.Idx) : (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The product of a `5000 × 128` block and a `128 × 64` block accumulated into zeros is, at `(p, q)`, the sum over
    `k` of the left block's `(p, k)` times the right block's `(k, q)`. -/
theorem mm2_apply {φ₁ φ₂ : FTy} (lhs : FVec Ideal S5000x128 φ₁) (rhs : FVec Ideal S128x64 φ₂) (p : Fin 5000) (q : Fin 64) :
    matmul dot_S5000x128_S128x64_S5000x64_1_0_0_1_n_n none lhs rhs (constant (F := Ideal) S5000x64 .f32 0x00000000#32) (ix2 p q)
      = ∑ k : Fin 128, lhs (ix2 p k) * rhs (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact mm2_lhs0 _ _
      | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (dot_S5000x128_S128x64_S5000x64_1_0_0_1_n_n.rhsIdx_val_of_single rfl _ _).trans hk
      | ⟨1, _⟩ => exact mm2_rhs1 _ _)
  rw [el, er]

/-! ## One stage: bias, batch norm by the reciprocal square root, positive part -/

/-- Entry `(p, q)` of a stage applied to a block `y`, the five parameters being vectors repeated over the rows, is
    `Cert.Spec.bnK` of `y`'s entry and the parameters' entries `q`: every operation of the stage is entrywise, and the
    zero it takes the larger with is the real `0`. -/
theorem stage_apply {n c : ℕ} (y : FVec Ideal ⟨2, ![n, c]⟩ .f32) (b m v g bt : FVec Ideal ⟨1, ![c]⟩ .f32)
    (h0 : (⟨1, ![c]⟩ : Shape).ShapeCasts ⟨1, ![c]⟩) (h1 : (⟨1, ![c]⟩ : Shape).ShapeCasts ⟨2, ![1, c]⟩)
    (h2 : (⟨2, ![1, c]⟩ : Shape).Broadcasts ⟨2, ![n, c]⟩) (p : Fin n) (q : Fin c) :
    maximumf
        (addf
          (mulf
            (mulf
              (subf (addf y (broadcastTo ⟨2, ![n, c]⟩ (shapeCast ⟨2, ![1, c]⟩ (shapeCast ⟨1, ![c]⟩ b h0) h1) h2))
                (broadcastTo ⟨2, ![n, c]⟩ (shapeCast ⟨2, ![1, c]⟩ (shapeCast ⟨1, ![c]⟩ m h0) h1) h2))
              (broadcastTo ⟨2, ![n, c]⟩
                (rsqrt (addf (shapeCast ⟨2, ![1, c]⟩ (shapeCast ⟨1, ![c]⟩ v h0) h1)
                  (broadcast ⟨2, ![1, c]⟩ (Scalar.ofBits (F := Ideal) .f32 0x3727C5AC#32)))) h2))
            (broadcastTo ⟨2, ![n, c]⟩ (shapeCast ⟨2, ![1, c]⟩ (shapeCast ⟨1, ![c]⟩ g h0) h1) h2))
          (broadcastTo ⟨2, ![n, c]⟩ (shapeCast ⟨2, ![1, c]⟩ (shapeCast ⟨1, ![c]⟩ bt h0) h1) h2))
        (broadcast ⟨2, ![n, c]⟩ (Scalar.ofBits (F := Ideal) .f32 0x00000000#32)) (ix2 p q)
      = Cert.Spec.bnK (y (ix2 p q)) (b (ix1 q)) (m (ix1 q)) (v (ix1 q)) (g (ix1 q)) (bt (ix1 q)) := by
  rw [maximumf_apply, addf_apply, mulf_apply, mulf_apply, subf_apply, addf_apply, row_apply b, row_apply m,
    row_apply g, row_apply bt, rsqrtRow_apply v, broadcast_apply]
  show max _ (Ideal.ofBits .f32 0x00000000#32) = _
  rw [Ideal.ofBits_zero_f32]
  rfl

/-! ## The whole-block rectangles -/

/-- A rank-2 block's zero offsets are the constant function `0`. -/
theorem zero2 : (![0, 0] : Fin 2 → ℕ) = fun _ => 0 := funext fun a => by fin_cases a <;> rfl
/-- A rank-1 block's zero offset is the constant function `0`. -/
theorem zero1 : (![0] : Fin 1 → ℕ) = fun _ => 0 := funext fun a => by fin_cases a; rfl

/-! ## Region 0 -/

/-- The second weight block as the body hands it to the second product: the block itself. -/
theorem w2_0_apply (x8 : FVec Ideal S128x64 .f32) (j : Fin 128) (q : Fin 64) :
    Gen.k0_pay2 (F := Ideal) x8 (ix2 j q) = x8 (ix2 j q) := by
  unfold Gen.k0_pay2
  show shapeCast S128x64 x8 shapeCasts_S128x64_S128x64 (ix2 j q) = _
  rw [shapeCast_self]

/-- The hidden block: entry `(p, j)` is the first stage of row `p`'s sum `agg + x` times `W1`, at column `j`. -/
theorem hidden_0_apply (x0 x1 : FVec Ideal S5000x64 .f32) (x2 : FVec Ideal S64x128 .f32) (b m v g bt : FVec Ideal S128 .f32)
    (p : Fin 5000) (j : Fin 128) :
    Gen.k0_pay3 (F := Ideal) x0 x1 x2 b m v g bt (ix2 p j)
      = Cert.Spec.bnK (∑ k : Fin 64, (x0 (ix2 p k) + x1 (ix2 p k)) * x2 (ix2 k j))
          (b (ix1 j)) (m (ix1 j)) (v (ix1 j)) (g (ix1 j)) (bt (ix1 j)) := by
  unfold Gen.k0_pay3
  refine (stage_apply (n := 5000) (c := 128) _ b m v g bt shapeCasts_S128_S128 shapeCasts_S128_S1x128
    broadcasts_S1x128_S5000x128 p j).trans ?_
  refine congrArg (fun y => Cert.Spec.bnK y (b (ix1 j)) (m (ix1 j)) (v (ix1 j)) (g (ix1 j)) (bt (ix1 j))) ?_
  refine (mm1_apply _ _ p j).trans (Finset.sum_congr rfl fun k _ => ?_)
  show (shapeCast S5000x64 x0 shapeCasts_S5000x64_S5000x64 (ix2 p k) + x1 (ix2 p k)) * shapeCast S64x128 x2 shapeCasts_S64x128_S64x128 (ix2 k j) = _
  rw [shapeCast_self, shapeCast_self]

/-- What the body of region 0 leaves in its output block is the layer of the fourteen blocks it reads. -/
theorem out0_14_eq (x0 x1 : Vec Ideal S5000x64 .f32) (x2 : Vec Ideal S64x128 .f32) (x3 x4 x5 x6 x7 : Vec Ideal S128 .f32)
    (x8 : Vec Ideal S128x64 .f32) (x9 x10 x11 x12 x13 : Vec Ideal S64 .f32) :
    Gen.out0_14 (F := Ideal) x0 x1 x2 x3 x4 x5 x6 x7 x8 x9 x10 x11 x12 x13
      = Cert.Spec.layerArr Cert.Spec.bnK 5000 x0 x1 x2 x3 x4 x5 x6 x7 x8 x9 x10 x11 x12 x13 := by
  unfold Gen.out0_14
  rw [View.canon_unit_zero (S := S5000x64) zero2]
  simp only [View.ld_unit_zero (S := S5000x64) zero2, View.ld_unit_zero (S := S64x128) zero2,
    View.ld_unit_zero (S := S128x64) zero2, View.ld_unit_zero (S := S128) zero1, View.ld_unit_zero (S := S64) zero1]
  funext i
  obtain ⟨p, q, rfl⟩ : ∃ (p : Fin 5000) (q : Fin 64), i = ix2 p q := ⟨i 0, i 1, eq_ix2 i⟩
  unfold Gen.k0_pay1
  refine (stage_apply (n := 5000) (c := 64) _ x9 x12 x13 x10 x11 shapeCasts_S64_S64 shapeCasts_S64_S1x64
    broadcasts_S1x64_S5000x64 p q).trans ?_
  unfold Cert.Spec.layerArr Cert.Spec.layerRow
  refine congrArg (fun y => Cert.Spec.bnK y (x9 (ix1 q)) (x12 (ix1 q)) (x13 (ix1 q)) (x10 (ix1 q)) (x11 (ix1 q))) ?_
  refine (mm2_apply _ _ p q).trans (Finset.sum_congr rfl fun j _ => ?_)
  show Gen.k0_pay3 (F := Ideal) x0 x1 x2 x3 x6 x7 x4 x5 (ix2 p j) * Gen.k0_pay2 (F := Ideal) x8 (ix2 j q) = _
  rw [hidden_0_apply, w2_0_apply]

/-! ## Region 1 -/

/-- The second weight block as the body hands it to the second product: the block itself. -/
theorem w2_1_apply (x8 : FVec Ideal S128x64 .f32) (j : Fin 128) (q : Fin 64) :
    Gen.k1_pay3 (F := Ideal) x8 (ix2 j q) = x8 (ix2 j q) := by
  unfold Gen.k1_pay3
  show shapeCast S128x64 x8 shapeCasts_S128x64_S128x64 (ix2 j q) = _
  rw [shapeCast_self]

/-- The hidden block: entry `(p, j)` is the first stage of row `p`'s sum `agg + x` times `W1`, at column `j`. -/
theorem hidden_1_apply (x0 x1 : FVec Ideal S5000x64 .f32) (x2 : FVec Ideal S64x128 .f32) (b m v g bt : FVec Ideal S128 .f32)
    (p : Fin 5000) (j : Fin 128) :
    Gen.k1_pay2 (F := Ideal) x0 x1 x2 b m v g bt (ix2 p j)
      = Cert.Spec.bnK (∑ k : Fin 64, (x0 (ix2 p k) + x1 (ix2 p k)) * x2 (ix2 k j))
          (b (ix1 j)) (m (ix1 j)) (v (ix1 j)) (g (ix1 j)) (bt (ix1 j)) := by
  unfold Gen.k1_pay2
  refine (stage_apply (n := 5000) (c := 128) _ b m v g bt shapeCasts_S128_S128 shapeCasts_S128_S1x128
    broadcasts_S1x128_S5000x128 p j).trans ?_
  refine congrArg (fun y => Cert.Spec.bnK y (b (ix1 j)) (m (ix1 j)) (v (ix1 j)) (g (ix1 j)) (bt (ix1 j))) ?_
  refine (mm1_apply _ _ p j).trans (Finset.sum_congr rfl fun k _ => ?_)
  show (shapeCast S5000x64 x0 shapeCasts_S5000x64_S5000x64 (ix2 p k) + shapeCast S5000x64 x1 shapeCasts_S5000x64_S5000x64 (ix2 p k)) * shapeCast S64x128 x2 shapeCasts_S64x128_S64x128 (ix2 k j) = _
  rw [shapeCast_self, shapeCast_self, shapeCast_self]

/-- What the body of region 1 leaves in its output block is the layer of the fourteen blocks it reads. -/
theorem out1_14_eq (x0 x1 : Vec Ideal S5000x64 .f32) (x2 : Vec Ideal S64x128 .f32) (x3 x4 x5 x6 x7 : Vec Ideal S128 .f32)
    (x8 : Vec Ideal S128x64 .f32) (x9 x10 x11 x12 x13 : Vec Ideal S64 .f32) :
    Gen.out1_14 (F := Ideal) x0 x1 x2 x3 x4 x5 x6 x7 x8 x9 x10 x11 x12 x13
      = Cert.Spec.layerArr Cert.Spec.bnK 5000 x0 x1 x2 x3 x4 x5 x6 x7 x8 x9 x10 x11 x12 x13 := by
  unfold Gen.out1_14
  rw [View.canon_unit_zero (S := S5000x64) zero2]
  simp only [View.ld_unit_zero (S := S5000x64) zero2, View.ld_unit_zero (S := S64x128) zero2,
    View.ld_unit_zero (S := S128x64) zero2, View.ld_unit_zero (S := S128) zero1, View.ld_unit_zero (S := S64) zero1]
  funext i
  obtain ⟨p, q, rfl⟩ : ∃ (p : Fin 5000) (q : Fin 64), i = ix2 p q := ⟨i 0, i 1, eq_ix2 i⟩
  unfold Gen.k1_pay1
  refine (stage_apply (n := 5000) (c := 64) _ x9 x12 x13 x10 x11 shapeCasts_S64_S64 shapeCasts_S64_S1x64
    broadcasts_S1x64_S5000x64 p q).trans ?_
  unfold Cert.Spec.layerArr Cert.Spec.layerRow
  refine congrArg (fun y => Cert.Spec.bnK y (x9 (ix1 q)) (x12 (ix1 q)) (x13 (ix1 q)) (x10 (ix1 q)) (x11 (ix1 q))) ?_
  refine (mm2_apply _ _ p q).trans (Finset.sum_congr rfl fun j _ => ?_)
  show Gen.k1_pay2 (F := Ideal) x0 x1 x2 x3 x6 x7 x4 x5 (ix2 p j) * Gen.k1_pay3 (F := Ideal) x8 (ix2 j q) = _
  rw [hidden_1_apply, w2_1_apply]

/-! ## Region 2 -/

/-- The second weight block as the body hands it to the second product: the block itself. -/
theorem w2_2_apply (x8 : FVec Ideal S128x64 .f32) (j : Fin 128) (q : Fin 64) :
    Gen.k2_pay3 (F := Ideal) x8 (ix2 j q) = x8 (ix2 j q) := by
  unfold Gen.k2_pay3
  show shapeCast S128x64 x8 shapeCasts_S128x64_S128x64 (ix2 j q) = _
  rw [shapeCast_self]

/-- The hidden block: entry `(p, j)` is the first stage of row `p`'s sum `agg + x` times `W1`, at column `j`. -/
theorem hidden_2_apply (x0 x1 : FVec Ideal S5000x64 .f32) (x2 : FVec Ideal S64x128 .f32) (b m v g bt : FVec Ideal S128 .f32)
    (p : Fin 5000) (j : Fin 128) :
    Gen.k2_pay2 (F := Ideal) x0 x1 x2 b m v g bt (ix2 p j)
      = Cert.Spec.bnK (∑ k : Fin 64, (x0 (ix2 p k) + x1 (ix2 p k)) * x2 (ix2 k j))
          (b (ix1 j)) (m (ix1 j)) (v (ix1 j)) (g (ix1 j)) (bt (ix1 j)) := by
  unfold Gen.k2_pay2
  refine (stage_apply (n := 5000) (c := 128) _ b m v g bt shapeCasts_S128_S128 shapeCasts_S128_S1x128
    broadcasts_S1x128_S5000x128 p j).trans ?_
  refine congrArg (fun y => Cert.Spec.bnK y (b (ix1 j)) (m (ix1 j)) (v (ix1 j)) (g (ix1 j)) (bt (ix1 j))) ?_
  refine (mm1_apply _ _ p j).trans (Finset.sum_congr rfl fun k _ => ?_)
  show (shapeCast S5000x64 x0 shapeCasts_S5000x64_S5000x64 (ix2 p k) + shapeCast S5000x64 x1 shapeCasts_S5000x64_S5000x64 (ix2 p k)) * shapeCast S64x128 x2 shapeCasts_S64x128_S64x128 (ix2 k j) = _
  rw [shapeCast_self, shapeCast_self, shapeCast_self]

/-- What the body of region 2 leaves in its output block is the layer of the fourteen blocks it reads. -/
theorem out2_14_eq (x0 x1 : Vec Ideal S5000x64 .f32) (x2 : Vec Ideal S64x128 .f32) (x3 x4 x5 x6 x7 : Vec Ideal S128 .f32)
    (x8 : Vec Ideal S128x64 .f32) (x9 x10 x11 x12 x13 : Vec Ideal S64 .f32) :
    Gen.out2_14 (F := Ideal) x0 x1 x2 x3 x4 x5 x6 x7 x8 x9 x10 x11 x12 x13
      = Cert.Spec.layerArr Cert.Spec.bnK 5000 x0 x1 x2 x3 x4 x5 x6 x7 x8 x9 x10 x11 x12 x13 := by
  unfold Gen.out2_14
  rw [View.canon_unit_zero (S := S5000x64) zero2]
  simp only [View.ld_unit_zero (S := S5000x64) zero2, View.ld_unit_zero (S := S64x128) zero2,
    View.ld_unit_zero (S := S128x64) zero2, View.ld_unit_zero (S := S128) zero1, View.ld_unit_zero (S := S64) zero1]
  funext i
  obtain ⟨p, q, rfl⟩ : ∃ (p : Fin 5000) (q : Fin 64), i = ix2 p q := ⟨i 0, i 1, eq_ix2 i⟩
  unfold Gen.k2_pay1
  refine (stage_apply (n := 5000) (c := 64) _ x9 x12 x13 x10 x11 shapeCasts_S64_S64 shapeCasts_S64_S1x64
    broadcasts_S1x64_S5000x64 p q).trans ?_
  unfold Cert.Spec.layerArr Cert.Spec.layerRow
  refine congrArg (fun y => Cert.Spec.bnK y (x9 (ix1 q)) (x12 (ix1 q)) (x13 (ix1 q)) (x10 (ix1 q)) (x11 (ix1 q))) ?_
  refine (mm2_apply _ _ p q).trans (Finset.sum_congr rfl fun j _ => ?_)
  show Gen.k2_pay2 (F := Ideal) x0 x1 x2 x3 x6 x7 x4 x5 (ix2 p j) * Gen.k2_pay3 (F := Ideal) x8 (ix2 j q) = _
  rw [hidden_2_apply, w2_2_apply]

end Cert.KernelIdeal.LayerBody

end
-- ==== Proof.HeadBody.lean ====
/-
  The head kernel's body as one function of its nine windows.

  The body loads the whole blocks, computes per row p
      h j      = max ((((∑ k, x p k * W1 k j) + b1 j - m j) * (v j + ε)^(-1/2)) * g j + β j) 0      (64 numbers)
      l q      = (∑ j, h j * W2 j q) + b2 q                                                         (40 logits)
      M        = the row's largest logit (a fold of max from -∞)
      out p q  = (l q - M) - log (∑ k, exp (l k - M))
  and stores the result through the whole output block. At the ideal values the two format changes in front of each
  matrix product are the identity, a product into the zero accumulator is the plain sum over the contraction
  coordinate, the lane maximum is the fold of max over the row, and the lane sum is the sum over the row; so what
  the body leaves is Spec.headArr with the reciprocal-square-root spelling of the batch norm.
-/
import proofs.«137670_j89919435309328_2_alg».proof.Proof.Spec
import proofs.«137670_j89919435309328_2_alg».proof.Proof.Gen.KernelIdeal.Frame
import Idealize.ShloMosaic.Lib.ValueLayout
import Idealize.ShloMosaic.PureOps.Ideal.Laws

noncomputable section

namespace Cert.KernelIdeal.HeadBody

open Idealize.ShloMosaic Idealize.ShloMosaic.ValueIdx
open Cert.KernelIdeal Cert.KernelIdeal.Gen

/-! ## Layout operations and pointwise functions read at an index -/

section Layout
variable {α : Type}

/-- An [a] array cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] cast to one row and broadcast down the rows of [a, b] reads, at (p, c), the vector at c. -/
theorem rowBroadcast_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A vector [a] cast to one column and broadcast along the rows of [a, b] reads, at (p, c), the vector at p. -/
theorem colBroadcast_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (broadcastTo_a1_ab_apply _ h2 p c).trans (shapeCast_a_a1_apply v h1 p 0)

end Layout

section Pointwise
variable {s : Shape} {φ : FTy}

/-- The exponential of a vector at an index is the exponential of the element. -/
theorem exp_apply (a : FVec Ideal s φ) (i : s.Idx) : Idealize.ShloMosaic.exp a i = Ideal.exp (a i) := rfl
/-- The logarithm likewise. -/
theorem log_apply (a : FVec Ideal s φ) (i : s.Idx) : Idealize.ShloMosaic.log a i = Ideal.log (a i) := rfl
/-- The reciprocal square root likewise. -/
theorem rsqrt_apply (a : FVec Ideal s φ) (i : s.Idx) : Idealize.ShloMosaic.rsqrt a i = Ideal.rsqrt (a i) := rfl

end Pointwise

/-! ## The two matrix products into the zero accumulator, as sums over the contraction coordinate -/

theorem lhs1_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs1_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhs1_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs1_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The first product, [5000, 64] by [64, 64]: at (p, c) the sum over k of lhs (p, k) * rhs (k, c). -/
theorem matmul1_apply {φ₁ φ₂ : FTy} (lhs : FVec Ideal S5000x64 φ₁) (rhs : FVec Ideal S64x64 φ₂) (p : Fin 5000) (c : Fin 64) :
    matmul dot_S5000x64_S64x64_S5000x64_1_0_0_1_n_n none lhs rhs (constant (F := Ideal) S5000x64 .f32 0x00000000#32) (ix2 p c)
      = ∑ k : Fin 64, lhs (ix2 p k) * rhs (ix2 k c) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p c) ((contrEquiv1 dot_S5000x64_S64x64_S5000x64_1_0_0_1_n_n 64 rfl rfl).symm k) = ix2 p k :=
    funext fun a => Fin.ext (by
      match a with
      | ⟨0, _⟩ => exact lhs1_0 _ _
      | ⟨1, _⟩ => exact (lhs1_1 _ _).trans hk)
  have er : dot_S5000x64_S64x64_S5000x64_1_0_0_1_n_n.rhsIdx (ix2 p c) ((contrEquiv1 dot_S5000x64_S64x64_S5000x64_1_0_0_1_n_n 64 rfl rfl).symm k) = ix2 k c :=
    funext fun a => Fin.ext (by
      match a with
      | ⟨0, _⟩ => exact (rhs1_0 _ _).trans hk
      | ⟨1, _⟩ => exact rhs1_1 _ _)
  rw [el, er]

theorem lhs2_0 (i : S5000x40.Idx) (q : dot_S5000x64_S64x40_S5000x40_1_0_0_1_n_n.contr.Idx) : (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl
theorem lhs2_1 (i : S5000x40.Idx) (q : dot_S5000x64_S64x40_S5000x40_1_0_0_1_n_n.contr.Idx) : (dot_S5000x64_S64x40_S5000x40_1_0_0_1_n_n.lhsIdx i q 1).val = (q ⟨0, by decide⟩).val :=
  dot_S5000x64_S64x40_S5000x40_1_0_0_1_n_n.lhsIdx_val_of_single rfl i q
theorem rhs2_0 (i : S5000x40.Idx) (q : dot_S5000x64_S64x40_S5000x40_1_0_0_1_n_n.contr.Idx) : (dot_S5000x64_S64x40_S5000x40_1_0_0_1_n_n.rhsIdx i q 0).val = (q ⟨0, by decide⟩).val :=
  dot_S5000x64_S64x40_S5000x40_1_0_0_1_n_n.rhsIdx_val_of_single rfl i q
theorem rhs2_1 (i : S5000x40.Idx) (q : dot_S5000x64_S64x40_S5000x40_1_0_0_1_n_n.contr.Idx) : (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

/-- The second product, [5000, 64] by [64, 40]: at (p, c) the sum over k of lhs (p, k) * rhs (k, c). -/
theorem matmul2_apply {φ₁ φ₂ : FTy} (lhs : FVec Ideal S5000x64 φ₁) (rhs : FVec Ideal S64x40 φ₂) (p : Fin 5000) (c : Fin 40) :
    matmul dot_S5000x64_S64x40_S5000x40_1_0_0_1_n_n none lhs rhs (constant (F := Ideal) S5000x40 .f32 0x00000000#32) (ix2 p c)
      = ∑ k : Fin 64, lhs (ix2 p k) * rhs (ix2 k c) := by
  simp only [matmul]
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p c) ((contrEquiv1 dot_S5000x64_S64x40_S5000x40_1_0_0_1_n_n 64 rfl rfl).symm k) = ix2 p k :=
    funext fun a => Fin.ext (by
      match a with
      | ⟨0, _⟩ => exact lhs2_0 _ _
      | ⟨1, _⟩ => exact (lhs2_1 _ _).trans hk)
  have er : dot_S5000x64_S64x40_S5000x40_1_0_0_1_n_n.rhsIdx (ix2 p c) ((contrEquiv1 dot_S5000x64_S64x40_S5000x40_1_0_0_1_n_n 64 rfl rfl).symm k) = ix2 k c :=
    funext fun a => Fin.ext (by
      match a with
      | ⟨0, _⟩ => exact (rhs2_0 _ _).trans hk
      | ⟨1, _⟩ => exact rhs2_1 _ _)
  rw [el, er]

/-! ## The two lane reductions of a [5000, 40] vector, read at a row -/

/-- The index of row p with column k inserted is (p, k). -/
theorem lift_row (h : S5000x40.Reduces [1] S5000) (p : Fin 5000) (k : Fin 40) : h.lift (ix1 p) k = ix2 p k :=
  funext fun c => Fin.ext (by
    match c with
    | ⟨0, _⟩ => rfl
    | ⟨1, _⟩ => rfl)

/-- The lane sum at row p is the sum over the row. -/
theorem rowSum_apply (src : FVec Ideal S5000x40 .f32) (h : S5000x40.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ k : Fin 40, src (ix2 p k) := by
  refine (Ideal.multiReduction_add_single src 0x00000000#32 h hφ hacc (ix1 p)).trans ?_
  exact Finset.sum_congr rfl fun k _ => congrArg src (lift_row h p k)

/-- The word of -∞ denotes the least extended real. -/
theorem ofBits_neg_inf : Ideal.ofBits .f32 0xFF800000#32 = ⊥ := by simp [Ideal.ofBits, Ideal.ieee]

/-- The lane maximum at row p is the fold of max from -∞ over the row. -/
theorem rowMax_apply (src : FVec Ideal S5000x40 .f32) (h : S5000x40.Reduces [1] S5000) (hφ : FKind.Formats .f32)
    (hacc : (0xFF800000#32 : BitVec 32) = FKind.maximumf.neutral .f32 hφ) (p : Fin 5000) :
    multiReduction (F := Ideal) .maximumf [1] S5000 src 0xFF800000#32 h hφ hacc (ix1 p)
      = Cert.Spec.rowMax fun k : Fin 40 => src (ix2 p k) := by
  refine (Ideal.multiReduction_maximumf_single src 0xFF800000#32 h hφ hacc (ix1 p)).trans ?_
  have hf : (src ∘ h.lift (ix1 p)) = fun k : Fin 40 => src (ix2 p k) := funext fun k => congrArg src (lift_row h p k)
  show (Finset.univ : Finset (Fin 40)).fold max (Ideal.ofBits .f32 0xFF800000#32) (src ∘ h.lift (ix1 p)) = _
  rw [hf, ofBits_neg_inf]
  rfl

/-! ## The three payloads read at an index -/

/-- A row maximum cast to a column, its logarithm taken, broadcast along the row: at (p, q) the logarithm of entry p. -/
theorem colLog_apply (R : FVec Ideal S5000 .f32) (h1 : S5000.ShapeCasts S5000x1) (h2 : S5000x1.Broadcasts S5000x40)
    (p : Fin 5000) (q : Fin 40) :
    broadcastTo S5000x40 (Idealize.ShloMosaic.log (shapeCast S5000x1 R h1)) h2 (ix2 p q) = Ideal.log (R (ix1 p)) :=
  (broadcastTo_a1_ab_apply _ h2 p q).trans (congrArg Ideal.log (shapeCast_a_a1_apply R h1 p 0))

/-- The logits: a dense layer, the batch norm by the reciprocal square root, the positive part, and a second dense layer. -/
theorem pay2_apply (v0 : Vec Ideal S5000x64 .f32) (v2 : Vec Ideal S64x64 .f32) (v6 v10 v14 v21 v25 : Vec Ideal S64 .f32)
    (v31 : Vec Ideal S64x40 .f32) (v35 : Vec Ideal S40 .f32) (p : Fin 5000) (q : Fin 40) :
    k3_pay2 (F := Ideal) v0 v2 v6 v10 v14 v21 v25 v31 v35 (ix2 p q)
      = (∑ j : Fin 64, Cert.Spec.bnK (∑ k : Fin 64, v0 (ix2 p k) * v2 (ix2 k j)) (v6 (ix1 j)) (v10 (ix1 j)) (v14 (ix1 j))
          (v21 (ix1 j)) (v25 (ix1 j)) * v31 (ix2 j q)) + v35 (ix1 q) := by
  unfold k3_pay2
  simp only [addf_apply, subf_apply, mulf_apply, maximumf_apply, truncf_apply, broadcast_apply, broadcastTo_1b_ab_apply,
    shapeCast_a_1a_apply, shapeCast_self, matmul1_apply, matmul2_apply, rsqrt_apply]
  unfold Cert.Spec.bnK Cert.Spec.eps
  simp only [Ideal.ofBits_def, Ideal.ofBits_zero_f32]

/-- The row maximum of the logits, in every column of the row. -/
theorem pay3_apply (v0 : Vec Ideal S5000x64 .f32) (v2 : Vec Ideal S64x64 .f32) (v6 v10 v14 v21 v25 : Vec Ideal S64 .f32)
    (v31 : Vec Ideal S64x40 .f32) (v35 : Vec Ideal S40 .f32) (p : Fin 5000) (q : Fin 40) :
    k3_pay3 (F := Ideal) v0 v2 v6 v10 v14 v21 v25 v31 v35 (ix2 p q)
      = Cert.Spec.rowMax fun k : Fin 40 => k3_pay2 (F := Ideal) v0 v2 v6 v10 v14 v21 v25 v31 v35 (ix2 p k) := by
  unfold k3_pay3
  exact (colBroadcast_apply _ _ _ p q).trans (rowMax_apply _ _ _ _ p)

/-- The log-softmax step from the logits v38 and a second vector v41 (the broadcast row maxima). -/
theorem pay1_apply (v38 v41 : FVec Ideal S5000x40 .f32) (p : Fin 5000) (q : Fin 40) :
    k3_pay1 (F := Ideal) v38 v41 (ix2 p q)
      = (v38 (ix2 p q) - v41 (ix2 p q)) - Ideal.log (∑ k : Fin 40, Ideal.exp (v38 (ix2 p k) - v41 (ix2 p k))) := by
  unfold k3_pay1
  refine congrArg (fun t => (v38 (ix2 p q) - v41 (ix2 p q)) - t) ?_
  refine (colLog_apply _ _ _ p q).trans (congrArg Ideal.log ?_)
  exact rowSum_apply _ _ _ _ p

/-! ## What the body leaves in the output block -/

/-- The zero offsets of a rank-2 block, as a constant function. -/
theorem hz2 : (![0, 0] : Fin 2 → Nat) = fun _ => 0 := funext fun a => by fin_cases a <;> rfl
/-- The zero offset of a rank-1 block, as a constant function. -/
theorem hz1 : (![0] : Fin 1 → Nat) = fun _ => 0 := funext fun a => by fin_cases a; rfl

/-- The body's one store leaves the head of the specification, with the reciprocal-square-root batch norm, of its
    input blocks. -/
theorem out3_9_eq (x0 : Vec Ideal S5000x64 .f32) (x1 : Vec Ideal S64x64 .f32) (x2 x3 x4 x5 x6 : Vec Ideal S64 .f32)
    (x7 : Vec Ideal S64x40 .f32) (x8 : Vec Ideal S40 .f32) :
    Cert.KernelIdeal.Gen.out3_9 (F := Ideal) x0 x1 x2 x3 x4 x5 x6 x7 x8
      = Cert.Spec.headArr Cert.Spec.bnK 5000 x0 x1 x2 x3 x4 x5 x6 x7 x8 := by
  funext j
  obtain ⟨p, q, rfl⟩ : ∃ (p : Fin 5000) (q : Fin 40), j = ix2 p q := ⟨j 0, j 1, eq_ix2 j⟩
  unfold Cert.KernelIdeal.Gen.out3_9
  rw [View.canon_unit_zero hz2]
  simp only [View.ld_unit_zero (S := S5000x64) hz2, View.ld_unit_zero (S := S64x64) hz2, View.ld_unit_zero (S := S64x40) hz2,
    View.ld_unit_zero (S := S64) hz1, View.ld_unit_zero (S := S40) hz1]
  rw [pay1_apply]
  simp only [pay3_apply]
  have hl : (fun k : Fin 40 => k3_pay2 (F := Ideal) x0 x1 x2 x5 x6 x3 x4 x7 x8 (ix2 p k))
      = Cert.Spec.logitsRow Cert.Spec.bnK (fun k => x0 (ix2 p k)) (fun k j => x1 (ix2 k j)) (fun j => x2 (ix1 j))
          (fun j => x3 (ix1 j)) (fun j => x4 (ix1 j)) (fun j => x5 (ix1 j)) (fun j => x6 (ix1 j)) (fun j q => x7 (ix2 j q))
          (fun q => x8 (ix1 q)) :=
    funext fun k => pay2_apply x0 x1 x2 x5 x6 x3 x4 x7 x8 p k
  show (k3_pay2 (F := Ideal) x0 x1 x2 x5 x6 x3 x4 x7 x8 (ix2 p q)
        - Cert.Spec.rowMax fun k : Fin 40 => k3_pay2 (F := Ideal) x0 x1 x2 x5 x6 x3 x4 x7 x8 (ix2 p k))
      - Ideal.log (∑ k : Fin 40, Ideal.exp (k3_pay2 (F := Ideal) x0 x1 x2 x5 x6 x3 x4 x7 x8 (ix2 p k)
        - Cert.Spec.rowMax fun k : Fin 40 => k3_pay2 (F := Ideal) x0 x1 x2 x5 x6 x3 x4 x7 x8 (ix2 p k)))
    = Cert.Spec.logSoftmax (Cert.Spec.logitsRow Cert.Spec.bnK (fun k => x0 (ix2 p k)) (fun k j => x1 (ix2 k j))
        (fun j => x2 (ix1 j)) (fun j => x3 (ix1 j)) (fun j => x4 (ix1 j)) (fun j => x5 (ix1 j)) (fun j => x6 (ix1 j))
        (fun j q => x7 (ix2 j q)) (fun q => x8 (ix1 q))) q
  rw [← hl]
  rfl

end Cert.KernelIdeal.HeadBody

end
-- ==== Proof.KChain.lean ====
/-
  The idealized kernel's result as one function of its arguments.

  Walking the buffer contents from the launch through the seven segments: a host stretch leaves its own results at the
  neighbour sums and parameter slices of what it found and everything else alone; a region leaves its output array at the
  layer (or the head) of its fourteen (nine) input arrays as it found them, and every other buffer alone. So the first
  layer's output is the layer of the launch arrays, the second's the layer of the first's, the third's of the second's,
  and the result array the head of the third's: the network of Model.lean in the kernel's spelling.
-/
import proofs.«137670_j89919435309328_2_alg».proof.Proof.Gen.KernelIdeal.Frame
import proofs.«137670_j89919435309328_2_alg».proof.Proof.KHost
import proofs.«137670_j89919435309328_2_alg».proof.Proof.Model
import proofs.«137670_j89919435309328_2_alg».proof.Proof.Blocks
import proofs.«137670_j89919435309328_2_alg».proof.Proof.LayerBody
import proofs.«137670_j89919435309328_2_alg».proof.Proof.HeadBody

set_option maxRecDepth 16384

noncomputable section

namespace Cert.KernelIdeal.KChain

open Idealize.ShloMosaic Idealize.ShloMosaic.TcCoe Idealize.SL.Sem
open Cert.KernelIdeal Cert.KernelIdeal.Gen Cert.Spec
open Cert.ReferenceIdeal.RefValue (refAgg refW1 refB1 refG1 refBt1 refM1 refV1 refW2 refB2 refGc refBc refMc refVc)

/-- Equal arguments, equal layers. -/
theorem layerArr_congr {bn : EReal → EReal → EReal → EReal → EReal → EReal → EReal} {n : Nat}
    {x0 y0 x1 y1 : (⟨2, ![n, 64]⟩ : Shape).Idx → EReal} {x2 y2 : (⟨2, ![64, 128]⟩ : Shape).Idx → EReal}
    {x3 y3 x4 y4 x5 y5 x6 y6 x7 y7 : (⟨1, ![128]⟩ : Shape).Idx → EReal} {x8 y8 : (⟨2, ![128, 64]⟩ : Shape).Idx → EReal}
    {x9 y9 x10 y10 x11 y11 x12 y12 x13 y13 : (⟨1, ![64]⟩ : Shape).Idx → EReal}
    (e0 : x0 = y0) (e1 : x1 = y1) (e2 : x2 = y2) (e3 : x3 = y3) (e4 : x4 = y4) (e5 : x5 = y5) (e6 : x6 = y6) (e7 : x7 = y7)
    (e8 : x8 = y8) (e9 : x9 = y9) (e10 : x10 = y10) (e11 : x11 = y11) (e12 : x12 = y12) (e13 : x13 = y13) :
    layerArr bn n x0 x1 x2 x3 x4 x5 x6 x7 x8 x9 x10 x11 x12 x13 = layerArr bn n y0 y1 y2 y3 y4 y5 y6 y7 y8 y9 y10 y11 y12 y13 := by
  subst e0 e1 e2 e3 e4 e5 e6 e7 e8 e9 e10 e11 e12 e13; rfl

/-- Equal arguments, equal heads. -/
theorem headArr_congr {bn : EReal → EReal → EReal → EReal → EReal → EReal → EReal} {n : Nat}
    {x0 y0 : (⟨2, ![n, 64]⟩ : Shape).Idx → EReal} {x1 y1 : (⟨2, ![64, 64]⟩ : Shape).Idx → EReal}
    {x2 y2 x3 y3 x4 y4 x5 y5 x6 y6 : (⟨1, ![64]⟩ : Shape).Idx → EReal} {x7 y7 : (⟨2, ![64, 40]⟩ : Shape).Idx → EReal}
    {x8 y8 : (⟨1, ![40]⟩ : Shape).Idx → EReal}
    (e0 : x0 = y0) (e1 : x1 = y1) (e2 : x2 = y2) (e3 : x3 = y3) (e4 : x4 = y4) (e5 : x5 = y5) (e6 : x6 = y6) (e7 : x7 = y7)
    (e8 : x8 = y8) :
    headArr bn n x0 x1 x2 x3 x4 x5 x6 x7 x8 = headArr bn n y0 y1 y2 y3 y4 y5 y6 y7 y8 := by
  subst e0 e1 e2 e3 e4 e5 e6 e7 e8; rfl

/-- Equal arguments, equal neighbour sums. -/
theorem kAgg_congr {x y : FVec Ideal S50000x64 .f32} {s s' d d' : IVec S800000 32} (ex : x = y) (es : s = s') (ed : d = d') :
    KHost.kAgg x s d = KHost.kAgg y s' d' := by subst ex es ed; rfl

variable (m : (ℓ : Loc nD τ sig) → Buf (Elt Ideal) ℓ) (ρ : Dev nD → PrngReg) (c : Dev nD)

/-- The first layer's output, of the launch arrays. -/
def X1 : FVec Ideal S50000x64 .f32 := Cert.Model.layer bnK 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- The second layer's output. -/
def X2 : FVec Ideal S50000x64 .f32 := Cert.Model.layer bnK 1 (X1 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- The third layer's output. -/
def X3 : FVec Ideal S50000x64 .f32 := Cert.Model.layer bnK 2 (X2 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## The launch arrays and the edge lists at the boundaries -/
theorem W1_a2 : W1 m ρ c (Proc.devRef .tc main_arg2) = (m ((c : Thread nD τ).loc main_arg2)) := KHost.kept0 (W0 m ρ c) (r := main_arg2) (by decide)
theorem W2_a2 : W2 m ρ c (Proc.devRef .tc main_arg2) = (m ((c : Thread nD τ).loc main_arg2)) := (W2_of_ne m ρ c main_arg2 (by decide)).trans (W1_a2 m ρ c)
theorem W3_a2 : W3 m ρ c (Proc.devRef .tc main_arg2) = (m ((c : Thread nD τ).loc main_arg2)) := (KHost.kept1 (W2 m ρ c) (r := main_arg2) (by decide)).trans (W2_a2 m ρ c)
theorem W4_a2 : W4 m ρ c (Proc.devRef .tc main_arg2) = (m ((c : Thread nD τ).loc main_arg2)) := (W4_of_ne m ρ c main_arg2 (by decide)).trans (W3_a2 m ρ c)
theorem W1_a3 : W1 m ρ c (Proc.devRef .tc main_arg3) = (m ((c : Thread nD τ).loc main_arg3)) := KHost.kept0 (W0 m ρ c) (r := main_arg3) (by decide)
theorem W2_a3 : W2 m ρ c (Proc.devRef .tc main_arg3) = (m ((c : Thread nD τ).loc main_arg3)) := (W2_of_ne m ρ c main_arg3 (by decide)).trans (W1_a3 m ρ c)
theorem W3_a3 : W3 m ρ c (Proc.devRef .tc main_arg3) = (m ((c : Thread nD τ).loc main_arg3)) := (KHost.kept1 (W2 m ρ c) (r := main_arg3) (by decide)).trans (W2_a3 m ρ c)
theorem W4_a3 : W4 m ρ c (Proc.devRef .tc main_arg3) = (m ((c : Thread nD τ).loc main_arg3)) := (W4_of_ne m ρ c main_arg3 (by decide)).trans (W3_a3 m ρ c)
theorem W1_a4 : W1 m ρ c (Proc.devRef .tc main_arg4) = (m ((c : Thread nD τ).loc main_arg4)) := KHost.kept0 (W0 m ρ c) (r := main_arg4) (by decide)
theorem W2_a4 : W2 m ρ c (Proc.devRef .tc main_arg4) = (m ((c : Thread nD τ).loc main_arg4)) := (W2_of_ne m ρ c main_arg4 (by decide)).trans (W1_a4 m ρ c)
theorem W3_a4 : W3 m ρ c (Proc.devRef .tc main_arg4) = (m ((c : Thread nD τ).loc main_arg4)) := (KHost.kept1 (W2 m ρ c) (r := main_arg4) (by decide)).trans (W2_a4 m ρ c)
theorem W4_a4 : W4 m ρ c (Proc.devRef .tc main_arg4) = (m ((c : Thread nD τ).loc main_arg4)) := (W4_of_ne m ρ c main_arg4 (by decide)).trans (W3_a4 m ρ c)
theorem W1_a5 : W1 m ρ c (Proc.devRef .tc main_arg5) = (m ((c : Thread nD τ).loc main_arg5)) := KHost.kept0 (W0 m ρ c) (r := main_arg5) (by decide)
theorem W2_a5 : W2 m ρ c (Proc.devRef .tc main_arg5) = (m ((c : Thread nD τ).loc main_arg5)) := (W2_of_ne m ρ c main_arg5 (by decide)).trans (W1_a5 m ρ c)
theorem W3_a5 : W3 m ρ c (Proc.devRef .tc main_arg5) = (m ((c : Thread nD τ).loc main_arg5)) := (KHost.kept1 (W2 m ρ c) (r := main_arg5) (by decide)).trans (W2_a5 m ρ c)
theorem W4_a5 : W4 m ρ c (Proc.devRef .tc main_arg5) = (m ((c : Thread nD τ).loc main_arg5)) := (W4_of_ne m ρ c main_arg5 (by decide)).trans (W3_a5 m ρ c)
theorem W1_a6 : W1 m ρ c (Proc.devRef .tc main_arg6) = (m ((c : Thread nD τ).loc main_arg6)) := KHost.kept0 (W0 m ρ c) (r := main_arg6) (by decide)
theorem W2_a6 : W2 m ρ c (Proc.devRef .tc main_arg6) = (m ((c : Thread nD τ).loc main_arg6)) := (W2_of_ne m ρ c main_arg6 (by decide)).trans (W1_a6 m ρ c)
theorem W3_a6 : W3 m ρ c (Proc.devRef .tc main_arg6) = (m ((c : Thread nD τ).loc main_arg6)) := (KHost.kept1 (W2 m ρ c) (r := main_arg6) (by decide)).trans (W2_a6 m ρ c)
theorem W4_a6 : W4 m ρ c (Proc.devRef .tc main_arg6) = (m ((c : Thread nD τ).loc main_arg6)) := (W4_of_ne m ρ c main_arg6 (by decide)).trans (W3_a6 m ρ c)
theorem W1_a7 : W1 m ρ c (Proc.devRef .tc main_arg7) = (m ((c : Thread nD τ).loc main_arg7)) := KHost.kept0 (W0 m ρ c) (r := main_arg7) (by decide)
theorem W2_a7 : W2 m ρ c (Proc.devRef .tc main_arg7) = (m ((c : Thread nD τ).loc main_arg7)) := (W2_of_ne m ρ c main_arg7 (by decide)).trans (W1_a7 m ρ c)
theorem W3_a7 : W3 m ρ c (Proc.devRef .tc main_arg7) = (m ((c : Thread nD τ).loc main_arg7)) := (KHost.kept1 (W2 m ρ c) (r := main_arg7) (by decide)).trans (W2_a7 m ρ c)
theorem W4_a7 : W4 m ρ c (Proc.devRef .tc main_arg7) = (m ((c : Thread nD τ).loc main_arg7)) := (W4_of_ne m ρ c main_arg7 (by decide)).trans (W3_a7 m ρ c)
theorem W1_a8 : W1 m ρ c (Proc.devRef .tc main_arg8) = (m ((c : Thread nD τ).loc main_arg8)) := KHost.kept0 (W0 m ρ c) (r := main_arg8) (by decide)
theorem W2_a8 : W2 m ρ c (Proc.devRef .tc main_arg8) = (m ((c : Thread nD τ).loc main_arg8)) := (W2_of_ne m ρ c main_arg8 (by decide)).trans (W1_a8 m ρ c)
theorem W3_a8 : W3 m ρ c (Proc.devRef .tc main_arg8) = (m ((c : Thread nD τ).loc main_arg8)) := (KHost.kept1 (W2 m ρ c) (r := main_arg8) (by decide)).trans (W2_a8 m ρ c)
theorem W4_a8 : W4 m ρ c (Proc.devRef .tc main_arg8) = (m ((c : Thread nD τ).loc main_arg8)) := (W4_of_ne m ρ c main_arg8 (by decide)).trans (W3_a8 m ρ c)
theorem W1_a9 : W1 m ρ c (Proc.devRef .tc main_arg9) = (m ((c : Thread nD τ).loc main_arg9)) := KHost.kept0 (W0 m ρ c) (r := main_arg9) (by decide)
theorem W2_a9 : W2 m ρ c (Proc.devRef .tc main_arg9) = (m ((c : Thread nD τ).loc main_arg9)) := (W2_of_ne m ρ c main_arg9 (by decide)).trans (W1_a9 m ρ c)
theorem W3_a9 : W3 m ρ c (Proc.devRef .tc main_arg9) = (m ((c : Thread nD τ).loc main_arg9)) := (KHost.kept1 (W2 m ρ c) (r := main_arg9) (by decide)).trans (W2_a9 m ρ c)
theorem W4_a9 : W4 m ρ c (Proc.devRef .tc main_arg9) = (m ((c : Thread nD τ).loc main_arg9)) := (W4_of_ne m ρ c main_arg9 (by decide)).trans (W3_a9 m ρ c)
theorem W1_a10 : W1 m ρ c (Proc.devRef .tc main_arg10) = (m ((c : Thread nD τ).loc main_arg10)) := KHost.kept0 (W0 m ρ c) (r := main_arg10) (by decide)
theorem W2_a10 : W2 m ρ c (Proc.devRef .tc main_arg10) = (m ((c : Thread nD τ).loc main_arg10)) := (W2_of_ne m ρ c main_arg10 (by decide)).trans (W1_a10 m ρ c)
theorem W3_a10 : W3 m ρ c (Proc.devRef .tc main_arg10) = (m ((c : Thread nD τ).loc main_arg10)) := (KHost.kept1 (W2 m ρ c) (r := main_arg10) (by decide)).trans (W2_a10 m ρ c)
theorem W4_a10 : W4 m ρ c (Proc.devRef .tc main_arg10) = (m ((c : Thread nD τ).loc main_arg10)) := (W4_of_ne m ρ c main_arg10 (by decide)).trans (W3_a10 m ρ c)
theorem W1_a11 : W1 m ρ c (Proc.devRef .tc main_arg11) = (m ((c : Thread nD τ).loc main_arg11)) := KHost.kept0 (W0 m ρ c) (r := main_arg11) (by decide)
theorem W2_a11 : W2 m ρ c (Proc.devRef .tc main_arg11) = (m ((c : Thread nD τ).loc main_arg11)) := (W2_of_ne m ρ c main_arg11 (by decide)).trans (W1_a11 m ρ c)
theorem W3_a11 : W3 m ρ c (Proc.devRef .tc main_arg11) = (m ((c : Thread nD τ).loc main_arg11)) := (KHost.kept1 (W2 m ρ c) (r := main_arg11) (by decide)).trans (W2_a11 m ρ c)
theorem W4_a11 : W4 m ρ c (Proc.devRef .tc main_arg11) = (m ((c : Thread nD τ).loc main_arg11)) := (W4_of_ne m ρ c main_arg11 (by decide)).trans (W3_a11 m ρ c)
theorem W1_a12 : W1 m ρ c (Proc.devRef .tc main_arg12) = (m ((c : Thread nD τ).loc main_arg12)) := KHost.kept0 (W0 m ρ c) (r := main_arg12) (by decide)
theorem W2_a12 : W2 m ρ c (Proc.devRef .tc main_arg12) = (m ((c : Thread nD τ).loc main_arg12)) := (W2_of_ne m ρ c main_arg12 (by decide)).trans (W1_a12 m ρ c)
theorem W3_a12 : W3 m ρ c (Proc.devRef .tc main_arg12) = (m ((c : Thread nD τ).loc main_arg12)) := (KHost.kept1 (W2 m ρ c) (r := main_arg12) (by decide)).trans (W2_a12 m ρ c)
theorem W4_a12 : W4 m ρ c (Proc.devRef .tc main_arg12) = (m ((c : Thread nD τ).loc main_arg12)) := (W4_of_ne m ρ c main_arg12 (by decide)).trans (W3_a12 m ρ c)
theorem W1_a13 : W1 m ρ c (Proc.devRef .tc main_arg13) = (m ((c : Thread nD τ).loc main_arg13)) := KHost.kept0 (W0 m ρ c) (r := main_arg13) (by decide)
theorem W2_a13 : W2 m ρ c (Proc.devRef .tc main_arg13) = (m ((c : Thread nD τ).loc main_arg13)) := (W2_of_ne m ρ c main_arg13 (by decide)).trans (W1_a13 m ρ c)
theorem W3_a13 : W3 m ρ c (Proc.devRef .tc main_arg13) = (m ((c : Thread nD τ).loc main_arg13)) := (KHost.kept1 (W2 m ρ c) (r := main_arg13) (by decide)).trans (W2_a13 m ρ c)
theorem W4_a13 : W4 m ρ c (Proc.devRef .tc main_arg13) = (m ((c : Thread nD τ).loc main_arg13)) := (W4_of_ne m ρ c main_arg13 (by decide)).trans (W3_a13 m ρ c)
theorem W1_a14 : W1 m ρ c (Proc.devRef .tc main_arg14) = (m ((c : Thread nD τ).loc main_arg14)) := KHost.kept0 (W0 m ρ c) (r := main_arg14) (by decide)
theorem W2_a14 : W2 m ρ c (Proc.devRef .tc main_arg14) = (m ((c : Thread nD τ).loc main_arg14)) := (W2_of_ne m ρ c main_arg14 (by decide)).trans (W1_a14 m ρ c)
theorem W3_a14 : W3 m ρ c (Proc.devRef .tc main_arg14) = (m ((c : Thread nD τ).loc main_arg14)) := (KHost.kept1 (W2 m ρ c) (r := main_arg14) (by decide)).trans (W2_a14 m ρ c)
theorem W4_a14 : W4 m ρ c (Proc.devRef .tc main_arg14) = (m ((c : Thread nD τ).loc main_arg14)) := (W4_of_ne m ρ c main_arg14 (by decide)).trans (W3_a14 m ρ c)
theorem W5_a14 : W5 m ρ c (Proc.devRef .tc main_arg14) = (m ((c : Thread nD τ).loc main_arg14)) := (KHost.kept2 (W4 m ρ c) (r := main_arg14) (by decide)).trans (W4_a14 m ρ c)
theorem W6_a14 : W6 m ρ c (Proc.devRef .tc main_arg14) = (m ((c : Thread nD τ).loc main_arg14)) := (W6_of_ne m ρ c main_arg14 (by decide)).trans (W5_a14 m ρ c)
theorem W1_a15 : W1 m ρ c (Proc.devRef .tc main_arg15) = (m ((c : Thread nD τ).loc main_arg15)) := KHost.kept0 (W0 m ρ c) (r := main_arg15) (by decide)
theorem W2_a15 : W2 m ρ c (Proc.devRef .tc main_arg15) = (m ((c : Thread nD τ).loc main_arg15)) := (W2_of_ne m ρ c main_arg15 (by decide)).trans (W1_a15 m ρ c)
theorem W3_a15 : W3 m ρ c (Proc.devRef .tc main_arg15) = (m ((c : Thread nD τ).loc main_arg15)) := (KHost.kept1 (W2 m ρ c) (r := main_arg15) (by decide)).trans (W2_a15 m ρ c)
theorem W4_a15 : W4 m ρ c (Proc.devRef .tc main_arg15) = (m ((c : Thread nD τ).loc main_arg15)) := (W4_of_ne m ρ c main_arg15 (by decide)).trans (W3_a15 m ρ c)
theorem W5_a15 : W5 m ρ c (Proc.devRef .tc main_arg15) = (m ((c : Thread nD τ).loc main_arg15)) := (KHost.kept2 (W4 m ρ c) (r := main_arg15) (by decide)).trans (W4_a15 m ρ c)
theorem W6_a15 : W6 m ρ c (Proc.devRef .tc main_arg15) = (m ((c : Thread nD τ).loc main_arg15)) := (W6_of_ne m ρ c main_arg15 (by decide)).trans (W5_a15 m ρ c)
theorem W1_a16 : W1 m ρ c (Proc.devRef .tc main_arg16) = (m ((c : Thread nD τ).loc main_arg16)) := KHost.kept0 (W0 m ρ c) (r := main_arg16) (by decide)
theorem W2_a16 : W2 m ρ c (Proc.devRef .tc main_arg16) = (m ((c : Thread nD τ).loc main_arg16)) := (W2_of_ne m ρ c main_arg16 (by decide)).trans (W1_a16 m ρ c)
theorem W3_a16 : W3 m ρ c (Proc.devRef .tc main_arg16) = (m ((c : Thread nD τ).loc main_arg16)) := (KHost.kept1 (W2 m ρ c) (r := main_arg16) (by decide)).trans (W2_a16 m ρ c)
theorem W4_a16 : W4 m ρ c (Proc.devRef .tc main_arg16) = (m ((c : Thread nD τ).loc main_arg16)) := (W4_of_ne m ρ c main_arg16 (by decide)).trans (W3_a16 m ρ c)
theorem W5_a16 : W5 m ρ c (Proc.devRef .tc main_arg16) = (m ((c : Thread nD τ).loc main_arg16)) := (KHost.kept2 (W4 m ρ c) (r := main_arg16) (by decide)).trans (W4_a16 m ρ c)
theorem W6_a16 : W6 m ρ c (Proc.devRef .tc main_arg16) = (m ((c : Thread nD τ).loc main_arg16)) := (W6_of_ne m ρ c main_arg16 (by decide)).trans (W5_a16 m ρ c)
theorem W1_a17 : W1 m ρ c (Proc.devRef .tc main_arg17) = (m ((c : Thread nD τ).loc main_arg17)) := KHost.kept0 (W0 m ρ c) (r := main_arg17) (by decide)
theorem W2_a17 : W2 m ρ c (Proc.devRef .tc main_arg17) = (m ((c : Thread nD τ).loc main_arg17)) := (W2_of_ne m ρ c main_arg17 (by decide)).trans (W1_a17 m ρ c)
theorem W3_a17 : W3 m ρ c (Proc.devRef .tc main_arg17) = (m ((c : Thread nD τ).loc main_arg17)) := (KHost.kept1 (W2 m ρ c) (r := main_arg17) (by decide)).trans (W2_a17 m ρ c)
theorem W4_a17 : W4 m ρ c (Proc.devRef .tc main_arg17) = (m ((c : Thread nD τ).loc main_arg17)) := (W4_of_ne m ρ c main_arg17 (by decide)).trans (W3_a17 m ρ c)
theorem W5_a17 : W5 m ρ c (Proc.devRef .tc main_arg17) = (m ((c : Thread nD τ).loc main_arg17)) := (KHost.kept2 (W4 m ρ c) (r := main_arg17) (by decide)).trans (W4_a17 m ρ c)
theorem W6_a17 : W6 m ρ c (Proc.devRef .tc main_arg17) = (m ((c : Thread nD τ).loc main_arg17)) := (W6_of_ne m ρ c main_arg17 (by decide)).trans (W5_a17 m ρ c)
theorem W1_a18 : W1 m ρ c (Proc.devRef .tc main_arg18) = (m ((c : Thread nD τ).loc main_arg18)) := KHost.kept0 (W0 m ρ c) (r := main_arg18) (by decide)
theorem W2_a18 : W2 m ρ c (Proc.devRef .tc main_arg18) = (m ((c : Thread nD τ).loc main_arg18)) := (W2_of_ne m ρ c main_arg18 (by decide)).trans (W1_a18 m ρ c)
theorem W3_a18 : W3 m ρ c (Proc.devRef .tc main_arg18) = (m ((c : Thread nD τ).loc main_arg18)) := (KHost.kept1 (W2 m ρ c) (r := main_arg18) (by decide)).trans (W2_a18 m ρ c)
theorem W4_a18 : W4 m ρ c (Proc.devRef .tc main_arg18) = (m ((c : Thread nD τ).loc main_arg18)) := (W4_of_ne m ρ c main_arg18 (by decide)).trans (W3_a18 m ρ c)
theorem W5_a18 : W5 m ρ c (Proc.devRef .tc main_arg18) = (m ((c : Thread nD τ).loc main_arg18)) := (KHost.kept2 (W4 m ρ c) (r := main_arg18) (by decide)).trans (W4_a18 m ρ c)
theorem W6_a18 : W6 m ρ c (Proc.devRef .tc main_arg18) = (m ((c : Thread nD τ).loc main_arg18)) := (W6_of_ne m ρ c main_arg18 (by decide)).trans (W5_a18 m ρ c)
theorem W1_a19 : W1 m ρ c (Proc.devRef .tc main_arg19) = (m ((c : Thread nD τ).loc main_arg19)) := KHost.kept0 (W0 m ρ c) (r := main_arg19) (by decide)
theorem W2_a19 : W2 m ρ c (Proc.devRef .tc main_arg19) = (m ((c : Thread nD τ).loc main_arg19)) := (W2_of_ne m ρ c main_arg19 (by decide)).trans (W1_a19 m ρ c)
theorem W3_a19 : W3 m ρ c (Proc.devRef .tc main_arg19) = (m ((c : Thread nD τ).loc main_arg19)) := (KHost.kept1 (W2 m ρ c) (r := main_arg19) (by decide)).trans (W2_a19 m ρ c)
theorem W4_a19 : W4 m ρ c (Proc.devRef .tc main_arg19) = (m ((c : Thread nD τ).loc main_arg19)) := (W4_of_ne m ρ c main_arg19 (by decide)).trans (W3_a19 m ρ c)
theorem W5_a19 : W5 m ρ c (Proc.devRef .tc main_arg19) = (m ((c : Thread nD τ).loc main_arg19)) := (KHost.kept2 (W4 m ρ c) (r := main_arg19) (by decide)).trans (W4_a19 m ρ c)
theorem W6_a19 : W6 m ρ c (Proc.devRef .tc main_arg19) = (m ((c : Thread nD τ).loc main_arg19)) := (W6_of_ne m ρ c main_arg19 (by decide)).trans (W5_a19 m ρ c)
theorem W1_a20 : W1 m ρ c (Proc.devRef .tc main_arg20) = (m ((c : Thread nD τ).loc main_arg20)) := KHost.kept0 (W0 m ρ c) (r := main_arg20) (by decide)
theorem W2_a20 : W2 m ρ c (Proc.devRef .tc main_arg20) = (m ((c : Thread nD τ).loc main_arg20)) := (W2_of_ne m ρ c main_arg20 (by decide)).trans (W1_a20 m ρ c)
theorem W3_a20 : W3 m ρ c (Proc.devRef .tc main_arg20) = (m ((c : Thread nD τ).loc main_arg20)) := (KHost.kept1 (W2 m ρ c) (r := main_arg20) (by decide)).trans (W2_a20 m ρ c)
theorem W4_a20 : W4 m ρ c (Proc.devRef .tc main_arg20) = (m ((c : Thread nD τ).loc main_arg20)) := (W4_of_ne m ρ c main_arg20 (by decide)).trans (W3_a20 m ρ c)
theorem W5_a20 : W5 m ρ c (Proc.devRef .tc main_arg20) = (m ((c : Thread nD τ).loc main_arg20)) := (KHost.kept2 (W4 m ρ c) (r := main_arg20) (by decide)).trans (W4_a20 m ρ c)
theorem W6_a20 : W6 m ρ c (Proc.devRef .tc main_arg20) = (m ((c : Thread nD τ).loc main_arg20)) := (W6_of_ne m ρ c main_arg20 (by decide)).trans (W5_a20 m ρ c)
theorem W1_a21 : W1 m ρ c (Proc.devRef .tc main_arg21) = (m ((c : Thread nD τ).loc main_arg21)) := KHost.kept0 (W0 m ρ c) (r := main_arg21) (by decide)
theorem W2_a21 : W2 m ρ c (Proc.devRef .tc main_arg21) = (m ((c : Thread nD τ).loc main_arg21)) := (W2_of_ne m ρ c main_arg21 (by decide)).trans (W1_a21 m ρ c)
theorem W3_a21 : W3 m ρ c (Proc.devRef .tc main_arg21) = (m ((c : Thread nD τ).loc main_arg21)) := (KHost.kept1 (W2 m ρ c) (r := main_arg21) (by decide)).trans (W2_a21 m ρ c)
theorem W4_a21 : W4 m ρ c (Proc.devRef .tc main_arg21) = (m ((c : Thread nD τ).loc main_arg21)) := (W4_of_ne m ρ c main_arg21 (by decide)).trans (W3_a21 m ρ c)
theorem W5_a21 : W5 m ρ c (Proc.devRef .tc main_arg21) = (m ((c : Thread nD τ).loc main_arg21)) := (KHost.kept2 (W4 m ρ c) (r := main_arg21) (by decide)).trans (W4_a21 m ρ c)
theorem W6_a21 : W6 m ρ c (Proc.devRef .tc main_arg21) = (m ((c : Thread nD τ).loc main_arg21)) := (W6_of_ne m ρ c main_arg21 (by decide)).trans (W5_a21 m ρ c)
theorem W1_src : W1 m ρ c (Proc.devRef .tc main_v1) = KHost.kSrc (m ((c : Thread nD τ).loc main_arg1)) := KHost.s0_src (W0 m ρ c)
theorem W2_src : W2 m ρ c (Proc.devRef .tc main_v1) = KHost.kSrc (m ((c : Thread nD τ).loc main_arg1)) := (W2_of_ne m ρ c main_v1 (by decide)).trans (W1_src m ρ c)
theorem W3_src : W3 m ρ c (Proc.devRef .tc main_v1) = KHost.kSrc (m ((c : Thread nD τ).loc main_arg1)) := (KHost.kept1 (W2 m ρ c) (r := main_v1) (by decide)).trans (W2_src m ρ c)
theorem W4_src : W4 m ρ c (Proc.devRef .tc main_v1) = KHost.kSrc (m ((c : Thread nD τ).loc main_arg1)) := (W4_of_ne m ρ c main_v1 (by decide)).trans (W3_src m ρ c)
theorem W1_dst : W1 m ρ c (Proc.devRef .tc main_v3) = KHost.kDst (m ((c : Thread nD τ).loc main_arg1)) := KHost.s0_dst (W0 m ρ c)
theorem W2_dst : W2 m ρ c (Proc.devRef .tc main_v3) = KHost.kDst (m ((c : Thread nD τ).loc main_arg1)) := (W2_of_ne m ρ c main_v3 (by decide)).trans (W1_dst m ρ c)
theorem W3_dst : W3 m ρ c (Proc.devRef .tc main_v3) = KHost.kDst (m ((c : Thread nD τ).loc main_arg1)) := (KHost.kept1 (W2 m ρ c) (r := main_v3) (by decide)).trans (W2_dst m ρ c)
theorem W4_dst : W4 m ρ c (Proc.devRef .tc main_v3) = KHost.kDst (m ((c : Thread nD τ).loc main_arg1)) := (W4_of_ne m ρ c main_v3 (by decide)).trans (W3_dst m ρ c)

/-! ## The three layers and the head -/

/-- The first layer's output array after its region. -/
theorem X1_eq : W2 m ρ c (Proc.devRef .tc main_v38) = X1 m c :=
  (W2_arr m ρ c 14).trans ((Blocks.final0 LayerBody.out0_14_eq (V1 m ρ) c).trans (layerArr_congr
    ((KHost.s0_agg (W0 m ρ c)).trans (KHost.kAgg_edges _ _))
    (KHost.kept0 (W0 m ρ c) (r := main_arg0) (by decide))
    (KHost.s0_p2 (W0 m ρ c))
    (KHost.s0_p3 (W0 m ρ c))
    (KHost.s0_p4 (W0 m ρ c))
    (KHost.s0_p5 (W0 m ρ c))
    (KHost.s0_p6 (W0 m ρ c))
    (KHost.s0_p7 (W0 m ρ c))
    (KHost.s0_p8 (W0 m ρ c))
    (KHost.s0_p9 (W0 m ρ c))
    (KHost.s0_p10 (W0 m ρ c))
    (KHost.s0_p11 (W0 m ρ c))
    (KHost.s0_p12 (W0 m ρ c))
    (KHost.s0_p13 (W0 m ρ c))))

/-- The second layer's output array after its region. -/
theorem X2_eq : W4 m ρ c (Proc.devRef .tc main_v73) = X2 m c :=
  (W4_arr m ρ c 14).trans ((Blocks.final1 LayerBody.out1_14_eq (V3 m ρ) c).trans (layerArr_congr
    ((KHost.s1_agg (W2 m ρ c)).trans ((kAgg_congr (X1_eq m ρ c) (W2_src m ρ c) (W2_dst m ρ c)).trans (KHost.kAgg_edges _ _)))
    ((KHost.kept1 (W2 m ρ c) (r := main_v38) (by decide)).trans (X1_eq m ρ c))
    ((KHost.s1_p2 (W2 m ρ c)).trans (congrArg (refW1 1) (W2_a2 m ρ c)))
    ((KHost.s1_p3 (W2 m ρ c)).trans (congrArg (refB1 1) (W2_a3 m ρ c)))
    ((KHost.s1_p4 (W2 m ρ c)).trans (congrArg (refG1 1) (W2_a4 m ρ c)))
    ((KHost.s1_p5 (W2 m ρ c)).trans (congrArg (refBt1 1) (W2_a5 m ρ c)))
    ((KHost.s1_p6 (W2 m ρ c)).trans (congrArg (refM1 1) (W2_a6 m ρ c)))
    ((KHost.s1_p7 (W2 m ρ c)).trans (congrArg (refV1 1) (W2_a7 m ρ c)))
    ((KHost.s1_p8 (W2 m ρ c)).trans (congrArg (refW2 1) (W2_a8 m ρ c)))
    ((KHost.s1_p9 (W2 m ρ c)).trans (congrArg (refB2 1) (W2_a9 m ρ c)))
    ((KHost.s1_p10 (W2 m ρ c)).trans (congrArg (refGc 1) (W2_a10 m ρ c)))
    ((KHost.s1_p11 (W2 m ρ c)).trans (congrArg (refBc 1) (W2_a11 m ρ c)))
    ((KHost.s1_p12 (W2 m ρ c)).trans (congrArg (refMc 1) (W2_a12 m ρ c)))
    ((KHost.s1_p13 (W2 m ρ c)).trans (congrArg (refVc 1) (W2_a13 m ρ c)))))

/-- The third layer's output array after its region. -/
theorem X3_eq : W6 m ρ c (Proc.devRef .tc main_v108) = X3 m c :=
  (W6_arr m ρ c 14).trans ((Blocks.final2 LayerBody.out2_14_eq (V5 m ρ) c).trans (layerArr_congr
    ((KHost.s2_agg (W4 m ρ c)).trans ((kAgg_congr (X2_eq m ρ c) (W4_src m ρ c) (W4_dst m ρ c)).trans (KHost.kAgg_edges _ _)))
    ((KHost.kept2 (W4 m ρ c) (r := main_v73) (by decide)).trans (X2_eq m ρ c))
    ((KHost.s2_p2 (W4 m ρ c)).trans (congrArg (refW1 2) (W4_a2 m ρ c)))
    ((KHost.s2_p3 (W4 m ρ c)).trans (congrArg (refB1 2) (W4_a3 m ρ c)))
    ((KHost.s2_p4 (W4 m ρ c)).trans (congrArg (refG1 2) (W4_a4 m ρ c)))
    ((KHost.s2_p5 (W4 m ρ c)).trans (congrArg (refBt1 2) (W4_a5 m ρ c)))
    ((KHost.s2_p6 (W4 m ρ c)).trans (congrArg (refM1 2) (W4_a6 m ρ c)))
    ((KHost.s2_p7 (W4 m ρ c)).trans (congrArg (refV1 2) (W4_a7 m ρ c)))
    ((KHost.s2_p8 (W4 m ρ c)).trans (congrArg (refW2 2) (W4_a8 m ρ c)))
    ((KHost.s2_p9 (W4 m ρ c)).trans (congrArg (refB2 2) (W4_a9 m ρ c)))
    ((KHost.s2_p10 (W4 m ρ c)).trans (congrArg (refGc 2) (W4_a10 m ρ c)))
    ((KHost.s2_p11 (W4 m ρ c)).trans (congrArg (refBc 2) (W4_a11 m ρ c)))
    ((KHost.s2_p12 (W4 m ρ c)).trans (congrArg (refMc 2) (W4_a12 m ρ c)))
    ((KHost.s2_p13 (W4 m ρ c)).trans (congrArg (refVc 2) (W4_a13 m ρ c)))))

/-- The result array after the last region: the network, in the kernel's spelling, of the launch arrays. -/
theorem result_eq : W7 m ρ c (Proc.devRef .tc main_v109)
    = Cert.Model.out bnK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W7_arr m ρ c 9).trans ((Blocks.final3 HeadBody.out3_9_eq (V6 m ρ) c).trans (headArr_congr
    (X3_eq m ρ c)
    (W6_a14 m ρ c)
    (W6_a15 m ρ c)
    (W6_a16 m ρ c)
    (W6_a17 m ρ c)
    (W6_a18 m ρ c)
    (W6_a19 m ρ c)
    (W6_a20 m ρ c)
    (W6_a21 m ρ c)))

end Cert.KernelIdeal.KChain

end
-- ==== Proof.LibConsts.lean ====
/- The f32 words this proof evaluates at the ideal instance: the word 0x3727C5AC (the nearest f32 to 1e-5) denotes a
   positive real.  Stated once, so that no other module unfolds the decoding of a word. -/
import Idealize.ShloMosaic.PureOps.Ideal

noncomputable section

namespace Cert.LibConsts

open Idealize.ShloMosaic

/-- The f32 word 0x3727C5AC denotes the dyadic rational 10995116 / 2^40, a positive real. -/
theorem eps_word : Ideal.ofBits .f32 0x3727C5AC#32 = (((10995116 : ℝ) / 1099511627776 : ℝ) : EReal) := by
  simp [Ideal.ofBits, Ideal.ieee, -EReal.coe_mul]; norm_num

theorem eps_pos : ∃ e : ℝ, 0 < e ∧ Ideal.ofBits .f32 0x3727C5AC#32 = (e : EReal) :=
  ⟨(10995116 : ℝ) / 1099511627776, by norm_num, eps_word⟩

end Cert.LibConsts

end
-- ==== Proof.PreFacts.lean ====
/-
  What the precondition gives the proof: every running variance the three batch norms use (the arrays v1s, vcs and
  v_bn1) is non-negative, entry by entry, and the batch-norm epsilon is a positive real. The precondition is a
  conjunction of "all entries satisfy …" tests; its last three conjuncts are the three tests `v ≥ 0`.
-/
import proofs.«137670_j89919435309328_2_alg».proof.Defs
import proofs.«137670_j89919435309328_2_alg».proof.Proof.Gen.Pre_finite_inputs
import proofs.«137670_j89919435309328_2_alg».proof.Proof.Spec
import proofs.«137670_j89919435309328_2_alg».proof.Proof.LibConsts
import Idealize.ShloMosaic.Lib.ReduceAll
import Idealize.ShloMosaic.Lib.Affine
import Idealize.ShloMosaic.PureOps.Ideal.Laws

noncomputable section

namespace Cert.PreFacts

open Idealize.ShloMosaic Idealize.SL.Sem Cert.Pre_finite_inputs

instance : Subsingleton S_.Idx := ⟨fun a b => funext fun d => d.elim0⟩

/-- The epsilon is positive. -/
theorem eps_pos : (0 : EReal) < Cert.Spec.eps := by
  obtain ⟨e, he, h⟩ := Cert.LibConsts.eps_pos
  unfold Cert.Spec.eps; rw [h]; exact_mod_cast he

/-- A float test `x ≥ 0` that answers 1 says `0 ≤ x` on the extended reals. -/
theorem nonneg_of_cmp {x : EReal} (h : Ideal.cmp .oge x (Ideal.ofBits .f32 0x00000000#32) = 1#1) : 0 ≤ x := by
  rw [Ideal.ofBits_zero_f32] at h
  have hb : ∀ b : Bool, BitVec.ofBool b = 1#1 → b = true := by intro b; cases b <;> decide
  exact of_decide_eq_true (hb _ h)

/-- The precondition's last three conjuncts, at the idealized kernel's memory. -/
theorem variances_nonneg [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, (0 : EReal) ≤ m ((c.tc : Thread Cert.KernelIdeal.nD Cert.KernelIdeal.τ).loc Cert.KernelIdeal.main_arg7) i)
    ∧ (∀ i, (0 : EReal) ≤ m ((c.tc : Thread Cert.KernelIdeal.nD Cert.KernelIdeal.τ).loc Cert.KernelIdeal.main_arg13) i)
    ∧ (∀ i, (0 : EReal) ≤ m ((c.tc : Thread Cert.KernelIdeal.nD Cert.KernelIdeal.τ).loc Cert.KernelIdeal.main_arg19) i) := by
  have h0 := congrFun (h c) ValueIdx.ix0
  dsimp only [fn, fn_part1, fn_part2, fn_part3, fn_part4, fn_part5, fn_part6] at h0
  obtain ⟨h1, h19⟩ := IntOp.andi_eq_one.1 h0
  obtain ⟨h2, h13⟩ := IntOp.andi_eq_one.1 h1
  obtain ⟨-, h7⟩ := IntOp.andi_eq_one.1 h2
  refine ⟨fun i => ?_, fun i => ?_, fun i => ?_⟩
  · exact nonneg_of_cmp (Host.reduce_andi_all _ _ _ _ _ h7 i)
  · exact nonneg_of_cmp (Host.reduce_andi_all _ _ _ _ _ h13 i)
  · exact nonneg_of_cmp (Host.reduce_andi_all _ _ _ _ _ h19 i)

end Cert.PreFacts

end
-- ==== Proof.LibHostPieces.lean ====
/-
  Straight lines of host operations cut into pieces: a line run after another is their concatenation run as one, the
  buffer contents after a concatenation are the contents after the second piece from the contents after the first, and a
  property of every operation of two pieces holds of every operation of their concatenation.
-/
import Idealize.ShloMosaic.Lib.StableHlo.Run

noncomputable section

namespace Idealize.ShloMosaic.StableHlo

open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The buffer contents after two pieces in a row: the second piece's fold over the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line, then a program that is itself a line: one line. -/
theorem seq_bind_eq (a R : List (HloOp τ sig Val)) (k : Prog (TpuEff nD τ sig Val Λ .tc) PUnit) (h : k = seq R) :
    (seq a >>= fun _ => k) = seq (a ++ R) := by rw [h, seq_append]

/-- What holds of every operation of two pieces holds of every operation of their concatenation. -/
theorem forall_mem_append {P : HloOp τ sig Val → Prop} {a b : List (HloOp τ sig Val)}
    (ha : ∀ op ∈ a, P op) (hb : ∀ op ∈ b, P op) : ∀ op ∈ a ++ b, P op :=
  fun op h => (List.mem_append.1 h).elim (ha op) (hb op)

end Idealize.ShloMosaic.StableHlo

end
-- ==== Proof.RefKept.lean ====
/-
  Which buffers each piece of the reference's host operations writes: a buffer outside a piece's list keeps its contents
  through the piece, and the argument arrays, which no operation writes, keep theirs through the whole program.
-/
import proofs.«137670_j89919435309328_2_alg».proof.Proof.RefRunP
import Idealize.ShloMosaic.PureOps.Ideal

set_option maxRecDepth 16384

noncomputable section

namespace Cert.ReferenceIdeal.RefKept

open Cert.ReferenceIdeal Cert.ReferenceIdeal.ValueP Idealize.ShloMosaic Idealize.ShloMosaic.TcCoe Idealize.SL.Sem Idealize.ShloMosaic.StableHlo

variable (V : Valuation τ sig (Elt Ideal))

/-- The buffers piece 0 writes. -/
def wr0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_cst_1, main_v34, main_v35, main_v36, main_v37, main_v38, main_v39, main_v40, main_v41, main_v42, main_v43, main_v44, main_v45, main_call0_cst, main_call0_v0, main_v46, main_v47, main_v48, main_v49, main_v50, main_v51, main_v52, main_v53, main_v54, main_v55]
theorem writes0 : (ops0 : List (HloOp τ sig (Elt Ideal))).Forall fun op => op.writes ⊆ (wr0.map (Proc.devRef (τ := τ) .tc)).toFinset := by
  simp only [ops0, List.Forall, nullary_writes, unary_writes, binary_writes, ternary_writes, reshape_writes,
    Finset.singleton_subset_iff, List.mem_toFinset]
  repeat' apply And.intro
  all_goals exact List.mem_map.mpr ⟨_, by decide +kernel, rfl⟩
/-- A buffer piece 0 does not write keeps its contents through it. -/
theorem kept0 {r : Ref sig .tc} (hr : r ∉ wr0) : after ops0 V (Proc.devRef .tc r) = V (Proc.devRef .tc r) :=
  after_of_writes_sub _ V writes0 hr

/-- The buffers piece 1 writes. -/
def wr1 : List (Ref sig .tc) := [main_v56, main_v57, main_v58, main_v59, main_v60, main_v61, main_v62, main_v63, main_v64, main_v65, main_cst_2, main_v66, main_v67, main_v68, main_v69, main_v70, main_v71, main_v72, main_v73, main_v74, main_v75, main_v76, main_v77, main_call1_cst, main_call1_v0, main_v78]
theorem writes1 : (ops1 : List (HloOp τ sig (Elt Ideal))).Forall fun op => op.writes ⊆ (wr1.map (Proc.devRef (τ := τ) .tc)).toFinset := by
  simp only [ops1, List.Forall, nullary_writes, unary_writes, binary_writes, ternary_writes, reshape_writes,
    Finset.singleton_subset_iff, List.mem_toFinset]
  repeat' apply And.intro
  all_goals exact List.mem_map.mpr ⟨_, by decide +kernel, rfl⟩
/-- A buffer piece 1 does not write keeps its contents through it. -/
theorem kept1 {r : Ref sig .tc} (hr : r ∉ wr1) : after ops1 V (Proc.devRef .tc r) = V (Proc.devRef .tc r) :=
  after_of_writes_sub _ V writes1 hr

/-- The buffers piece 2 writes. -/
def wr2 : List (Ref sig .tc) := [main_c_3, main_v79, main_v80, main_c_4, main_v81, main_v82, main_v83, main_v84, main_v85, main_cst_5, main_v86, main_v87, main_v88, main_v89, main_v90, main_v91, main_v92, main_v93, main_v94, main_v95, main_v96, main_v97, main_v98, main_v99, main_v100, main_v101, main_v102, main_v103, main_v104, main_v105, main_v106, main_v107, main_v108, main_cst_6, main_v109, main_v110]
theorem writes2 : (ops2 : List (HloOp τ sig (Elt Ideal))).Forall fun op => op.writes ⊆ (wr2.map (Proc.devRef (τ := τ) .tc)).toFinset := by
  simp only [ops2, List.Forall, nullary_writes, unary_writes, binary_writes, ternary_writes, reshape_writes,
    Finset.singleton_subset_iff, List.mem_toFinset]
  repeat' apply And.intro
  all_goals exact List.mem_map.mpr ⟨_, by decide +kernel, rfl⟩
/-- A buffer piece 2 does not write keeps its contents through it. -/
theorem kept2 {r : Ref sig .tc} (hr : r ∉ wr2) : after ops2 V (Proc.devRef .tc r) = V (Proc.devRef .tc r) :=
  after_of_writes_sub _ V writes2 hr

/-- The buffers piece 3 writes. -/
def wr3 : List (Ref sig .tc) := [main_v111, main_v112, main_v113, main_v114, main_v115, main_v116, main_v117, main_v118, main_v119, main_v120, main_call2_cst, main_call2_v0, main_v121, main_v122, main_v123, main_v124, main_v125, main_v126, main_v127, main_v128, main_v129, main_v130, main_v131, main_v132, main_v133, main_v134, main_v135, main_v136, main_v137, main_v138, main_v139, main_v140, main_cst_7, main_v141, main_v142, main_v143, main_v144, main_v145, main_v146, main_v147, main_v148, main_v149, main_v150, main_v151, main_v152, main_call3_cst, main_call3_v0, main_v153]
theorem writes3 : (ops3 : List (HloOp τ sig (Elt Ideal))).Forall fun op => op.writes ⊆ (wr3.map (Proc.devRef (τ := τ) .tc)).toFinset := by
  simp only [ops3, List.Forall, nullary_writes, unary_writes, binary_writes, ternary_writes, reshape_writes,
    Finset.singleton_subset_iff, List.mem_toFinset]
  repeat' apply And.intro
  all_goals exact List.mem_map.mpr ⟨_, by decide +kernel, rfl⟩
/-- A buffer piece 3 does not write keeps its contents through it. -/
theorem kept3 {r : Ref sig .tc} (hr : r ∉ wr3) : after ops3 V (Proc.devRef .tc r) = V (Proc.devRef .tc r) :=
  after_of_writes_sub _ V writes3 hr

/-- The buffers piece 4 writes. -/
def wr4 : List (Ref sig .tc) := [main_c_8, main_v154, main_v155, main_c_9, main_v156, main_v157, main_v158, main_v159, main_v160, main_cst_10, main_v161, main_v162, main_v163, main_v164, main_v165, main_v166]
theorem writes4 : (ops4 : List (HloOp τ sig (Elt Ideal))).Forall fun op => op.writes ⊆ (wr4.map (Proc.devRef (τ := τ) .tc)).toFinset := by
  simp only [ops4, List.Forall, nullary_writes, unary_writes, binary_writes, ternary_writes, reshape_writes,
    Finset.singleton_subset_iff, List.mem_toFinset]
  repeat' apply And.intro
  all_goals exact List.mem_map.mpr ⟨_, by decide +kernel, rfl⟩
/-- A buffer piece 4 does not write keeps its contents through it. -/
theorem kept4 {r : Ref sig .tc} (hr : r ∉ wr4) : after ops4 V (Proc.devRef .tc r) = V (Proc.devRef .tc r) :=
  after_of_writes_sub _ V writes4 hr

/-- The buffers piece 5 writes. -/
def wr5 : List (Ref sig .tc) := [main_v167, main_v168, main_v169, main_v170, main_v171, main_v172, main_v173, main_v174, main_v175, main_v176, main_v177, main_v178, main_v179, main_v180, main_v181, main_v182, main_v183, main_cst_11, main_v184, main_v185, main_v186, main_v187, main_v188, main_v189, main_v190, main_v191, main_v192, main_v193, main_v194, main_v195, main_call4_cst, main_call4_v0, main_v196, main_v197, main_v198, main_v199, main_v200, main_v201, main_v202, main_v203, main_v204, main_v205, main_v206, main_v207, main_v208, main_v209, main_v210, main_v211, main_v212, main_v213, main_v214, main_v215, main_cst_12, main_v216, main_v217, main_v218, main_v219, main_v220, main_v221, main_v222, main_v223, main_v224]
theorem writes5 : (ops5 : List (HloOp τ sig (Elt Ideal))).Forall fun op => op.writes ⊆ (wr5.map (Proc.devRef (τ := τ) .tc)).toFinset := by
  simp only [ops5, List.Forall, nullary_writes, unary_writes, binary_writes, ternary_writes, reshape_writes,
    Finset.singleton_subset_iff, List.mem_toFinset]
  repeat' apply And.intro
  all_goals exact List.mem_map.mpr ⟨_, by decide +kernel, rfl⟩
/-- A buffer piece 5 does not write keeps its contents through it. -/
theorem kept5 {r : Ref sig .tc} (hr : r ∉ wr5) : after ops5 V (Proc.devRef .tc r) = V (Proc.devRef .tc r) :=
  after_of_writes_sub _ V writes5 hr

/-- The buffers piece 6 writes. -/
def wr6 : List (Ref sig .tc) := [main_v225, main_v226, main_v227, main_call5_cst, main_call5_v0, main_v228]
theorem writes6 : (ops6 : List (HloOp τ sig (Elt Ideal))).Forall fun op => op.writes ⊆ (wr6.map (Proc.devRef (τ := τ) .tc)).toFinset := by
  simp only [ops6, List.Forall, nullary_writes, unary_writes, binary_writes, ternary_writes, reshape_writes,
    Finset.singleton_subset_iff, List.mem_toFinset]
  repeat' apply And.intro
  all_goals exact List.mem_map.mpr ⟨_, by decide +kernel, rfl⟩
/-- A buffer piece 6 does not write keeps its contents through it. -/
theorem kept6 {r : Ref sig .tc} (hr : r ∉ wr6) : after ops6 V (Proc.devRef .tc r) = V (Proc.devRef .tc r) :=
  after_of_writes_sub _ V writes6 hr

/-- The buffers piece 7 writes. -/
def wr7 : List (Ref sig .tc) := [main_v229, main_v230, main_v231, main_v232, main_v233, main_v234, main_v235, main_cst_13, main_v236, main_v237, main_v238, main_v239, main_v240, main_v241, main_v242, main_v243, main_v244, main_v245, main_v246, main_v247, main_call6_cst, main_call6_v0, main_v248, main_v249, main_v250, main_v251, main_v252, main_call7_cst, main_call7_v0, main_call7_cst_0, main_call7_v1, main_call7_v2, main_call7_v3, main_call7_v4, main_call7_v5, main_call7_v6, main_call7_cst_1, main_call7_v7, main_call7_v8, main_call7_v9, main_call7_v10, main_v253]
theorem writes7 : (ops7 : List (HloOp τ sig (Elt Ideal))).Forall fun op => op.writes ⊆ (wr7.map (Proc.devRef (τ := τ) .tc)).toFinset := by
  simp only [ops7, List.Forall, nullary_writes, unary_writes, binary_writes, ternary_writes, reshape_writes,
    Finset.singleton_subset_iff, List.mem_toFinset]
  repeat' apply And.intro
  all_goals exact List.mem_map.mpr ⟨_, by decide +kernel, rfl⟩
/-- A buffer piece 7 does not write keeps its contents through it. -/
theorem kept7 {r : Ref sig .tc} (hr : r ∉ wr7) : after ops7 V (Proc.devRef .tc r) = V (Proc.devRef .tc r) :=
  after_of_writes_sub _ V writes7 hr

/-- The contents after the whole program, piece by piece. -/
theorem after_ops : after ops V = after ops7 (after ops6 (after ops5 (after ops4 (after ops3 (after ops2 (after ops1 (after ops0 V))))))) := by
  simp only [ops, after_append]

/-- A buffer no piece writes keeps its contents through the whole program. -/
theorem kept_all {r : Ref sig .tc} (h0 : r ∉ wr0) (h1 : r ∉ wr1) (h2 : r ∉ wr2) (h3 : r ∉ wr3) (h4 : r ∉ wr4) (h5 : r ∉ wr5)
    (h6 : r ∉ wr6) (h7 : r ∉ wr7) : after ops V (Proc.devRef .tc r) = V (Proc.devRef .tc r) := by
  rw [after_ops, kept7 _ h7, kept6 _ h6, kept5 _ h5, kept4 _ h4, kept3 _ h3, kept2 _ h2, kept1 _ h1, kept0 _ h0]
theorem arg0_kept : after ops V (Proc.devRef .tc main_arg0) = V (Proc.devRef .tc main_arg0) :=
  kept_all V (by decide +kernel) (by decide +kernel) (by decide +kernel) (by decide +kernel) (by decide +kernel) (by decide +kernel) (by decide +kernel) (by decide +kernel)
theorem arg1_kept : after ops V (Proc.devRef .tc main_arg1) = V (Proc.devRef .tc main_arg1) :=
  kept_all V (by decide +kernel) (by decide +kernel) (by decide +kernel) (by decide +kernel) (by decide +kernel) (by decide +kernel) (by decide +kernel) (by decide +kernel)
theorem arg2_kept : after ops V (Proc.devRef .tc main_arg2) = V (Proc.devRef .tc main_arg2) :=
  kept_all V (by decide +kernel) (by decide +kernel) (by decide +kernel) (by decide +kernel) (by decide +kernel) (by decide +kernel) (by decide +kernel) (by decide +kernel)
theorem arg3_kept : after ops V (Proc.devRef .tc main_arg3) = V (Proc.devRef .tc main_arg3) :=
  kept_all V (by decide +kernel) (by decide +kernel) (by decide +kernel) (by decide +kernel) (by decide +kernel) (by decide +kernel) (by decide +kernel) (by decide +kernel)
theorem arg4_kept : after ops V (Proc.devRef .tc main_arg4) = V (Proc.devRef .tc main_arg4) :=
  kept_all V (by decide +kernel) (by decide +kernel) (by decide +kernel) (by decide +kernel) (by decide +kernel) (by decide +kernel) (by decide +kernel) (by decide +kernel)
theorem arg5_kept : after ops V (Proc.devRef .tc main_arg5) = V (Proc.devRef .tc main_arg5) :=
  kept_all V (by decide +kernel) (by decide +kernel) (by decide +kernel) (by decide +kernel) (by decide +kernel) (by decide +kernel) (by decide +kernel) (by decide +kernel)
theorem arg6_kept : after ops V (Proc.devRef .tc main_arg6) = V (Proc.devRef .tc main_arg6) :=
  kept_all V (by decide +kernel) (by decide +kernel) (by decide +kernel) (by decide +kernel) (by decide +kernel) (by decide +kernel) (by decide +kernel) (by decide +kernel)
theorem arg7_kept : after ops V (Proc.devRef .tc main_arg7) = V (Proc.devRef .tc main_arg7) :=
  kept_all V (by decide +kernel) (by decide +kernel) (by decide +kernel) (by decide +kernel) (by decide +kernel) (by decide +kernel) (by decide +kernel) (by decide +kernel)
theorem arg8_kept : after ops V (Proc.devRef .tc main_arg8) = V (Proc.devRef .tc main_arg8) :=
  kept_all V (by decide +kernel) (by decide +kernel) (by decide +kernel) (by decide +kernel) (by decide +kernel) (by decide +kernel) (by decide +kernel) (by decide +kernel)
theorem arg9_kept : after ops V (Proc.devRef .tc main_arg9) = V (Proc.devRef .tc main_arg9) :=
  kept_all V (by decide +kernel) (by decide +kernel) (by decide +kernel) (by decide +kernel) (by decide +kernel) (by decide +kernel) (by decide +kernel) (by decide +kernel)
theorem arg10_kept : after ops V (Proc.devRef .tc main_arg10) = V (Proc.devRef .tc main_arg10) :=
  kept_all V (by decide +kernel) (by decide +kernel) (by decide +kernel) (by decide +kernel) (by decide +kernel) (by decide +kernel) (by decide +kernel) (by decide +kernel)
theorem arg11_kept : after ops V (Proc.devRef .tc main_arg11) = V (Proc.devRef .tc main_arg11) :=
  kept_all V (by decide +kernel) (by decide +kernel) (by decide +kernel) (by decide +kernel) (by decide +kernel) (by decide +kernel) (by decide +kernel) (by decide +kernel)
theorem arg12_kept : after ops V (Proc.devRef .tc main_arg12) = V (Proc.devRef .tc main_arg12) :=
  kept_all V (by decide +kernel) (by decide +kernel) (by decide +kernel) (by decide +kernel) (by decide +kernel) (by decide +kernel) (by decide +kernel) (by decide +kernel)
theorem arg13_kept : after ops V (Proc.devRef .tc main_arg13) = V (Proc.devRef .tc main_arg13) :=
  kept_all V (by decide +kernel) (by decide +kernel) (by decide +kernel) (by decide +kernel) (by decide +kernel) (by decide +kernel) (by decide +kernel) (by decide +kernel)
theorem arg14_kept : after ops V (Proc.devRef .tc main_arg14) = V (Proc.devRef .tc main_arg14) :=
  kept_all V (by decide +kernel) (by decide +kernel) (by decide +kernel) (by decide +kernel) (by decide +kernel) (by decide +kernel) (by decide +kernel) (by decide +kernel)
theorem arg15_kept : after ops V (Proc.devRef .tc main_arg15) = V (Proc.devRef .tc main_arg15) :=
  kept_all V (by decide +kernel) (by decide +kernel) (by decide +kernel) (by decide +kernel) (by decide +kernel) (by decide +kernel) (by decide +kernel) (by decide +kernel)
theorem arg16_kept : after ops V (Proc.devRef .tc main_arg16) = V (Proc.devRef .tc main_arg16) :=
  kept_all V (by decide +kernel) (by decide +kernel) (by decide +kernel) (by decide +kernel) (by decide +kernel) (by decide +kernel) (by decide +kernel) (by decide +kernel)
theorem arg17_kept : after ops V (Proc.devRef .tc main_arg17) = V (Proc.devRef .tc main_arg17) :=
  kept_all V (by decide +kernel) (by decide +kernel) (by decide +kernel) (by decide +kernel) (by decide +kernel) (by decide +kernel) (by decide +kernel) (by decide +kernel)
theorem arg18_kept : after ops V (Proc.devRef .tc main_arg18) = V (Proc.devRef .tc main_arg18) :=
  kept_all V (by decide +kernel) (by decide +kernel) (by decide +kernel) (by decide +kernel) (by decide +kernel) (by decide +kernel) (by decide +kernel) (by decide +kernel)
theorem arg19_kept : after ops V (Proc.devRef .tc main_arg19) = V (Proc.devRef .tc main_arg19) :=
  kept_all V (by decide +kernel) (by decide +kernel) (by decide +kernel) (by decide +kernel) (by decide +kernel) (by decide +kernel) (by decide +kernel) (by decide +kernel)
theorem arg20_kept : after ops V (Proc.devRef .tc main_arg20) = V (Proc.devRef .tc main_arg20) :=
  kept_all V (by decide +kernel) (by decide +kernel) (by decide +kernel) (by decide +kernel) (by decide +kernel) (by decide +kernel) (by decide +kernel) (by decide +kernel)
theorem arg21_kept : after ops V (Proc.devRef .tc main_arg21) = V (Proc.devRef .tc main_arg21) :=
  kept_all V (by decide +kernel) (by decide +kernel) (by decide +kernel) (by decide +kernel) (by decide +kernel) (by decide +kernel) (by decide +kernel) (by decide +kernel)

end Cert.ReferenceIdeal.RefKept

end
-- ==== Proof.RefStages.lean ====
/-
  The reference's arithmetic, stage by stage, over arbitrary operand arrays. A dense layer followed by an eval-mode batch
  norm and a positive part is, at row `r` and column `j`,
      max (((∑ k, h r k * W k j + b j) - m j) / √(v j + ε) * g j + β j) 0,
  which is the specification's `bnR` of the row's dot product; two of them after the sum of the neighbour sums and the
  features are one GIN layer (`Spec.layerArr`), and one of them, a dense layer into 40 logits and a row-wise
  log-softmax are the head (`Spec.headArr`). Each stage is written with the program's own operations, so the
  program's term is such a stage by unfolding; here each stage is read at an index.
-/
import proofs.«137670_j89919435309328_2_alg».proof.Proof.Gen.ReferenceIdeal
import proofs.«137670_j89919435309328_2_alg».proof.Proof.Spec
import Idealize.ShloMosaic.Lib.Pipeline.Value
import Idealize.ShloMosaic.Lib.ValueIdx
import Idealize.ShloMosaic.Lib.StackMember
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Broadcasts, named, and read at an index -/

section Broadcasts
variable {α : Type}

/-- A scalar word broadcast to a whole array of shape `t`. -/
def splatF32 (t : Shape) (h : S_.BroadcastsInDim t ![]) (w : BitVec 32) : FVec Ideal t .f32 :=
  broadcastInDim t ![] h (constant (F := Ideal) S_ .f32 w)

/-- It reads the number the word denotes, everywhere. -/
theorem splatF32_apply (t : Shape) (h : S_.BroadcastsInDim t ![]) (w : BitVec 32) (i : t.Idx) :
    splatF32 t h w i = Ideal.ofBits .f32 w :=
  broadcastInDim_apply _ h (constant (F := Ideal) S_ .f32 w) i ix0 (fun a => a.elim0)

/-- A vector of 128 numbers copied into every one of the 50000 rows. -/
def rowB128 (b : S128.Idx → α) : S50000x128.Idx → α :=
  broadcastInDim S50000x128 ![0, 1] bcast_S1x128_S50000x128_0_1 (broadcastInDim S1x128 ![1] bcast_S128_S1x128_1 b)

/-- Entry `(r, j)` of it is entry `j` of the vector. -/
theorem rowB128_apply (b : S128.Idx → α) (r : Fin 50000) (j : Fin 128) : rowB128 b (ix2 r j) = b (ix1 j) :=
  (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans
  (broadcastInDim_apply _ bcast_S128_S1x128_1 b (ix2 (0 : Fin 1) j) (ix1 j) (fun a => match a with
    | ⟨0, _⟩ => by show j.val = if (128 : Nat) = 1 then 0 else j.val; rw [if_neg (by decide)]))

/-- A vector of 64 numbers copied into every one of the 50000 rows. -/
def rowB64 (b : S64.Idx → α) : S50000x64.Idx → α :=
  broadcastInDim S50000x64 ![0, 1] bcast_S1x64_S50000x64_0_1 (broadcastInDim S1x64 ![1] bcast_S64_S1x64_1 b)

/-- Entry `(r, j)` of it is entry `j` of the vector. -/
theorem rowB64_apply (b : S64.Idx → α) (r : Fin 50000) (j : Fin 64) : rowB64 b (ix2 r j) = b (ix1 j) :=
  (broadcastInDim_apply _ bcast_S1x64_S50000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans
  (broadcastInDim_apply _ bcast_S64_S1x64_1 b (ix2 (0 : Fin 1) j) (ix1 j) (fun a => match a with
    | ⟨0, _⟩ => by show j.val = if (64 : Nat) = 1 then 0 else j.val; rw [if_neg (by decide)]))

/-- A vector of 40 numbers copied into every one of the 50000 rows. -/
def rowB40 (b : S40.Idx → α) : S50000x40.Idx → α :=
  broadcastInDim S50000x40 ![0, 1] bcast_S1x40_S50000x40_0_1 (broadcastInDim S1x40 ![1] bcast_S40_S1x40_1 b)

/-- Entry `(r, j)` of it is entry `j` of the vector. -/
theorem rowB40_apply (b : S40.Idx → α) (r : Fin 50000) (j : Fin 40) : rowB40 b (ix2 r j) = b (ix1 j) :=
  (broadcastInDim_apply _ bcast_S1x40_S50000x40_0_1 _ (ix2 r j) (ix2 (0 : Fin 1) j) (fun a => match a with
    | ⟨0, _⟩ => by show 0 = if (1 : Nat) = 1 then 0 else r.val; rw [if_pos rfl]
    | ⟨1, _⟩ => by show j.val = if (40 : Nat) = 1 then 0 else j.val; rw [if_neg (by decide)])).trans
  (broadcastInDim_apply _ bcast_S40_S1x40_1 b (ix2 (0 : Fin 1) j) (ix1 j) (fun a => match a with
    | ⟨0, _⟩ => by show j.val = if (40 : Nat) = 1 then 0 else j.val; rw [if_neg (by decide)]))

/-- A column of 50000 numbers as a 50000 × 1 array. -/
def col1 (y : S50000.Idx → α) : S50000x1.Idx → α := broadcastInDim S50000x1 ![0] bcast_S50000_S50000x1_0 y

/-- Entry `(r, 0)` of it is entry `r` of the column. -/
theorem col1_apply (y : S50000.Idx → α) (r : Fin 50000) : col1 y (ix2 r (0 : Fin 1)) = y (ix1 r) :=
  broadcastInDim_apply _ bcast_S50000_S50000x1_0 y (ix2 r (0 : Fin 1)) (ix1 r) (fun a => match a with
    | ⟨0, _⟩ => by show r.val = if (50000 : Nat) = 1 then 0 else r.val; rw [if_neg (by decide)])

/-- A 50000 × 1 array copied along 40 columns. -/
def col40 (f : S50000x1.Idx → α) : S50000x40.Idx → α := broadcastInDim S50000x40 ![0, 1] bcast_S50000x1_S50000x40_0_1 f

/-- Entry `(r, q)` of it is entry `(r, 0)` of the array. -/
theorem col40_apply (f : S50000x1.Idx → α) (r : Fin 50000) (q : Fin 40) : col40 f (ix2 r q) = f (ix2 r (0 : Fin 1)) :=
  broadcastInDim_apply _ bcast_S50000x1_S50000x40_0_1 f (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

end Broadcasts

/-! ## The four matrix products read at an index -/

theorem dot64x128_apply (h : FVec Ideal S50000x64 .f32) (W : FVec Ideal S64x128 .f32) (r : Fin 50000) (j : Fin 128) :
    Host.dotGeneral dot_S50000x64_S64x128_S50000x128_1_0_0_1_n_n none h W (ix2 r j) = ∑ k : Fin 64, h (ix2 r k) * W (ix2 k j) :=
  StackMember.dotGeneral_plain_apply none h W r j

theorem dot128x64_apply (h : FVec Ideal S50000x128 .f32) (W : FVec Ideal S128x64 .f32) (r : Fin 50000) (q : Fin 64) :
    Host.dotGeneral dot_S50000x128_S128x64_S50000x64_1_0_0_1_n_n none h W (ix2 r q) = ∑ j : Fin 128, h (ix2 r j) * W (ix2 j q) :=
  StackMember.dotGeneral_plain_apply none h W r q

theorem dot64x64_apply (h : FVec Ideal S50000x64 .f32) (W : FVec Ideal S64x64 .f32) (r : Fin 50000) (j : Fin 64) :
    Host.dotGeneral dot_S50000x64_S64x64_S50000x64_1_0_0_1_n_n none h W (ix2 r j) = ∑ k : Fin 64, h (ix2 r k) * W (ix2 k j) :=
  StackMember.dotGeneral_plain_apply none h W r j

theorem dot64x40_apply (h : FVec Ideal S50000x64 .f32) (W : FVec Ideal S64x40 .f32) (r : Fin 50000) (q : Fin 40) :
    Host.dotGeneral dot_S50000x64_S64x40_S50000x40_1_0_0_1_n_n none h W (ix2 r q) = ∑ j : Fin 64, h (ix2 r j) * W (ix2 j q) :=
  StackMember.dotGeneral_plain_apply none h W r q

/-! ## Dense layer, batch norm, positive part -/

/-- 64 → 128: the first half of a GIN layer's perceptron. -/
def denseBn128 (h : FVec Ideal S50000x64 .f32) (W : FVec Ideal S64x128 .f32) (b g bt m v : FVec Ideal S128 .f32) :
    FVec Ideal S50000x128 .f32 :=
  maximumf (addf (mulf (Host.divf (subf (addf (Host.dotGeneral dot_S50000x64_S64x128_S50000x128_1_0_0_1_n_n none h W) (rowB128 b)) (rowB128 m)) (rowB128 (Host.sqrt (addf v (splatF32 S128 bcast_S_S128 0x3727C5AC#32))))) (rowB128 g)) (rowB128 bt)) (splatF32 S50000x128 bcast_S_S50000x128 0x00000000#32)

/-- 128 → 64: the second half, under the layer's own batch norm. -/
def denseBn64 (h : FVec Ideal S50000x128 .f32) (W : FVec Ideal S128x64 .f32) (b g bt m v : FVec Ideal S64 .f32) :
    FVec Ideal S50000x64 .f32 :=
  maximumf (addf (mulf (Host.divf (subf (addf (Host.dotGeneral dot_S50000x128_S128x64_S50000x64_1_0_0_1_n_n none h W) (rowB64 b)) (rowB64 m)) (rowB64 (Host.sqrt (addf v (splatF32 S64 bcast_S_S64 0x3727C5AC#32))))) (rowB64 g)) (rowB64 bt)) (splatF32 S50000x64 bcast_S_S50000x64 0x00000000#32)

/-- 64 → 64: the head's first dense layer. -/
def denseBnHead (h : FVec Ideal S50000x64 .f32) (W : FVec Ideal S64x64 .f32) (b g bt m v : FVec Ideal S64 .f32) :
    FVec Ideal S50000x64 .f32 :=
  maximumf (addf (mulf (Host.divf (subf (addf (Host.dotGeneral dot_S50000x64_S64x64_S50000x64_1_0_0_1_n_n none h W) (rowB64 b)) (rowB64 m)) (rowB64 (Host.sqrt (addf v (splatF32 S64 bcast_S_S64 0x3727C5AC#32))))) (rowB64 g)) (rowB64 bt)) (splatF32 S50000x64 bcast_S_S50000x64 0x00000000#32)

theorem denseBn128_apply (h : FVec Ideal S50000x64 .f32) (W : FVec Ideal S64x128 .f32) (b g bt m v : FVec Ideal S128 .f32)
    (r : Fin 50000) (j : Fin 128) :
    denseBn128 h W b g bt m v (ix2 r j)
      = Spec.bnR (∑ k : Fin 64, h (ix2 r k) * W (ix2 k j)) (b (ix1 j)) (m (ix1 j)) (v (ix1 j)) (g (ix1 j)) (bt (ix1 j)) := by
  unfold denseBn128 Cert.Spec.bnR Cert.Spec.eps
  simp only [maximumf_apply, addf_apply, mulf_apply, subf_apply, Host.divf, Host.sqrt, dot64x128_apply, rowB128_apply,
    splatF32_apply, Ideal.hostDivf_def, Ideal.hostUnary_sqrt_def, Ideal.ofBits_zero_f32]

theorem denseBn64_apply (h : FVec Ideal S50000x128 .f32) (W : FVec Ideal S128x64 .f32) (b g bt m v : FVec Ideal S64 .f32)
    (r : Fin 50000) (q : Fin 64) :
    denseBn64 h W b g bt m v (ix2 r q)
      = Spec.bnR (∑ j : Fin 128, h (ix2 r j) * W (ix2 j q)) (b (ix1 q)) (m (ix1 q)) (v (ix1 q)) (g (ix1 q)) (bt (ix1 q)) := by
  unfold denseBn64 Cert.Spec.bnR Cert.Spec.eps
  simp only [maximumf_apply, addf_apply, mulf_apply, subf_apply, Host.divf, Host.sqrt, dot128x64_apply, rowB64_apply,
    splatF32_apply, Ideal.hostDivf_def, Ideal.hostUnary_sqrt_def, Ideal.ofBits_zero_f32]

theorem denseBnHead_apply (h : FVec Ideal S50000x64 .f32) (W : FVec Ideal S64x64 .f32) (b g bt m v : FVec Ideal S64 .f32)
    (r : Fin 50000) (j : Fin 64) :
    denseBnHead h W b g bt m v (ix2 r j)
      = Spec.bnR (∑ k : Fin 64, h (ix2 r k) * W (ix2 k j)) (b (ix1 j)) (m (ix1 j)) (v (ix1 j)) (g (ix1 j)) (bt (ix1 j)) := by
  unfold denseBnHead Cert.Spec.bnR Cert.Spec.eps
  simp only [maximumf_apply, addf_apply, mulf_apply, subf_apply, Host.divf, Host.sqrt, dot64x64_apply, rowB64_apply,
    splatF32_apply, Ideal.hostDivf_def, Ideal.hostUnary_sqrt_def, Ideal.ofBits_zero_f32]

/-! ## One GIN layer -/

/-- The layer as the program computes it from the neighbour sums, the features and the layer's parameters. -/
def refLayer (agg x : FVec Ideal S50000x64 .f32) (W1 : FVec Ideal S64x128 .f32) (b1 g1 bt1 m1 v1 : FVec Ideal S128 .f32)
    (W2 : FVec Ideal S128x64 .f32) (b2 gc bc mc vc : FVec Ideal S64 .f32) : FVec Ideal S50000x64 .f32 :=
  denseBn64 (denseBn128 (addf agg x) W1 b1 g1 bt1 m1 v1) W2 b2 gc bc mc vc

/-- … is the specification's layer, with the reference's batch-norm spelling. -/
theorem refLayer_eq (agg x : FVec Ideal S50000x64 .f32) (W1 : FVec Ideal S64x128 .f32) (b1 g1 bt1 m1 v1 : FVec Ideal S128 .f32)
    (W2 : FVec Ideal S128x64 .f32) (b2 gc bc mc vc : FVec Ideal S64 .f32) :
    refLayer agg x W1 b1 g1 bt1 m1 v1 W2 b2 gc bc mc vc
      = Cert.Spec.layerArr Cert.Spec.bnR 50000 agg x W1 b1 g1 bt1 m1 v1 W2 b2 gc bc mc vc := by
  funext i
  obtain ⟨r, q, rfl⟩ : ∃ (r : Fin 50000) (q : Fin 64), i = ix2 r q := ⟨i 0, i 1, eq_ix2 i⟩
  show refLayer agg x W1 b1 g1 bt1 m1 v1 W2 b2 gc bc mc vc (ix2 r q)
    = Cert.Spec.layerRow Cert.Spec.bnR (fun k => agg (ix2 r k) + x (ix2 r k)) (fun k j => W1 (ix2 k j))
        (fun j => b1 (ix1 j)) (fun j => g1 (ix1 j)) (fun j => bt1 (ix1 j)) (fun j => m1 (ix1 j)) (fun j => v1 (ix1 j))
        (fun j q => W2 (ix2 j q)) (fun q => b2 (ix1 q)) (fun q => gc (ix1 q)) (fun q => bc (ix1 q)) (fun q => mc (ix1 q))
        (fun q => vc (ix1 q)) q
  unfold refLayer Cert.Spec.layerRow
  rw [denseBn64_apply]
  simp only [denseBn128_apply, addf_apply]

/-! ## The head -/

/-- The bit pattern of `-∞` denotes the bottom of the extended reals. -/
theorem ofBits_negInf_f32 : Ideal.ofBits .f32 0xFF800000#32 = ⊥ := by simp [Ideal.ofBits, Ideal.ieee]

/-- A row's largest entry, as the host folds it from `-∞`. -/
theorem hostRowMax_apply (l : FVec Ideal S50000x40 .f32) (r : Fin 50000) :
    Host.reduce (FloatOps.maximumf (F := Ideal) (φ := .f32)) l (constant (F := Ideal) S_ .f32 0xFF800000#32) reducesTo_S50000x40_S50000_d1 h_S_ (ix1 r)
      = Cert.Spec.rowMax (fun k => l (ix2 r k)) := by
  have h : S50000x40.Reduces [1] S50000 := by decide
  rw [Host.reduce_eq_fold_single (FloatOps.maximumf (F := Ideal) (φ := .f32)) l _ reducesTo_S50000x40_S50000_d1 h h_S_]
  have hf : (l ∘ h.lift (ix1 r)) = fun k : Fin 40 => l (ix2 r k) :=
    funext fun k => congrArg l (funext fun c => Fin.ext (by fin_cases c <;> rfl))
  refine (congrArg (fun f => Finset.fold max (Ideal.ofBits .f32 0xFF800000#32) f (Finset.univ : Finset (Fin 40))) hf).trans ?_
  rw [ofBits_negInf_f32]
  unfold Cert.Spec.rowMax
  with_reducible rfl

/-- A row's sum, as the host adds it up from zero. -/
theorem hostRowSum_apply (y : FVec Ideal S50000x40 .f32) (r : Fin 50000) :
    Host.reduceAdd y (constant (F := Ideal) S_ .f32 0x00000000#32) reducesTo_S50000x40_S50000_d1 h_S_ (ix1 r)
      = ∑ k : Fin 40, y (ix2 r k) := by
  simp only [Host.reduceAdd, Ideal.hostReduceAdd_def]
  rw [Ideal.hostReduceAdd_single reducesTo_S50000x40_S50000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The 40 logits of every row. -/
def refLogits (h : FVec Ideal S50000x64 .f32) (W : FVec Ideal S64x40 .f32) (b : FVec Ideal S40 .f32) : FVec Ideal S50000x40 .f32 :=
  addf (Host.dotGeneral dot_S50000x64_S64x40_S50000x40_1_0_0_1_n_n none h W) (rowB40 b)

theorem refLogits_apply (h : FVec Ideal S50000x64 .f32) (W : FVec Ideal S64x40 .f32) (b : FVec Ideal S40 .f32) (r : Fin 50000) (q : Fin 40) :
    refLogits h W b (ix2 r q) = (∑ j : Fin 64, h (ix2 r j) * W (ix2 j q)) + b (ix1 q) := by
  unfold refLogits
  simp only [addf_apply, dot64x40_apply, rowB40_apply]

/-- The host's logarithm and exponential read at an index (the operand a variable, so nothing is evaluated). -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- Every row's largest logit, as the program computes it (a maximum with `-∞` after the fold from `-∞`). -/
def refRowMax (l : FVec Ideal S50000x40 .f32) : FVec Ideal S50000 .f32 :=
  maximumf (splatF32 S50000 bcast_S_S50000 0xFF800000#32) (Host.reduce (FloatOps.maximumf (F := Ideal) (φ := .f32)) l (constant (F := Ideal) S_ .f32 0xFF800000#32) reducesTo_S50000x40_S50000_d1 h_S_)

theorem refRowMax_apply (l : FVec Ideal S50000x40 .f32) (r : Fin 50000) :
    refRowMax l (ix1 r) = Cert.Spec.rowMax (fun k => l (ix2 r k)) := by
  unfold refRowMax
  rw [maximumf_apply, splatF32_apply, hostRowMax_apply, ofBits_negInf_f32]
  exact max_bot_left _

/-- The logits shifted by their row's largest. -/
def refShifted (l : FVec Ideal S50000x40 .f32) : FVec Ideal S50000x40 .f32 :=
  subf l (col40 (col1 (refRowMax l)))

theorem refShifted_apply (l : FVec Ideal S50000x40 .f32) (r : Fin 50000) (k : Fin 40) :
    refShifted l (ix2 r k) = l (ix2 r k) - Cert.Spec.rowMax (fun k => l (ix2 r k)) := by
  unfold refShifted
  rw [subf_apply, col40_apply, col1_apply, refRowMax_apply]

/-- Every row's sum of the exponentials of the shifted logits. -/
def refSumExp (l : FVec Ideal S50000x40 .f32) : FVec Ideal S50000 .f32 :=
  Host.reduceAdd (Host.exp (refShifted l)) (constant (F := Ideal) S_ .f32 0x00000000#32) reducesTo_S50000x40_S50000_d1 h_S_

theorem refSumExp_apply (l : FVec Ideal S50000x40 .f32) (r : Fin 50000) :
    refSumExp l (ix1 r) = ∑ k : Fin 40, Ideal.exp (l (ix2 r k) - Cert.Spec.rowMax (fun k => l (ix2 r k))) := by
  unfold refSumExp
  rw [hostRowSum_apply]
  refine Finset.sum_congr rfl fun k _ => ?_
  rw [hostExp_apply, refShifted_apply]

/-- The row-wise log-softmax as the program computes it: shift by the row's largest entry, subtract the logarithm of the
    sum of the exponentials. -/
def refLogSoftmax (l : FVec Ideal S50000x40 .f32) : FVec Ideal S50000x40 .f32 :=
  subf (refShifted l) (col40 (Host.log (col1 (refSumExp l))))

theorem refLogSoftmax_apply (l : FVec Ideal S50000x40 .f32) (r : Fin 50000) (q : Fin 40) :
    refLogSoftmax l (ix2 r q) = Cert.Spec.logSoftmax (fun k => l (ix2 r k)) q := by
  unfold refLogSoftmax Cert.Spec.logSoftmax
  rw [subf_apply, col40_apply, refShifted_apply, hostLog_apply, col1_apply, refSumExp_apply]

/-- The head as the program computes it from the last layer's features and the head's parameters. -/
def refHead (x : FVec Ideal S50000x64 .f32) (W1 : FVec Ideal S64x64 .f32) (b1 g bt m v : FVec Ideal S64 .f32)
    (W2 : FVec Ideal S64x40 .f32) (b2 : FVec Ideal S40 .f32) : FVec Ideal S50000x40 .f32 :=
  refLogSoftmax (refLogits (denseBnHead x W1 b1 g bt m v) W2 b2)

/-- … is the specification's head, with the reference's batch-norm spelling. -/
theorem refHead_eq (x : FVec Ideal S50000x64 .f32) (W1 : FVec Ideal S64x64 .f32) (b1 g bt m v : FVec Ideal S64 .f32)
    (W2 : FVec Ideal S64x40 .f32) (b2 : FVec Ideal S40 .f32) :
    refHead x W1 b1 g bt m v W2 b2 = Cert.Spec.headArr Cert.Spec.bnR 50000 x W1 b1 g bt m v W2 b2 := by
  funext i
  obtain ⟨r, q, rfl⟩ : ∃ (r : Fin 50000) (q : Fin 40), i = ix2 r q := ⟨i 0, i 1, eq_ix2 i⟩
  show refHead x W1 b1 g bt m v W2 b2 (ix2 r q)
    = Cert.Spec.logSoftmax (Cert.Spec.logitsRow Cert.Spec.bnR (fun k => x (ix2 r k)) (fun k j => W1 (ix2 k j))
        (fun j => b1 (ix1 j)) (fun j => g (ix1 j)) (fun j => bt (ix1 j)) (fun j => m (ix1 j)) (fun j => v (ix1 j))
        (fun j q => W2 (ix2 j q)) (fun q => b2 (ix1 q))) q
  unfold refHead
  rw [refLogSoftmax_apply]
  refine congrArg (fun f => Cert.Spec.logSoftmax f q) (funext fun k => ?_)
  unfold Cert.Spec.logitsRow
  simp only [refLogits_apply, denseBnHead_apply]

end Cert.ReferenceIdeal.RefValue

end
-- ==== Proof.RefRead.lean ====
/-
  Each group of the reference's host operations read back as a function of the buffer contents it starts from: the two
  edge rows; per layer the features plus their neighbour sums, the first dense layer, its batch norm and positive part,
  the second dense layer, its batch norm and positive part; the head's three stages. The functions are the stage
  functions of `RefStages`, cut where the groups are cut.
-/
import proofs.«137670_j89919435309328_2_alg».proof.Proof.RefPieces
import proofs.«137670_j89919435309328_2_alg».proof.Proof.RefPiecesHL
import proofs.«137670_j89919435309328_2_alg».proof.Proof.RefGlue
import proofs.«137670_j89919435309328_2_alg».proof.Proof.RefStages

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.RefPieces

/-! ## The stage functions, cut at the groups' ends -/

/-- The edges' sources: row 0 of the edge array. -/
def eSrc (ei : IVec S2x800000 32) : IVec S800000 32 :=
  shapeCast _ (extractStridedSlice S1x800000 ![0, 0] ei slices_S2x800000_S1x800000_0_0) shapeCasts_S1x800000_S800000

/-- The edges' destinations: row 1 of the edge array. -/
def eDst (ei : IVec S2x800000 32) : IVec S800000 32 :=
  shapeCast _ (extractStridedSlice S1x800000 ![1, 0] ei slices_S2x800000_S1x800000_1_0) shapeCasts_S1x800000_S800000

/-- The neighbour sums of `x` along sources `s` and destinations `d`. -/
def aggOf (x : FVec Ideal S50000x64 .f32) (s d : IVec S800000 32) : FVec Ideal S50000x64 .f32 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 d) (Host.gather gather_S50000x64_S800000x1_S800000x64_1_0_n_n_0_1_164 x (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))

/-- Along the two rows of one edge array these are `refAgg`. -/
theorem aggOf_edges (x : FVec Ideal S50000x64 .f32) (ei : IVec S2x800000 32) : aggOf x (eSrc ei) (eDst ei) = refAgg x ei := rfl

/-- The first dense layer before its batch norm. -/
def pre128 (h : FVec Ideal S50000x64 .f32) (W : FVec Ideal S64x128 .f32) (b : FVec Ideal S128 .f32) : FVec Ideal S50000x128 .f32 :=
  addf (Host.dotGeneral dot_S50000x64_S64x128_S50000x128_1_0_0_1_n_n none h W) (rowB128 b)

/-- Batch norm and positive part on 128 columns. -/
def bnRelu128 (z : FVec Ideal S50000x128 .f32) (g bt m v : FVec Ideal S128 .f32) : FVec Ideal S50000x128 .f32 :=
  maximumf (addf (mulf (Host.divf (subf z (rowB128 m)) (rowB128 (Host.sqrt (addf v (splatF32 S128 bcast_S_S128 0x3727C5AC#32))))) (rowB128 g)) (rowB128 bt)) (splatF32 S50000x128 bcast_S_S50000x128 0x00000000#32)

/-- The second dense layer before its batch norm. -/
def pre64 (h : FVec Ideal S50000x128 .f32) (W : FVec Ideal S128x64 .f32) (b : FVec Ideal S64 .f32) : FVec Ideal S50000x64 .f32 :=
  addf (Host.dotGeneral dot_S50000x128_S128x64_S50000x64_1_0_0_1_n_n none h W) (rowB64 b)

/-- Batch norm and positive part on 64 columns. -/
def bnRelu64 (z : FVec Ideal S50000x64 .f32) (g bt m v : FVec Ideal S64 .f32) : FVec Ideal S50000x64 .f32 :=
  maximumf (addf (mulf (Host.divf (subf z (rowB64 m)) (rowB64 (Host.sqrt (addf v (splatF32 S64 bcast_S_S64 0x3727C5AC#32))))) (rowB64 g)) (rowB64 bt)) (splatF32 S50000x64 bcast_S_S50000x64 0x00000000#32)

/-- A layer is its five stages in a row. -/
theorem refLayer_stages (agg x : FVec Ideal S50000x64 .f32) (W1 : FVec Ideal S64x128 .f32) (b1 g1 bt1 m1 v1 : FVec Ideal S128 .f32)
    (W2 : FVec Ideal S128x64 .f32) (b2 gc bc mc vc : FVec Ideal S64 .f32) :
    bnRelu64 (pre64 (bnRelu128 (pre128 (addf agg x) W1 b1) g1 bt1 m1 v1) W2 b2) gc bc mc vc
      = refLayer agg x W1 b1 g1 bt1 m1 v1 W2 b2 gc bc mc vc := rfl

variable (V : Valuation τ sig (Elt Ideal))

/-! ## The edge rows -/

theorem readSrc : after pEdges V (Proc.devRef .tc main_v1) = eSrc (V (Proc.devRef .tc main_arg1)) := by
  after_results_simp <;> rfl
theorem readDst : after pEdges V (Proc.devRef .tc main_v3) = eDst (V (Proc.devRef .tc main_arg1)) := by
  after_results_simp <;> rfl

/-! ## The layers' stages -/

theorem readA0 : after pA0 V (Proc.devRef .tc main_v14)
    = addf (aggOf (V (Proc.devRef .tc main_arg0)) (V (Proc.devRef .tc main_v1)) (V (Proc.devRef .tc main_v3))) (V (Proc.devRef .tc main_arg0)) := by
  after_results_simp <;> rfl
theorem readB0 : after pB0 V (Proc.devRef .tc main_v22)
    = pre128 (V (Proc.devRef .tc main_v14)) (refW1 0 (V (Proc.devRef .tc main_arg2))) (refB1 0 (V (Proc.devRef .tc main_arg3))) := by
  after_results_simp <;> rfl
theorem readC0 : after pC0 V (Proc.devRef .tc main_v46)
    = bnRelu128 (V (Proc.devRef .tc main_v22)) (refG1 0 (V (Proc.devRef .tc main_arg4))) (refBt1 0 (V (Proc.devRef .tc main_arg5))) (refM1 0 (V (Proc.devRef .tc main_arg6))) (refV1 0 (V (Proc.devRef .tc main_arg7))) := by
  after_results_simp <;> rfl
theorem readD0 : after pD0 V (Proc.devRef .tc main_v54)
    = pre64 (V (Proc.devRef .tc main_v46)) (refW2 0 (V (Proc.devRef .tc main_arg8))) (refB2 0 (V (Proc.devRef .tc main_arg9))) := by
  after_results_simp <;> rfl
theorem readE0 : after pE0 V (Proc.devRef .tc main_v78)
    = bnRelu64 (V (Proc.devRef .tc main_v54)) (refGc 0 (V (Proc.devRef .tc main_arg10))) (refBc 0 (V (Proc.devRef .tc main_arg11))) (refMc 0 (V (Proc.devRef .tc main_arg12))) (refVc 0 (V (Proc.devRef .tc main_arg13))) := by
  after_results_simp <;> rfl

theorem readA1 : after pA1 V (Proc.devRef .tc main_v89)
    = addf (aggOf (V (Proc.devRef .tc main_v78)) (V (Proc.devRef .tc main_v1)) (V (Proc.devRef .tc main_v3))) (V (Proc.devRef .tc main_v78)) := by
  after_results_simp <;> rfl
theorem readB1 : after pB1 V (Proc.devRef .tc main_v97)
    = pre128 (V (Proc.devRef .tc main_v89)) (refW1 1 (V (Proc.devRef .tc main_arg2))) (refB1 1 (V (Proc.devRef .tc main_arg3))) := by
  after_results_simp <;> rfl
theorem readC1 : after pC1 V (Proc.devRef .tc main_v121)
    = bnRelu128 (V (Proc.devRef .tc main_v97)) (refG1 1 (V (Proc.devRef .tc main_arg4))) (refBt1 1 (V (Proc.devRef .tc main_arg5))) (refM1 1 (V (Proc.devRef .tc main_arg6))) (refV1 1 (V (Proc.devRef .tc main_arg7))) := by
  after_results_simp <;> rfl
theorem readD1 : after pD1 V (Proc.devRef .tc main_v129)
    = pre64 (V (Proc.devRef .tc main_v121)) (refW2 1 (V (Proc.devRef .tc main_arg8))) (refB2 1 (V (Proc.devRef .tc main_arg9))) := by
  after_results_simp <;> rfl
theorem readE1 : after pE1 V (Proc.devRef .tc main_v153)
    = bnRelu64 (V (Proc.devRef .tc main_v129)) (refGc 1 (V (Proc.devRef .tc main_arg10))) (refBc 1 (V (Proc.devRef .tc main_arg11))) (refMc 1 (V (Proc.devRef .tc main_arg12))) (refVc 1 (V (Proc.devRef .tc main_arg13))) := by
  after_results_simp <;> rfl

theorem readA2 : after pA2 V (Proc.devRef .tc main_v164)
    = addf (aggOf (V (Proc.devRef .tc main_v153)) (V (Proc.devRef .tc main_v1)) (V (Proc.devRef .tc main_v3))) (V (Proc.devRef .tc main_v153)) := by
  after_results_simp <;> rfl
theorem readB2 : after pB2 V (Proc.devRef .tc main_v172)
    = pre128 (V (Proc.devRef .tc main_v164)) (refW1 2 (V (Proc.devRef .tc main_arg2))) (refB1 2 (V (Proc.devRef .tc main_arg3))) := by
  after_results_simp <;> rfl
theorem readC2 : after pC2 V (Proc.devRef .tc main_v196)
    = bnRelu128 (V (Proc.devRef .tc main_v172)) (refG1 2 (V (Proc.devRef .tc main_arg4))) (refBt1 2 (V (Proc.devRef .tc main_arg5))) (refM1 2 (V (Proc.devRef .tc main_arg6))) (refV1 2 (V (Proc.devRef .tc main_arg7))) := by
  after_results_simp <;> rfl
theorem readD2 : after pD2 V (Proc.devRef .tc main_v204)
    = pre64 (V (Proc.devRef .tc main_v196)) (refW2 2 (V (Proc.devRef .tc main_arg8))) (refB2 2 (V (Proc.devRef .tc main_arg9))) := by
  after_results_simp <;> rfl
theorem readE2 : after pE2 V (Proc.devRef .tc main_v228)
    = bnRelu64 (V (Proc.devRef .tc main_v204)) (refGc 2 (V (Proc.devRef .tc main_arg10))) (refBc 2 (V (Proc.devRef .tc main_arg11))) (refMc 2 (V (Proc.devRef .tc main_arg12))) (refVc 2 (V (Proc.devRef .tc main_arg13))) := by
  after_results_simp <;> rfl

/-! ## The head's stages -/

theorem readHC : after pHC V (Proc.devRef .tc main_v248)
    = denseBnHead (V (Proc.devRef .tc main_v228)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  after_results_simp <;> rfl
theorem readHD : after pHD V (Proc.devRef .tc main_v252)
    = refLogits (V (Proc.devRef .tc main_v248)) (V (Proc.devRef .tc main_arg20)) (V (Proc.devRef .tc main_arg21)) := by
  after_results_simp <;> rfl
theorem readHL : after pHL V (Proc.devRef .tc main_v253) = refLogSoftmax (V (Proc.devRef .tc main_v252)) := by
  rw [pHL_plain]
  after_results_simp <;> rfl

end Cert.ReferenceIdeal.RefValue

end
-- ==== Proof.RefSide.lean ====
/-
  The reference program computes the network of `Model` in the reference's batch-norm spelling: from the argument arrays
  `a0 … a21` (the features, the edge list, the three layers' stacked parameters, the head's parameters) its result is
      headArr bnR (X3) a14 … a21,   X(l+1) = layerArr bnR (refAgg Xl a1) Xl (layer l's slices of a2 … a13),   X0 = a0.
  The buffer contents after the whole operation list are the contents after its groups in a row; each group is read
  back as its stage function of the contents before it (`RefRead`); the argument arrays and the two edge rows keep their
  contents through every later group; so a layer's five groups compute the layer's stage function of the layer's input
  and of the arguments, the head's three groups the head's, and the stage functions are the specification's
  (`refLayer_eq`, `refHead_eq`).
-/
import proofs.«137670_j89919435309328_2_alg».proof.Proof.RefRunP
import proofs.«137670_j89919435309328_2_alg».proof.Proof.RefKept
import proofs.«137670_j89919435309328_2_alg».proof.Proof.RefPieces
import proofs.«137670_j89919435309328_2_alg».proof.Proof.RefRead
import proofs.«137670_j89919435309328_2_alg».proof.Proof.Model
import Idealize.ShloMosaic.Lib.Pipeline.Regions

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.RefPieces Idealize.ShloMosaic.ValueIdx

/-! ## The program's layers and result as compositions of its stage functions -/

/-- Layer `l` as the program computes it from the features `x`. -/
def progLayer (l : Fin 3) (x : FVec Ideal S50000x64 .f32) (a1 : IVec S2x800000 32) (a2 : FVec Ideal S3x64x128 .f32) (a3 a4 a5 a6 a7 : FVec Ideal S3x128 .f32) (a8 : FVec Ideal S3x128x64 .f32) (a9 a10 a11 a12 a13 : FVec Ideal S3x64 .f32) : FVec Ideal S50000x64 .f32 :=
  refLayer (refAgg x a1) x (refW1 l a2) (refB1 l a3) (refG1 l a4) (refBt1 l a5) (refM1 l a6) (refV1 l a7) (refW2 l a8) (refB2 l a9) (refGc l a10) (refBc l a11) (refMc l a12) (refVc l a13)

/-- … is the model's layer `l` in the reference's spelling. -/
theorem progLayer_eq (l : Fin 3) (x : FVec Ideal S50000x64 .f32) (a1 : IVec S2x800000 32) (a2 : FVec Ideal S3x64x128 .f32) (a3 a4 a5 a6 a7 : FVec Ideal S3x128 .f32) (a8 : FVec Ideal S3x128x64 .f32) (a9 a10 a11 a12 a13 : FVec Ideal S3x64 .f32) :
    progLayer l x a1 a2 a3 a4 a5 a6 a7 a8 a9 a10 a11 a12 a13 = Cert.Model.layer Cert.Spec.bnR l x a1 a2 a3 a4 a5 a6 a7 a8 a9 a10 a11 a12 a13 :=
  refLayer_eq _ _ _ _ _ _ _ _ _ _ _ _ _ _

/-- The result as the program computes it: three layers, then the head. -/
def progOut (a0 : FVec Ideal S50000x64 .f32) (a1 : IVec S2x800000 32) (a2 : FVec Ideal S3x64x128 .f32) (a3 a4 a5 a6 a7 : FVec Ideal S3x128 .f32) (a8 : FVec Ideal S3x128x64 .f32) (a9 a10 a11 a12 a13 : FVec Ideal S3x64 .f32) (a14 : FVec Ideal S64x64 .f32) (a15 a16 a17 a18 a19 : FVec Ideal S64 .f32) (a20 : FVec Ideal S64x40 .f32) (a21 : FVec Ideal S40 .f32) : FVec Ideal S50000x40 .f32 :=
  refHead (progLayer 2 (progLayer 1 (progLayer 0 a0 a1 a2 a3 a4 a5 a6 a7 a8 a9 a10 a11 a12 a13) a1 a2 a3 a4 a5 a6 a7 a8 a9 a10 a11 a12 a13) a1 a2 a3 a4 a5 a6 a7 a8 a9 a10 a11 a12 a13) a14 a15 a16 a17 a18 a19 a20 a21

/-- … is the model's network in the reference's spelling. -/
theorem progOut_eq (a0 : FVec Ideal S50000x64 .f32) (a1 : IVec S2x800000 32) (a2 : FVec Ideal S3x64x128 .f32) (a3 a4 a5 a6 a7 : FVec Ideal S3x128 .f32) (a8 : FVec Ideal S3x128x64 .f32) (a9 a10 a11 a12 a13 : FVec Ideal S3x64 .f32) (a14 : FVec Ideal S64x64 .f32) (a15 a16 a17 a18 a19 : FVec Ideal S64 .f32) (a20 : FVec Ideal S64x40 .f32) (a21 : FVec Ideal S40 .f32) :
    progOut a0 a1 a2 a3 a4 a5 a6 a7 a8 a9 a10 a11 a12 a13 a14 a15 a16 a17 a18 a19 a20 a21 = Cert.Model.out Cert.Spec.bnR a0 a1 a2 a3 a4 a5 a6 a7 a8 a9 a10 a11 a12 a13 a14 a15 a16 a17 a18 a19 a20 a21 := by
  unfold progOut Cert.Model.out
  rw [progLayer_eq, progLayer_eq, progLayer_eq, refHead_eq]

/-! ## The operation list, group by group -/

/-- The program's operations are the groups in a row. -/
theorem ops_eq : (ValueP.ops : List (HloOp τ sig (Elt Ideal)))
    = pEdges ++ (pA0 ++ (pB0 ++ (pC0 ++ (pD0 ++ (pE0 ++ (pA1 ++ (pB1 ++ (pC1 ++ (pD1 ++ (pE1 ++ (pA2 ++ (pB2 ++ (pC2 ++ (pD2 ++ (pE2 ++ (pHC ++ (pHD ++ (pHL)))))))))))))))))) := by
  chain_rfl

/-- So the contents after the program are the contents after the groups in a row. -/
theorem after_pieces (V : Valuation τ sig (Elt Ideal)) :
    after ValueP.ops V = after pHL (after pHD (after pHC (after pE2 (after pD2 (after pC2 (after pB2 (after pA2 (after pE1 (after pD1 (after pC1 (after pB1 (after pA1 (after pE0 (after pD0 (after pC0 (after pB0 (after pA0 (after pEdges V)))))))))))))))))) := by
  rw [ops_eq]
  simp only [after_append]

/-! ## What every later group leaves alone: the argument arrays and the two edge rows -/

/-- The argument arrays' buffers. -/
def argList : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- Contents `W` that still hold `V`'s argument arrays, and the two edge rows of `V`'s edge array. -/
structure Kept (V W : Valuation τ sig (Elt Ideal)) : Prop where
  args : ∀ r ∈ argList, W (Proc.devRef .tc r) = V (Proc.devRef .tc r)
  src : W (Proc.devRef .tc main_v1) = eSrc (V (Proc.devRef .tc main_arg1))
  dst : W (Proc.devRef .tc main_v3) = eDst (V (Proc.devRef .tc main_arg1))

/-- A group that writes none of those buffers keeps the property. -/
theorem Kept.step {V W : Valuation τ sig (Elt Ideal)} (h : Kept V W) (P : List (HloOp τ sig (Elt Ideal))) (wr : List (Ref sig .tc))
    (hw : P.Forall fun op => op.writes ⊆ (wr.map (Proc.devRef (τ := τ) .tc)).toFinset)
    (hd : ∀ r ∈ main_v1 :: main_v3 :: argList, r ∉ wr) : Kept V (after P W) :=
  ⟨fun r hr => (after_of_writes_sub P W hw (hd r (List.mem_cons_of_mem _ (List.mem_cons_of_mem _ hr)))).trans (h.args r hr),
    (after_of_writes_sub P W hw (hd main_v1 (by simp))).trans h.src,
    (after_of_writes_sub P W hw (hd main_v3 (by simp))).trans h.dst⟩

theorem disjEdges : ∀ r ∈ argList, r ∉ wrEdges := by decide +kernel
theorem disjA0 : ∀ r ∈ main_v1 :: main_v3 :: argList, r ∉ wrA0 := by decide +kernel
theorem disjB0 : ∀ r ∈ main_v1 :: main_v3 :: argList, r ∉ wrB0 := by decide +kernel
theorem disjC0 : ∀ r ∈ main_v1 :: main_v3 :: argList, r ∉ wrC0 := by decide +kernel
theorem disjD0 : ∀ r ∈ main_v1 :: main_v3 :: argList, r ∉ wrD0 := by decide +kernel
theorem disjE0 : ∀ r ∈ main_v1 :: main_v3 :: argList, r ∉ wrE0 := by decide +kernel
theorem disjA1 : ∀ r ∈ main_v1 :: main_v3 :: argList, r ∉ wrA1 := by decide +kernel
theorem disjB1 : ∀ r ∈ main_v1 :: main_v3 :: argList, r ∉ wrB1 := by decide +kernel
theorem disjC1 : ∀ r ∈ main_v1 :: main_v3 :: argList, r ∉ wrC1 := by decide +kernel
theorem disjD1 : ∀ r ∈ main_v1 :: main_v3 :: argList, r ∉ wrD1 := by decide +kernel
theorem disjE1 : ∀ r ∈ main_v1 :: main_v3 :: argList, r ∉ wrE1 := by decide +kernel
theorem disjA2 : ∀ r ∈ main_v1 :: main_v3 :: argList, r ∉ wrA2 := by decide +kernel
theorem disjB2 : ∀ r ∈ main_v1 :: main_v3 :: argList, r ∉ wrB2 := by decide +kernel
theorem disjC2 : ∀ r ∈ main_v1 :: main_v3 :: argList, r ∉ wrC2 := by decide +kernel
theorem disjD2 : ∀ r ∈ main_v1 :: main_v3 :: argList, r ∉ wrD2 := by decide +kernel
theorem disjE2 : ∀ r ∈ main_v1 :: main_v3 :: argList, r ∉ wrE2 := by decide +kernel
theorem disjHC : ∀ r ∈ main_v1 :: main_v3 :: argList, r ∉ wrHC := by decide +kernel
theorem disjHD : ∀ r ∈ main_v1 :: main_v3 :: argList, r ∉ wrHD := by decide +kernel
theorem disjHL : ∀ r ∈ main_v1 :: main_v3 :: argList, r ∉ wrHL := by decide +kernel

/-! ## A layer's five groups, and the head's three -/

theorem layer0 (V W : Valuation τ sig (Elt Ideal)) (X : FVec Ideal S50000x64 .f32) (hK : Kept V W)
    (hx : W (Proc.devRef .tc main_arg0) = X) :
    Kept V (after pE0 (after pD0 (after pC0 (after pB0 (after pA0 (W))))))
    ∧ after pE0 (after pD0 (after pC0 (after pB0 (after pA0 (W))))) (Proc.devRef .tc main_v78)
        = progLayer 0 X (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have kA := hK.step pA0 wrA0 writesA0 disjA0
  have kB := kA.step pB0 wrB0 writesB0 disjB0
  have kC := kB.step pC0 wrC0 writesC0 disjC0
  have kD := kC.step pD0 wrD0 writesD0 disjD0
  have kE := kD.step pE0 wrE0 writesE0 disjE0
  refine ⟨kE, ?_⟩
  rw [readE0, kD.args main_arg10 (by decide +kernel), kD.args main_arg11 (by decide +kernel), kD.args main_arg12 (by decide +kernel), kD.args main_arg13 (by decide +kernel),
    readD0, kC.args main_arg8 (by decide +kernel), kC.args main_arg9 (by decide +kernel),
    readC0, kB.args main_arg4 (by decide +kernel), kB.args main_arg5 (by decide +kernel), kB.args main_arg6 (by decide +kernel), kB.args main_arg7 (by decide +kernel),
    readB0, kA.args main_arg2 (by decide +kernel), kA.args main_arg3 (by decide +kernel),
    readA0, hK.src, hK.dst, hx, aggOf_edges]
  exact refLayer_stages _ _ _ _ _ _ _ _ _ _ _ _ _ _

theorem layer1 (V W : Valuation τ sig (Elt Ideal)) (X : FVec Ideal S50000x64 .f32) (hK : Kept V W)
    (hx : W (Proc.devRef .tc main_v78) = X) :
    Kept V (after pE1 (after pD1 (after pC1 (after pB1 (after pA1 (W))))))
    ∧ after pE1 (after pD1 (after pC1 (after pB1 (after pA1 (W))))) (Proc.devRef .tc main_v153)
        = progLayer 1 X (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have kA := hK.step pA1 wrA1 writesA1 disjA1
  have kB := kA.step pB1 wrB1 writesB1 disjB1
  have kC := kB.step pC1 wrC1 writesC1 disjC1
  have kD := kC.step pD1 wrD1 writesD1 disjD1
  have kE := kD.step pE1 wrE1 writesE1 disjE1
  refine ⟨kE, ?_⟩
  rw [readE1, kD.args main_arg10 (by decide +kernel), kD.args main_arg11 (by decide +kernel), kD.args main_arg12 (by decide +kernel), kD.args main_arg13 (by decide +kernel),
    readD1, kC.args main_arg8 (by decide +kernel), kC.args main_arg9 (by decide +kernel),
    readC1, kB.args main_arg4 (by decide +kernel), kB.args main_arg5 (by decide +kernel), kB.args main_arg6 (by decide +kernel), kB.args main_arg7 (by decide +kernel),
    readB1, kA.args main_arg2 (by decide +kernel), kA.args main_arg3 (by decide +kernel),
    readA1, hK.src, hK.dst, hx, aggOf_edges]
  exact refLayer_stages _ _ _ _ _ _ _ _ _ _ _ _ _ _

theorem layer2 (V W : Valuation τ sig (Elt Ideal)) (X : FVec Ideal S50000x64 .f32) (hK : Kept V W)
    (hx : W (Proc.devRef .tc main_v153) = X) :
    Kept V (after pE2 (after pD2 (after pC2 (after pB2 (after pA2 (W))))))
    ∧ after pE2 (after pD2 (after pC2 (after pB2 (after pA2 (W))))) (Proc.devRef .tc main_v228)
        = progLayer 2 X (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have kA := hK.step pA2 wrA2 writesA2 disjA2
  have kB := kA.step pB2 wrB2 writesB2 disjB2
  have kC := kB.step pC2 wrC2 writesC2 disjC2
  have kD := kC.step pD2 wrD2 writesD2 disjD2
  have kE := kD.step pE2 wrE2 writesE2 disjE2
  refine ⟨kE, ?_⟩
  rw [readE2, kD.args main_arg10 (by decide +kernel), kD.args main_arg11 (by decide +kernel), kD.args main_arg12 (by decide +kernel), kD.args main_arg13 (by decide +kernel),
    readD2, kC.args main_arg8 (by decide +kernel), kC.args main_arg9 (by decide +kernel),
    readC2, kB.args main_arg4 (by decide +kernel), kB.args main_arg5 (by decide +kernel), kB.args main_arg6 (by decide +kernel), kB.args main_arg7 (by decide +kernel),
    readB2, kA.args main_arg2 (by decide +kernel), kA.args main_arg3 (by decide +kernel),
    readA2, hK.src, hK.dst, hx, aggOf_edges]
  exact refLayer_stages _ _ _ _ _ _ _ _ _ _ _ _ _ _

theorem headRead (V W : Valuation τ sig (Elt Ideal)) (X : FVec Ideal S50000x64 .f32) (hK : Kept V W)
    (hx : W (Proc.devRef .tc main_v228) = X) :
    after pHL (after pHD (after pHC W)) (Proc.devRef .tc main_v253)
      = refHead X (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have kC := hK.step pHC wrHC writesHC disjHC
  rw [readHL, readHD, kC.args main_arg20 (by decide +kernel), kC.args main_arg21 (by decide +kernel),
    readHC, hK.args main_arg14 (by decide +kernel), hK.args main_arg15 (by decide +kernel), hK.args main_arg16 (by decide +kernel), hK.args main_arg17 (by decide +kernel),
    hK.args main_arg18 (by decide +kernel), hK.args main_arg19 (by decide +kernel), hx]
  rfl

/-! ## The whole program -/

/-- From any contents `V`, the result buffer ends at the program's composition of stage functions of `V`'s arguments. -/
theorem out_value (V : Valuation τ sig (Elt Ideal)) :
    after ValueP.ops V (Proc.devRef .tc main_v253) = progOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [after_pieces]
  have k0 : Kept V (after pEdges V) := ⟨fun r hr => keptEdges V (disjEdges r hr), readSrc V, readDst V⟩
  obtain ⟨k1, h1⟩ := layer0 V _ _ k0 (k0.args main_arg0 (by decide +kernel))
  obtain ⟨k2, h2⟩ := layer1 V _ _ k1 h1
  obtain ⟨k3, h3⟩ := layer2 V _ _ k2 h2
  exact headRead V _ _ k3 h3

/-- Every weakly fair execution of the reference terminates with the result array at the model's network of the
    arguments and the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v253) = Cert.Model.out Cert.Spec.bnR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c =>
    ⟨(h c main_v253).trans ((out_value (launchContents m c)).trans (progOut_eq _ _ _ _ _ _ _ _ _ _ _ _ _ _ _ _ _ _ _ _ _ _)),
      (h c main_arg0).trans (Cert.ReferenceIdeal.RefKept.arg0_kept (launchContents m c)),
      (h c main_arg1).trans (Cert.ReferenceIdeal.RefKept.arg1_kept (launchContents m c)),
      (h c main_arg2).trans (Cert.ReferenceIdeal.RefKept.arg2_kept (launchContents m c)),
      (h c main_arg3).trans (Cert.ReferenceIdeal.RefKept.arg3_kept (launchContents m c)),
      (h c main_arg4).trans (Cert.ReferenceIdeal.RefKept.arg4_kept (launchContents m c)),
      (h c main_arg5).trans (Cert.ReferenceIdeal.RefKept.arg5_kept (launchContents m c)),
      (h c main_arg6).trans (Cert.ReferenceIdeal.RefKept.arg6_kept (launchContents m c)),
      (h c main_arg7).trans (Cert.ReferenceIdeal.RefKept.arg7_kept (launchContents m c)),
      (h c main_arg8).trans (Cert.ReferenceIdeal.RefKept.arg8_kept (launchContents m c)),
      (h c main_arg9).trans (Cert.ReferenceIdeal.RefKept.arg9_kept (launchContents m c)),
      (h c main_arg10).trans (Cert.ReferenceIdeal.RefKept.arg10_kept (launchContents m c)),
      (h c main_arg11).trans (Cert.ReferenceIdeal.RefKept.arg11_kept (launchContents m c)),
      (h c main_arg12).trans (Cert.ReferenceIdeal.RefKept.arg12_kept (launchContents m c)),
      (h c main_arg13).trans (Cert.ReferenceIdeal.RefKept.arg13_kept (launchContents m c)),
      (h c main_arg14).trans (Cert.ReferenceIdeal.RefKept.arg14_kept (launchContents m c)),
      (h c main_arg15).trans (Cert.ReferenceIdeal.RefKept.arg15_kept (launchContents m c)),
      (h c main_arg16).trans (Cert.ReferenceIdeal.RefKept.arg16_kept (launchContents m c)),
      (h c main_arg17).trans (Cert.ReferenceIdeal.RefKept.arg17_kept (launchContents m c)),
      (h c main_arg18).trans (Cert.ReferenceIdeal.RefKept.arg18_kept (launchContents m c)),
      (h c main_arg19).trans (Cert.ReferenceIdeal.RefKept.arg19_kept (launchContents m c)),
      (h c main_arg20).trans (Cert.ReferenceIdeal.RefKept.arg20_kept (launchContents m c)),
      (h c main_arg21).trans (Cert.ReferenceIdeal.RefKept.arg21_kept (launchContents m c))⟩)
    (ValueP.run_after (F := Ideal) m ρ)

end Cert.ReferenceIdeal.RefValue

end
-- ==== Proof.lean ====
/-
  The certificate of a three-layer GIN with a dense head: the Pallas kernels against the jnp reference, on the extended
  reals.

  Both programs compute, from the node features, the edge list and the stacked parameters, three times "neighbour sums,
  then a row-local chain dense / batch norm / positive part / dense / batch norm / positive part", and a head "dense /
  batch norm / positive part / dense / log-softmax of the row" (Spec.lean, Model.lean). They differ in one spelling: the
  kernel multiplies by the reciprocal square root of `v + ε`, the reference divides by its square root. The two are equal
  for every numerator as soon as `0 < v + ε`; the precondition says the running variances are non-negative (PreFacts.lean)
  and ε is a positive real.

  The kernel's side: each region's output array is the layer (the head) of the arrays the region finds (LayerBody.lean,
  HeadBody.lean for a block; Blocks*.lean from the blocks to the array), the host stretches between the regions compute
  the neighbour sums and the parameter slices (KHost.lean), the boundaries chain up to the network of the launch arrays
  (KChain.lean), and the run ends with the result array at that value (KernelRun.lean). The reference's side: its run ends
  with its result at the same network in its own spelling (RefSide.lean). The frames of the two kernels are their
  generated frame certificates; the reference's frame is its run with the result dropped.
-/
import proofs.«137670_j89919435309328_2_alg».proof.Defs
import proofs.«137670_j89919435309328_2_alg».proof.Proof.Gen.Kernel
import proofs.«137670_j89919435309328_2_alg».proof.Proof.Gen.Kernel.Skeleton
import proofs.«137670_j89919435309328_2_alg».proof.Proof.Gen.Kernel.Launch
import proofs.«137670_j89919435309328_2_alg».proof.Proof.Gen.Kernel.Points
import proofs.«137670_j89919435309328_2_alg».proof.Proof.Gen.Kernel.Frame
import proofs.«137670_j89919435309328_2_alg».proof.Proof.Gen.KernelIdeal
import proofs.«137670_j89919435309328_2_alg».proof.Proof.Gen.KernelIdeal.Skeleton
import proofs.«137670_j89919435309328_2_alg».proof.Proof.Gen.KernelIdeal.Launch
import proofs.«137670_j89919435309328_2_alg».proof.Proof.Gen.KernelIdeal.Points
import proofs.«137670_j89919435309328_2_alg».proof.Proof.Gen.KernelIdeal.Frame
import proofs.«137670_j89919435309328_2_alg».proof.Proof.Gen.ReferenceIdeal
import proofs.«137670_j89919435309328_2_alg».proof.Proof.Gen.Pre_finite_inputs
import proofs.«137670_j89919435309328_2_alg».proof.Proof.KernelRun
import proofs.«137670_j89919435309328_2_alg».proof.Proof.KChain
import proofs.«137670_j89919435309328_2_alg».proof.Proof.PreFacts
import proofs.«137670_j89919435309328_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefValue.run' m ρ)

/-- No operation of the kernel was rewritten when it was idealized. -/
theorem preserves : Cert.preserves_Kernel_KernelIdeal := trivial

/-- From memories agreeing on the arguments both programs end with the result array at the network of the arguments:
    the kernel in its spelling, the reference in its own, one function where the variances are non-negative. -/
theorem algebraic : Cert.algebraic_KernelIdeal_ReferenceIdeal := by
  intro m ρ m' ρ' hpre hagree
  refine ⟨fun c => Cert.Model.out Cert.Spec.bnK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.KChain.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RefValue.run' m' ρ')
    obtain ⟨h7, h13, h19⟩ := Cert.PreFacts.variances_nonneg m hpre c
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
    exact (Cert.Model.out_bnK_eq_bnR Cert.PreFacts.eps_pos _ _ _ _ _ _ _ _ _ _ _ _ _ _ _ _ _ _ _ _ _ _ h7 h13 h19).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
